-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v298)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v298) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S4x2x2 : Shape := ⟨3, ![4, 2, 2]⟩
abbrev S2 : Shape := ⟨1, ![2]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S4x2x2 : S_.BroadcastsInDim S4x2x2 (![] : Fin 0 → Fin S4x2x2.rank)
  reducesTo_S4x2x2_S_d0_1_2 : S4x2x2.ReducesTo [0, 1, 2] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S4x2x2 1) : IVec S_ 1 :=
  let main_c_5 : IVec S_ 1 := constantI S_ 1 1#1
  let main_v17 : IVec S_ 1 := (fun x v => Host.reduce IntOp.andi x v reducesTo_S4x2x2_S_d0_1_2 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S8388608x4 .f32) (main_arg1 : FVec F S4x2x2 .f32) (main_arg2 : FVec F S2 .f32) (main_arg3 : FVec F S4x2x2 .f32) (main_arg4 : FVec F S2 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S4x2x2 .f32 := Host.absf main_arg1
  let main_cst_0 : FVec F S_ .f32 := constant S_ .f32 0x7F800000#32
  let main_v5 : FVec F S4x2x2 .f32 := broadcastInDim S4x2x2 ![] bcast_S_S4x2x2 main_cst_0
  let main_v6 : IVec S4x2x2 1 := cmpf .olt main_v4 main_v5
  let main_c_1 : IVec S_ 1 := constantI S_ 1 1#1
  let main_v7 : IVec S_ 1 := (fun x v => Host.reduce IntOp.andi x v reducesTo_S4x2x2_S_d0_1_2 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S4x2x2 .f32 := Host.absf main_arg3
  let main_cst_4 : FVec F S_ .f32 := constant S_ .f32 0x7F800000#32
  let main_v15 : FVec F S4x2x2 .f32 := broadcastInDim S4x2x2 ![] bcast_S_S4x2x2 main_cst_4
  let main_v16 : IVec S4x2x2 1 := cmpf .olt main_v14 main_v15
  fn_part1 (F := F) main_arg4 main_v13 main_v16
-- ==== Kernel.lean ====
abbrev S8388608x4 : Shape := ⟨2, ![8388608, 4]⟩
abbrev S4x2x2 : Shape := ⟨3, ![4, 2, 2]⟩
abbrev S2 : Shape := ⟨1, ![2]⟩
abbrev S4x4 : Shape := ⟨2, ![4, 4]⟩
abbrev S1x2x2 : Shape := ⟨3, ![1, 2, 2]⟩
abbrev S2x2 : Shape := ⟨2, ![2, 2]⟩
abbrev S_ : Shape := ⟨0, ![]⟩
abbrev S1 : Shape := ⟨1, ![1]⟩
abbrev S4 : Shape := ⟨1, ![4]⟩
abbrev S1x1 : Shape := ⟨2, ![1, 1]⟩
abbrev S1x4 : Shape := ⟨2, ![1, 4]⟩
abbrev S4096x4 : Shape := ⟨2, ![4096, 4]⟩
abbrev S4096x1 : Shape := ⟨2, ![4096, 1]⟩

abbrev nBuf : Space → Nat
  | .hbm => 403
  | .vmem => 8
  | .smem => 0
  | _ => 0

abbrev hbmTy0_0 (i : Nat) : BufTy := match i % 128 with
  | 0 => ⟨S8388608x4, .f32⟩
  | 1 => ⟨S4x2x2, .f32⟩
  | 2 => ⟨S2, .f32⟩
  | 3 => ⟨S4x2x2, .f32⟩
  | 4 => ⟨S2, .f32⟩
  | 5 => ⟨S4x4, .f32⟩
  | 6 => ⟨S4x2x2, .f32⟩
  | 7 => ⟨S4x2x2, .f32⟩
  | 8 => ⟨S4x2x2, .f32⟩
  | 9 => ⟨S4x2x2, .f32⟩
  | 10 => ⟨S1x2x2, .f32⟩
  | 11 => ⟨S2x2, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S1, .f32⟩
  | 20 => ⟨S4, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .f32⟩
  | 28 => ⟨S1, .f32⟩
  | 29 => ⟨S4, .f32⟩
  | 30 => ⟨S1x1, .f32⟩
  | 31 => ⟨S_, .f32⟩
  | 32 => ⟨S1x1, .f32⟩
  | 33 => ⟨S_, .f32⟩
  | 34 => ⟨S_, .f32⟩
  | 35 => ⟨S_, .f32⟩
  | 36 => ⟨S1, .f32⟩
  | 37 => ⟨S1, .f32⟩
  | 38 => ⟨S1, .f32⟩
  | 39 => ⟨S1, .f32⟩
  | 40 => ⟨S4, .f32⟩
  | 41 => ⟨S1x1, .f32⟩
  | 42 => ⟨S_, .f32⟩
  | 43 => ⟨S1x1, .f32⟩
  | 44 => ⟨S_, .f32⟩
  | 45 => ⟨S_, .f32⟩
  | 46 => ⟨S_, .f32⟩
  | 47 => ⟨S1, .f32⟩
  | 48 => ⟨S1, .f32⟩
  | 49 => ⟨S1, .f32⟩
  | 50 => ⟨S1, .f32⟩
  | 51 => ⟨S4, .f32⟩
  | 52 => ⟨S1x4, .f32⟩
  | 53 => ⟨S1x4, .f32⟩
  | 54 => ⟨S1x4, .f32⟩
  | 55 => ⟨S1x4, .f32⟩
  | 56 => ⟨S4x4, .f32⟩
  | 57 => ⟨S1x2x2, .f32⟩
  | 58 => ⟨S2x2, .f32⟩
  | 59 => ⟨S1x1, .f32⟩
  | 60 => ⟨S_, .f32⟩
  | 61 => ⟨S1x1, .f32⟩
  | 62 => ⟨S_, .f32⟩
  | 63 => ⟨S_, .f32⟩
  | 64 => ⟨S_, .f32⟩
  | 65 => ⟨S1, .f32⟩
  | 66 => ⟨S1, .f32⟩
  | 67 => ⟨S1, .f32⟩
  | 68 => ⟨S1, .f32⟩
  | 69 => ⟨S4, .f32⟩
  | 70 => ⟨S1x1, .f32⟩
  | 71 => ⟨S_, .f32⟩
  | 72 => ⟨S1x1, .f32⟩
  | 73 => ⟨S_, .f32⟩
  | 74 => ⟨S_, .f32⟩
  | 75 => ⟨S_, .f32⟩
  | 76 => ⟨S1, .f32⟩
  | 77 => ⟨S1, .f32⟩
  | 78 => ⟨S1, .f32⟩
  | 79 => ⟨S1, .f32⟩
  | 80 => ⟨S4, .f32⟩
  | 81 => ⟨S_, .f32⟩
  | 82 => ⟨S_, .f32⟩
  | 83 => ⟨S_, .f32⟩
  | 84 => ⟨S_, .f32⟩
  | 85 => ⟨S1, .f32⟩
  | 86 => ⟨S1, .f32⟩
  | 87 => ⟨S1, .f32⟩
  | 88 => ⟨S1, .f32⟩
  | 89 => ⟨S4, .f32⟩
  | 90 => ⟨S_, .f32⟩
  | 91 => ⟨S_, .f32⟩
  | 92 => ⟨S_, .f32⟩
  | 93 => ⟨S_, .f32⟩
  | 94 => ⟨S1, .f32⟩
  | 95 => ⟨S1, .f32⟩
  | 96 => ⟨S1, .f32⟩
  | 97 => ⟨S1, .f32⟩
  | 98 => ⟨S4, .f32⟩
  | 99 => ⟨S1x4, .f32⟩
  | 100 => ⟨S1x4, .f32⟩
  | 101 => ⟨S1x4, .f32⟩
  | 102 => ⟨S1x4, .f32⟩
  | 103 => ⟨S4x4, .f32⟩
  | 104 => ⟨S1x2x2, .f32⟩
  | 105 => ⟨S2x2, .f32⟩
  | 106 => ⟨S_, .f32⟩
  | 107 => ⟨S_, .f32⟩
  | 108 => ⟨S_, .f32⟩
  | 109 => ⟨S_, .f32⟩
  | 110 => ⟨S1, .f32⟩
  | 111 => ⟨S1, .f32⟩
  | 112 => ⟨S1, .f32⟩
  | 113 => ⟨S1, .f32⟩
  | 114 => ⟨S4, .f32⟩
  | 115 => ⟨S_, .f32⟩
  | 116 => ⟨S_, .f32⟩
  | 117 => ⟨S_, .f32⟩
  | 118 => ⟨S_, .f32⟩
  | 119 => ⟨S1, .f32⟩
  | 120 => ⟨S1, .f32⟩
  | 121 => ⟨S1, .f32⟩
  | 122 => ⟨S1, .f32⟩
  | 123 => ⟨S4, .f32⟩
  | 124 => ⟨S1x1, .f32⟩
  | 125 => ⟨S_, .f32⟩
  | 126 => ⟨S1x1, .f32⟩
  | 127 => ⟨S_, .f32⟩
  | _ => ⟨S8388608x4, .f32⟩

abbrev hbmTy0_1 (i : Nat) : BufTy := match i % 128 with
  | 0 => ⟨S_, .f32⟩
  | 1 => ⟨S_, .f32⟩
  | 2 => ⟨S1, .f32⟩
  | 3 => ⟨S1, .f32⟩
  | 4 => ⟨S1, .f32⟩
  | 5 => ⟨S1, .f32⟩
  | 6 => ⟨S4, .f32⟩
  | 7 => ⟨S1x1, .f32⟩
  | 8 => ⟨S_, .f32⟩
  | 9 => ⟨S1x1, .f32⟩
  | 10 => ⟨S_, .f32⟩
  | 11 => ⟨S_, .f32⟩
  | 12 => ⟨S_, .f32⟩
  | 13 => ⟨S1, .f32⟩
  | 14 => ⟨S1, .f32⟩
  | 15 => ⟨S1, .f32⟩
  | 16 => ⟨S1, .f32⟩
  | 17 => ⟨S4, .f32⟩
  | 18 => ⟨S1x4, .f32⟩
  | 19 => ⟨S1x4, .f32⟩
  | 20 => ⟨S1x4, .f32⟩
  | 21 => ⟨S1x4, .f32⟩
  | 22 => ⟨S4x4, .f32⟩
  | 23 => ⟨S1x2x2, .f32⟩
  | 24 => ⟨S2x2, .f32⟩
  | 25 => ⟨S1x1, .f32⟩
  | 26 => ⟨S_, .f32⟩
  | 27 => ⟨S1x1, .f32⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S1, .f32⟩
  | 35 => ⟨S4, .f32⟩
  | 36 => ⟨S1x1, .f32⟩
  | 37 => ⟨S_, .f32⟩
  | 38 => ⟨S1x1, .f32⟩
  | 39 => ⟨S_, .f32⟩
  | 40 => ⟨S_, .f32⟩
  | 41 => ⟨S_, .f32⟩
  | 42 => ⟨S1, .f32⟩
  | 43 => ⟨S1, .f32⟩
  | 44 => ⟨S1, .f32⟩
  | 45 => ⟨S1, .f32⟩
  | 46 => ⟨S4, .f32⟩
  | 47 => ⟨S_, .f32⟩
  | 48 => ⟨S_, .f32⟩
  | 49 => ⟨S_, .f32⟩
  | 50 => ⟨S_, .f32⟩
  | 51 => ⟨S1, .f32⟩
  | 52 => ⟨S1, .f32⟩
  | 53 => ⟨S1, .f32⟩
  | 54 => ⟨S1, .f32⟩
  | 55 => ⟨S4, .f32⟩
  | 56 => ⟨S_, .f32⟩
  | 57 => ⟨S_, .f32⟩
  | 58 => ⟨S_, .f32⟩
  | 59 => ⟨S_, .f32⟩
  | 60 => ⟨S1, .f32⟩
  | 61 => ⟨S1, .f32⟩
  | 62 => ⟨S1, .f32⟩
  | 63 => ⟨S1, .f32⟩
  | 64 => ⟨S4, .f32⟩
  | 65 => ⟨S1x4, .f32⟩
  | 66 => ⟨S1x4, .f32⟩
  | 67 => ⟨S1x4, .f32⟩
  | 68 => ⟨S1x4, .f32⟩
  | 69 => ⟨S4x4, .f32⟩
  | 70 => ⟨S4x4, .f32⟩
  | 71 => ⟨S4x4, .f32⟩
  | 72 => ⟨S4x4, .f32⟩
  | 73 => ⟨S4x4, .f32⟩
  | 74 => ⟨S4x4, .f32⟩
  | 75 => ⟨S1x2x2, .f32⟩
  | 76 => ⟨S2x2, .f32⟩
  | 77 => ⟨S1x1, .f32⟩
  | 78 => ⟨S_, .f32⟩
  | 79 => ⟨S1x1, .f32⟩
  | 80 => ⟨S_, .f32⟩
  | 81 => ⟨S_, .f32⟩
  | 82 => ⟨S_, .f32⟩
  | 83 => ⟨S1, .f32⟩
  | 84 => ⟨S1, .f32⟩
  | 85 => ⟨S1, .f32⟩
  | 86 => ⟨S1, .f32⟩
  | 87 => ⟨S4, .f32⟩
  | 88 => ⟨S1x1, .f32⟩
  | 89 => ⟨S_, .f32⟩
  | 90 => ⟨S1x1, .f32⟩
  | 91 => ⟨S_, .f32⟩
  | 92 => ⟨S_, .f32⟩
  | 93 => ⟨S_, .f32⟩
  | 94 => ⟨S1, .f32⟩
  | 95 => ⟨S1, .f32⟩
  | 96 => ⟨S1, .f32⟩
  | 97 => ⟨S1, .f32⟩
  | 98 => ⟨S4, .f32⟩
  | 99 => ⟨S_, .f32⟩
  | 100 => ⟨S_, .f32⟩
  | 101 => ⟨S_, .f32⟩
  | 102 => ⟨S_, .f32⟩
  | 103 => ⟨S1, .f32⟩
  | 104 => ⟨S1, .f32⟩
  | 105 => ⟨S1, .f32⟩
  | 106 => ⟨S1, .f32⟩
  | 107 => ⟨S4, .f32⟩
  | 108 => ⟨S_, .f32⟩
  | 109 => ⟨S_, .f32⟩
  | 110 => ⟨S_, .f32⟩
  | 111 => ⟨S_, .f32⟩
  | 112 => ⟨S1, .f32⟩
  | 113 => ⟨S1, .f32⟩
  | 114 => ⟨S1, .f32⟩
  | 115 => ⟨S1, .f32⟩
  | 116 => ⟨S4, .f32⟩
  | 117 => ⟨S1x4, .f32⟩
  | 118 => ⟨S1x4, .f32⟩
  | 119 => ⟨S1x4, .f32⟩
  | 120 => ⟨S1x4, .f32⟩
  | 121 => ⟨S4x4, .f32⟩
  | 122 => ⟨S1x2x2, .f32⟩
  | 123 => ⟨S2x2, .f32⟩
  | 124 => ⟨S_, .f32⟩
  | 125 => ⟨S_, .f32⟩
  | 126 => ⟨S_, .f32⟩
  | 127 => ⟨S_, .f32⟩
  | _ => ⟨S8388608x4, .f32⟩

abbrev hbmTy0_2 (i : Nat) : BufTy := match i % 128 with
  | 0 => ⟨S1, .f32⟩
  | 1 => ⟨S1, .f32⟩
  | 2 => ⟨S1, .f32⟩
  | 3 => ⟨S1, .f32⟩
  | 4 => ⟨S4, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .f32⟩
  | 12 => ⟨S1, .f32⟩
  | 13 => ⟨S4, .f32⟩
  | 14 => ⟨S1x1, .f32⟩
  | 15 => ⟨S_, .f32⟩
  | 16 => ⟨S1x1, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S4, .f32⟩
  | 25 => ⟨S1x1, .f32⟩
  | 26 => ⟨S_, .f32⟩
  | 27 => ⟨S1x1, .f32⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S1, .f32⟩
  | 35 => ⟨S4, .f32⟩
  | 36 => ⟨S1x4, .f32⟩
  | 37 => ⟨S1x4, .f32⟩
  | 38 => ⟨S1x4, .f32⟩
  | 39 => ⟨S1x4, .f32⟩
  | 40 => ⟨S4x4, .f32⟩
  | 41 => ⟨S1x2x2, .f32⟩
  | 42 => ⟨S2x2, .f32⟩
  | 43 => ⟨S1x1, .f32⟩
  | 44 => ⟨S_, .f32⟩
  | 45 => ⟨S1x1, .f32⟩
  | 46 => ⟨S_, .f32⟩
  | 47 => ⟨S_, .f32⟩
  | 48 => ⟨S_, .f32⟩
  | 49 => ⟨S1, .f32⟩
  | 50 => ⟨S1, .f32⟩
  | 51 => ⟨S1, .f32⟩
  | 52 => ⟨S1, .f32⟩
  | 53 => ⟨S4, .f32⟩
  | 54 => ⟨S1x1, .f32⟩
  | 55 => ⟨S_, .f32⟩
  | 56 => ⟨S1x1, .f32⟩
  | 57 => ⟨S_, .f32⟩
  | 58 => ⟨S_, .f32⟩
  | 59 => ⟨S_, .f32⟩
  | 60 => ⟨S1, .f32⟩
  | 61 => ⟨S1, .f32⟩
  | 62 => ⟨S1, .f32⟩
  | 63 => ⟨S1, .f32⟩
  | 64 => ⟨S4, .f32⟩
  | 65 => ⟨S_, .f32⟩
  | 66 => ⟨S_, .f32⟩
  | 67 => ⟨S_, .f32⟩
  | 68 => ⟨S_, .f32⟩
  | 69 => ⟨S1, .f32⟩
  | 70 => ⟨S1, .f32⟩
  | 71 => ⟨S1, .f32⟩
  | 72 => ⟨S1, .f32⟩
  | 73 => ⟨S4, .f32⟩
  | 74 => ⟨S_, .f32⟩
  | 75 => ⟨S_, .f32⟩
  | 76 => ⟨S_, .f32⟩
  | 77 => ⟨S_, .f32⟩
  | 78 => ⟨S1, .f32⟩
  | 79 => ⟨S1, .f32⟩
  | 80 => ⟨S1, .f32⟩
  | 81 => ⟨S1, .f32⟩
  | 82 => ⟨S4, .f32⟩
  | 83 => ⟨S1x4, .f32⟩
  | 84 => ⟨S1x4, .f32⟩
  | 85 => ⟨S1x4, .f32⟩
  | 86 => ⟨S1x4, .f32⟩
  | 87 => ⟨S4x4, .f32⟩
  | 88 => ⟨S1x2x2, .f32⟩
  | 89 => ⟨S2x2, .f32⟩
  | 90 => ⟨S_, .f32⟩
  | 91 => ⟨S_, .f32⟩
  | 92 => ⟨S_, .f32⟩
  | 93 => ⟨S_, .f32⟩
  | 94 => ⟨S1, .f32⟩
  | 95 => ⟨S1, .f32⟩
  | 96 => ⟨S1, .f32⟩
  | 97 => ⟨S1, .f32⟩
  | 98 => ⟨S4, .f32⟩
  | 99 => ⟨S_, .f32⟩
  | 100 => ⟨S_, .f32⟩
  | 101 => ⟨S_, .f32⟩
  | 102 => ⟨S_, .f32⟩
  | 103 => ⟨S1, .f32⟩
  | 104 => ⟨S1, .f32⟩
  | 105 => ⟨S1, .f32⟩
  | 106 => ⟨S1, .f32⟩
  | 107 => ⟨S4, .f32⟩
  | 108 => ⟨S1x1, .f32⟩
  | 109 => ⟨S_, .f32⟩
  | 110 => ⟨S1x1, .f32⟩
  | 111 => ⟨S_, .f32⟩
  | 112 => ⟨S_, .f32⟩
  | 113 => ⟨S_, .f32⟩
  | 114 => ⟨S1, .f32⟩
  | 115 => ⟨S1, .f32⟩
  | 116 => ⟨S1, .f32⟩
  | 117 => ⟨S1, .f32⟩
  | 118 => ⟨S4, .f32⟩
  | 119 => ⟨S1x1, .f32⟩
  | 120 => ⟨S_, .f32⟩
  | 121 => ⟨S1x1, .f32⟩
  | 122 => ⟨S_, .f32⟩
  | 123 => ⟨S_, .f32⟩
  | 124 => ⟨S_, .f32⟩
  | 125 => ⟨S1, .f32⟩
  | 126 => ⟨S1, .f32⟩
  | 127 => ⟨S1, .f32⟩
  | _ => ⟨S8388608x4, .f32⟩

abbrev hbmTy0_3 (i : Nat) : BufTy := match i % 128 with
  | 0 => ⟨S1, .f32⟩
  | 1 => ⟨S4, .f32⟩
  | 2 => ⟨S1x4, .f32⟩
  | 3 => ⟨S1x4, .f32⟩
  | 4 => ⟨S1x4, .f32⟩
  | 5 => ⟨S1x4, .f32⟩
  | 6 => ⟨S4x4, .f32⟩
  | 7 => ⟨S4x4, .f32⟩
  | 8 => ⟨S4x4, .f32⟩
  | 9 => ⟨S4x4, .f32⟩
  | 10 => ⟨S4x4, .f32⟩
  | 11 => ⟨S4x4, .f32⟩
  | 12 => ⟨S_, .f32⟩
  | 13 => ⟨S2, .f32⟩
  | 14 => ⟨S4, .f32⟩
  | 15 => ⟨S_, .f32⟩
  | 16 => ⟨S2, .f32⟩
  | 17 => ⟨S4, .f32⟩
  | 18 => ⟨S8388608x4, .f32⟩
  | _ => ⟨S8388608x4, .f32⟩

abbrev hbmTy (i : Nat) : BufTy := match i / 128 with
  | 0 => hbmTy0_0 i
  | 1 => hbmTy0_1 i
  | 2 => hbmTy0_2 i
  | 3 => hbmTy0_3 i
  | _ => ⟨S8388608x4, .f32⟩

abbrev bufTy : (tb : Table) → Fin (tcTables nBuf tb) → BufTy
  | .hbm, ⟨i, _⟩ => hbmTy i
  | .local _ .vmem, ⟨0, _⟩ => ⟨S4x4, .f32⟩
  | .local _ .vmem, ⟨1, _⟩ => ⟨S4x4, .f32⟩
  | .local _ .vmem, ⟨2, _⟩ => ⟨S4, .f32⟩
  | .local _ .vmem, ⟨3, _⟩ => ⟨S4, .f32⟩
  | .local _ .vmem, ⟨4, _⟩ => ⟨S4096x4, .f32⟩
  | .local _ .vmem, ⟨5, _⟩ => ⟨S4096x4, .f32⟩
  | .local _ .vmem, ⟨6, _⟩ => ⟨S4096x4, .f32⟩
  | .local _ .vmem, ⟨7, _⟩ => ⟨S4096x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_cst_5 : Ref sig .tc := ⟨.hbm, 22, rfl⟩
abbrev main_cst_6 : Ref sig .tc := ⟨.hbm, 23, rfl⟩
abbrev main_cst_7 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_8 : Ref sig .tc := ⟨.hbm, 34, rfl⟩
abbrev main_cst_9 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_cst_11 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_cst_15 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_cst_17 : Ref sig .tc := ⟨.hbm, 82, rfl⟩
abbrev main_cst_18 : Ref sig .tc := ⟨.hbm, 83, rfl⟩
abbrev main_cst_19 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_20 : Ref sig .tc := ⟨.hbm, 90, rfl⟩
abbrev main_cst_21 : Ref sig .tc := ⟨.hbm, 91, rfl⟩
abbrev main_cst_22 : Ref sig .tc := ⟨.hbm, 92, rfl⟩
abbrev main_cst_23 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_24 : Ref sig .tc := ⟨.hbm, 106, rfl⟩
abbrev main_cst_25 : Ref sig .tc := ⟨.hbm, 107, rfl⟩
abbrev main_cst_26 : Ref sig .tc := ⟨.hbm, 108, rfl⟩
abbrev main_cst_27 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_28 : Ref sig .tc := ⟨.hbm, 115, rfl⟩
abbrev main_cst_29 : Ref sig .tc := ⟨.hbm, 116, rfl⟩
abbrev main_cst_30 : Ref sig .tc := ⟨.hbm, 117, rfl⟩
abbrev main_cst_31 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_32 : Ref sig .tc := ⟨.hbm, 128, rfl⟩
abbrev main_cst_33 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_34 : Ref sig .tc := ⟨.hbm, 139, rfl⟩
abbrev main_cst_35 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_36 : Ref sig .tc := ⟨.hbm, 157, rfl⟩
abbrev main_cst_37 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_38 : Ref sig .tc := ⟨.hbm, 168, rfl⟩
abbrev main_cst_39 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_40 : Ref sig .tc := ⟨.hbm, 175, rfl⟩
abbrev main_cst_41 : Ref sig .tc := ⟨.hbm, 176, rfl⟩
abbrev main_cst_42 : Ref sig .tc := ⟨.hbm, 177, rfl⟩
abbrev main_cst_43 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_44 : Ref sig .tc := ⟨.hbm, 184, rfl⟩
abbrev main_cst_45 : Ref sig .tc := ⟨.hbm, 185, rfl⟩
abbrev main_cst_46 : Ref sig .tc := ⟨.hbm, 186, rfl⟩
abbrev main_cst_47 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_48 : Ref sig .tc := ⟨.hbm, 209, rfl⟩
abbrev main_cst_49 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_50 : Ref sig .tc := ⟨.hbm, 220, rfl⟩
abbrev main_cst_51 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_cst_52 : Ref sig .tc := ⟨.hbm, 227, rfl⟩
abbrev main_cst_53 : Ref sig .tc := ⟨.hbm, 228, rfl⟩
abbrev main_cst_54 : Ref sig .tc := ⟨.hbm, 229, rfl⟩
abbrev main_cst_55 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_cst_56 : Ref sig .tc := ⟨.hbm, 236, rfl⟩
abbrev main_cst_57 : Ref sig .tc := ⟨.hbm, 237, rfl⟩
abbrev main_cst_58 : Ref sig .tc := ⟨.hbm, 238, rfl⟩
abbrev main_cst_59 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_60 : Ref sig .tc := ⟨.hbm, 252, rfl⟩
abbrev main_cst_61 : Ref sig .tc := ⟨.hbm, 253, rfl⟩
abbrev main_cst_62 : Ref sig .tc := ⟨.hbm, 254, rfl⟩
abbrev main_cst_63 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_cst_64 : Ref sig .tc := ⟨.hbm, 261, rfl⟩
abbrev main_cst_65 : Ref sig .tc := ⟨.hbm, 262, rfl⟩
abbrev main_cst_66 : Ref sig .tc := ⟨.hbm, 263, rfl⟩
abbrev main_cst_67 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_cst_68 : Ref sig .tc := ⟨.hbm, 274, rfl⟩
abbrev main_cst_69 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_70 : Ref sig .tc := ⟨.hbm, 285, rfl⟩
abbrev main_cst_71 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_cst_72 : Ref sig .tc := ⟨.hbm, 303, rfl⟩
abbrev main_cst_73 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_cst_74 : Ref sig .tc := ⟨.hbm, 314, rfl⟩
abbrev main_cst_75 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_cst_76 : Ref sig .tc := ⟨.hbm, 321, rfl⟩
abbrev main_cst_77 : Ref sig .tc := ⟨.hbm, 322, rfl⟩
abbrev main_cst_78 : Ref sig .tc := ⟨.hbm, 323, rfl⟩
abbrev main_cst_79 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_cst_80 : Ref sig .tc := ⟨.hbm, 330, rfl⟩
abbrev main_cst_81 : Ref sig .tc := ⟨.hbm, 331, rfl⟩
abbrev main_cst_82 : Ref sig .tc := ⟨.hbm, 332, rfl⟩
abbrev main_cst_83 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_cst_84 : Ref sig .tc := ⟨.hbm, 346, rfl⟩
abbrev main_cst_85 : Ref sig .tc := ⟨.hbm, 347, rfl⟩
abbrev main_cst_86 : Ref sig .tc := ⟨.hbm, 348, rfl⟩
abbrev main_cst_87 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_cst_88 : Ref sig .tc := ⟨.hbm, 355, rfl⟩
abbrev main_cst_89 : Ref sig .tc := ⟨.hbm, 356, rfl⟩
abbrev main_cst_90 : Ref sig .tc := ⟨.hbm, 357, rfl⟩
abbrev main_cst_91 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_v267 : Ref sig .tc := ⟨.hbm, 365, rfl⟩
abbrev main_v268 : Ref sig .tc := ⟨.hbm, 366, rfl⟩
abbrev main_v269 : Ref sig .tc := ⟨.hbm, 367, rfl⟩
abbrev main_cst_92 : Ref sig .tc := ⟨.hbm, 368, rfl⟩
abbrev main_cst_93 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_v274 : Ref sig .tc := ⟨.hbm, 374, rfl⟩
abbrev main_v275 : Ref sig .tc := ⟨.hbm, 375, rfl⟩
abbrev main_v276 : Ref sig .tc := ⟨.hbm, 376, rfl⟩
abbrev main_v277 : Ref sig .tc := ⟨.hbm, 377, rfl⟩
abbrev main_v278 : Ref sig .tc := ⟨.hbm, 378, rfl⟩
abbrev main_cst_94 : Ref sig .tc := ⟨.hbm, 379, rfl⟩
abbrev main_cst_95 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_cst_96 : Ref sig .tc := ⟨.hbm, 396, rfl⟩
abbrev main_v294 : Ref sig .tc := ⟨.hbm, 397, rfl⟩
abbrev main_v295 : Ref sig .tc := ⟨.hbm, 398, rfl⟩
abbrev main_cst_97 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S4x2x2_S4x2x2_0_2_1 : S4x2x2.Transposes [0, 2, 1] S4x2x2
  slices_S4x2x2_S1x2x2_0_0_0 : S4x2x2.Slices ![0, 0, 0] S1x2x2
  shapeCasts_S1x2x2_S2x2 : S1x2x2.ShapeCasts S2x2
  bcast_S_S1 : S_.BroadcastsInDim S1 (![] : Fin 0 → Fin S1.rank)
  concatenates_S1_S1_S1_S1_S4_d0 : Shape.Concatenates [S1, S1, S1, S1] S4 0
  slices_S2x2_S1x1_0_0 : S2x2.Slices ![0, 0] S1x1
  shapeCasts_S1x1_S_ : S1x1.ShapeCasts S_
  slices_S2x2_S1x1_0_1 : S2x2.Slices ![0, 1] S1x1
  slices_S2x2_S1x1_1_0 : S2x2.Slices ![1, 0] S1x1
  slices_S2x2_S1x1_1_1 : S2x2.Slices ![1, 1] S1x1
  bcast_S4_S1x4_1 : S4.BroadcastsInDim S1x4 (![1] : Fin 1 → Fin S1x4.rank)
  concatenates_S1x4_S1x4_S1x4_S1x4_S4x4_d0 : Shape.Concatenates [S1x4, S1x4, S1x4, S1x4] S4x4 0
  slices_S4x2x2_S1x2x2_1_0_0 : S4x2x2.Slices ![1, 0, 0] S1x2x2
  slices_S4x2x2_S1x2x2_2_0_0 : S4x2x2.Slices ![2, 0, 0] S1x2x2
  slices_S4x2x2_S1x2x2_3_0_0 : S4x2x2.Slices ![3, 0, 0] S1x2x2
  bcast_S_S2 : S_.BroadcastsInDim S2 (![] : Fin 0 → Fin S2.rank)
  concatenates_S2_S2_S4_d0 : Shape.Concatenates [S2, S2] S4 0
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S4_S4_0 : ∀ a, (![0] : Fin 1 → Nat) a + S4.size a ≤ S4.size a
  h_S4 : 0 < S4.numel
  shapeCasts_S4_S4 : S4.ShapeCasts S4
  inb_S4096x4_S4096x4_0_0 : ∀ a, (![0, 0] : Fin 2 → Nat) a + S4096x4.size a ≤ S4096x4.size a
  h_S4096x4 : 0 < S4096x4.numel
  rotates_S4096x4_d1 : S4096x4.Rotates 1 none
  shapeCasts_S4_S1x4 : S4.ShapeCasts S1x4
  broadcasts_S1x4_S4096x4 : S1x4.Broadcasts S4096x4
  slices_S4096x4_o0_3_S4096x1 : S4096x4.Slices ![0, 3] S4096x1
  slices_S4096x4_o0_2_S4096x1 : S4096x4.Slices ![0, 2] S4096x1
  slices_S4096x4_o0_1_S4096x1 : S4096x4.Slices ![0, 1] S4096x1
  slices_S4096x4_o0_0_S4096x1 : S4096x4.Slices ![0, 0] S4096x1
  concatenates_S4096x1_S4096x1_S4096x1_S4096x1_S4096x4_d1 : Shape.Concatenates [S4096x1, S4096x1, S4096x1, S4096x1] S4096x4 1
  dot_S4x4_S4x4_S4x4_1_0_0_1_n_n_wf : DotDims.WF S4x4 S4x4 S4x4 [1] [0] [0] [1] [] []
  dot_S4096x4_S4x4_S4096x4_1_0_0_1_n_n_wf : DotDims.WF S4096x4 S4x4 S4096x4 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4.size a ≤ S4x4.size a
  hwx0_0 : ∀ i : grid0.Coords, EltTy.bits .f32 = 32 ∨ (Rect.block (s := S4x4) S4x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4.size a ≤ S4x4.size a
  hwx0_1 : ∀ i : grid0.Coords, EltTy.bits .f32 = 32 ∨ (Rect.block (s := S4x4) S4x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x4.size a ≤ S8388608x4.size a
  hwx0_4 : ∀ i : grid0.Coords, EltTy.bits .f32 = 32 ∨ (Rect.block (s := S8388608x4) S4096x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x4.size a ≤ S8388608x4.size a
  hwx0_5 : ∀ i : grid0.Coords, EltTy.bits .f32 = 32 ∨ (Rect.block (s := S8388608x4) S4096x4.size (cc0_transform_5 i) (hinb0_5 i)).WholeWords (EltTy.packing .f32)

variable [Facts₀]

def dot_S4x4_S4x4_S4x4_1_0_0_1_n_n : DotDims S4x4 S4x4 S4x4 where
  lhsContracting := [1]
  rhsContracting := [0]
  lhsNonContracting := [0]
  rhsNonContracting := [1]
  lhsBatch := []
  rhsBatch := []
  wf := dot_S4x4_S4x4_S4x4_1_0_0_1_n_n_wf
def dot_S4096x4_S4x4_S4096x4_1_0_0_1_n_n : DotDims S4096x4 S4x4 S4096x4 where
  lhsContracting := [1]
  rhsContracting := [0]
  lhsNonContracting := [0]
  rhsNonContracting := [1]
  lhsBatch := []
  rhsBatch := []
  wf := dot_S4096x4_S4x4_S4096x4_1_0_0_1_n_n_wf

abbrev win0_0 : Pipeline.Window sig grid0 :=
  Pipeline.Window.ofSpec (Memref.whole main_v148) S4x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v293) S4x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v295) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v297) S4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S4096x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v298) S4096x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S4x2x2 : Shape := ⟨3, ![4, 2, 2]⟩
abbrev S2 : Shape := ⟨1, ![2]⟩
abbrev S4 : Shape := ⟨1, ![4]⟩
abbrev S_ : Shape := ⟨0, ![]⟩
abbrev S4x1 : Shape := ⟨2, ![4, 1]⟩
abbrev S1x2x2 : Shape := ⟨3, ![1, 2, 2]⟩
abbrev S2x2 : Shape := ⟨2, ![2, 2]⟩
abbrev S8388608x2 : Shape := ⟨2, ![8388608, 2]⟩
abbrev S1x2 : Shape := ⟨2, ![1, 2]⟩

abbrev nBuf : Space → Nat
  | .hbm => 170
  | .vmem => 0
  | .smem => 0
  | _ => 0

abbrev hbmTy0_0 (i : Nat) : BufTy := match i % 128 with
  | 0 => ⟨S8388608x4, .f32⟩
  | 1 => ⟨S4x2x2, .f32⟩
  | 2 => ⟨S2, .f32⟩
  | 3 => ⟨S4x2x2, .f32⟩
  | 4 => ⟨S2, .f32⟩
  | 5 => ⟨S4, .i32⟩
  | 6 => ⟨S4, .i1⟩
  | 7 => ⟨S4, .i1⟩
  | 8 => ⟨S4, .i1⟩
  | 9 => ⟨S4, .i1⟩
  | 10 => ⟨S4, .i1⟩
  | 11 => ⟨S4, .i1⟩
  | 12 => ⟨S4, .i1⟩
  | 13 => ⟨S4, .i1⟩
  | 14 => ⟨S4, .i1⟩
  | 15 => ⟨S4, .i1⟩
  | 16 => ⟨S_, .i32⟩
  | 17 => ⟨S4, .i32⟩
  | 18 => ⟨S4, .i32⟩
  | 19 => ⟨S4, .i32⟩
  | 20 => ⟨S4x1, .i32⟩
  | 21 => ⟨S8388608x4, .f32⟩
  | 22 => ⟨S_, .i32⟩
  | 23 => ⟨S4, .i32⟩
  | 24 => ⟨S4, .i32⟩
  | 25 => ⟨S4, .i32⟩
  | 26 => ⟨S4x1, .i32⟩
  | 27 => ⟨S8388608x4, .f32⟩
  | 28 => ⟨S1x2x2, .f32⟩
  | 29 => ⟨S2x2, .f32⟩
  | 30 => ⟨S2x2, .f32⟩
  | 31 => ⟨S2x2, .f32⟩
  | 32 => ⟨S8388608x2, .f32⟩
  | 33 => ⟨S8388608x2, .f32⟩
  | 34 => ⟨S8388608x2, .f32⟩
  | 35 => ⟨S8388608x2, .f32⟩
  | 36 => ⟨S8388608x4, .f32⟩
  | 37 => ⟨S1x2x2, .f32⟩
  | 38 => ⟨S2x2, .f32⟩
  | 39 => ⟨S2x2, .f32⟩
  | 40 => ⟨S2x2, .f32⟩
  | 41 => ⟨S8388608x2, .f32⟩
  | 42 => ⟨S8388608x2, .f32⟩
  | 43 => ⟨S8388608x2, .f32⟩
  | 44 => ⟨S8388608x2, .f32⟩
  | 45 => ⟨S8388608x4, .f32⟩
  | 46 => ⟨S1x2x2, .f32⟩
  | 47 => ⟨S2x2, .f32⟩
  | 48 => ⟨S2x2, .f32⟩
  | 49 => ⟨S2x2, .f32⟩
  | 50 => ⟨S8388608x2, .f32⟩
  | 51 => ⟨S8388608x2, .f32⟩
  | 52 => ⟨S8388608x2, .f32⟩
  | 53 => ⟨S8388608x2, .f32⟩
  | 54 => ⟨S8388608x4, .f32⟩
  | 55 => ⟨S1x2x2, .f32⟩
  | 56 => ⟨S2x2, .f32⟩
  | 57 => ⟨S2x2, .f32⟩
  | 58 => ⟨S2x2, .f32⟩
  | 59 => ⟨S8388608x2, .f32⟩
  | 60 => ⟨S8388608x2, .f32⟩
  | 61 => ⟨S8388608x2, .f32⟩
  | 62 => ⟨S8388608x2, .f32⟩
  | 63 => ⟨S8388608x4, .f32⟩
  | 64 => ⟨S_, .f32⟩
  | 65 => ⟨S8388608x4, .f32⟩
  | 66 => ⟨S8388608x4, .f32⟩
  | 67 => ⟨S_, .i32⟩
  | 68 => ⟨S4, .i32⟩
  | 69 => ⟨S4, .i32⟩
  | 70 => ⟨S4, .i32⟩
  | 71 => ⟨S4x1, .i32⟩
  | 72 => ⟨S8388608x4, .f32⟩
  | 73 => ⟨S_, .i32⟩
  | 74 => ⟨S4, .i32⟩
  | 75 => ⟨S4, .i32⟩
  | 76 => ⟨S4, .i32⟩
  | 77 => ⟨S4x1, .i32⟩
  | 78 => ⟨S8388608x4, .f32⟩
  | 79 => ⟨S8388608x2, .f32⟩
  | 80 => ⟨S8388608x2, .f32⟩
  | 81 => ⟨S8388608x2, .f32⟩
  | 82 => ⟨S1x2, .f32⟩
  | 83 => ⟨S8388608x2, .f32⟩
  | 84 => ⟨S8388608x2, .f32⟩
  | 85 => ⟨S8388608x2, .f32⟩
  | 86 => ⟨S8388608x4, .f32⟩
  | 87 => ⟨S_, .i32⟩
  | 88 => ⟨S4, .i32⟩
  | 89 => ⟨S4, .i32⟩
  | 90 => ⟨S4, .i32⟩
  | 91 => ⟨S4x1, .i32⟩
  | 92 => ⟨S8388608x4, .f32⟩
  | 93 => ⟨S_, .i32⟩
  | 94 => ⟨S4, .i32⟩
  | 95 => ⟨S4, .i32⟩
  | 96 => ⟨S4, .i32⟩
  | 97 => ⟨S4x1, .i32⟩
  | 98 => ⟨S8388608x4, .f32⟩
  | 99 => ⟨S1x2x2, .f32⟩
  | 100 => ⟨S2x2, .f32⟩
  | 101 => ⟨S2x2, .f32⟩
  | 102 => ⟨S2x2, .f32⟩
  | 103 => ⟨S8388608x2, .f32⟩
  | 104 => ⟨S8388608x2, .f32⟩
  | 105 => ⟨S8388608x2, .f32⟩
  | 106 => ⟨S8388608x2, .f32⟩
  | 107 => ⟨S8388608x4, .f32⟩
  | 108 => ⟨S1x2x2, .f32⟩
  | 109 => ⟨S2x2, .f32⟩
  | 110 => ⟨S2x2, .f32⟩
  | 111 => ⟨S2x2, .f32⟩
  | 112 => ⟨S8388608x2, .f32⟩
  | 113 => ⟨S8388608x2, .f32⟩
  | 114 => ⟨S8388608x2, .f32⟩
  | 115 => ⟨S8388608x2, .f32⟩
  | 116 => ⟨S8388608x4, .f32⟩
  | 117 => ⟨S1x2x2, .f32⟩
  | 118 => ⟨S2x2, .f32⟩
  | 119 => ⟨S2x2, .f32⟩
  | 120 => ⟨S2x2, .f32⟩
  | 121 => ⟨S8388608x2, .f32⟩
  | 122 => ⟨S8388608x2, .f32⟩
  | 123 => ⟨S8388608x2, .f32⟩
  | 124 => ⟨S8388608x2, .f32⟩
  | 125 => ⟨S8388608x4, .f32⟩
  | 126 => ⟨S1x2x2, .f32⟩
  | 127 => ⟨S2x2, .f32⟩
  | _ => ⟨S8388608x4, .f32⟩

abbrev hbmTy0_1 (i : Nat) : BufTy := match i % 128 with
  | 0 => ⟨S2x2, .f32⟩
  | 1 => ⟨S2x2, .f32⟩
  | 2 => ⟨S8388608x2, .f32⟩
  | 3 => ⟨S8388608x2, .f32⟩
  | 4 => ⟨S8388608x2, .f32⟩
  | 5 => ⟨S8388608x2, .f32⟩
  | 6 => ⟨S8388608x4, .f32⟩
  | 7 => ⟨S_, .f32⟩
  | 8 => ⟨S8388608x4, .f32⟩
  | 9 => ⟨S8388608x4, .f32⟩
  | 10 => ⟨S_, .i32⟩
  | 11 => ⟨S4, .i32⟩
  | 12 => ⟨S4, .i32⟩
  | 13 => ⟨S4, .i32⟩
  | 14 => ⟨S4x1, .i32⟩
  | 15 => ⟨S8388608x4, .f32⟩
  | 16 => ⟨S_, .i32⟩
  | 17 => ⟨S4, .i32⟩
  | 18 => ⟨S4, .i32⟩
  | 19 => ⟨S4, .i32⟩
  | 20 => ⟨S4x1, .i32⟩
  | 21 => ⟨S8388608x4, .f32⟩
  | 22 => ⟨S8388608x2, .f32⟩
  | 23 => ⟨S8388608x2, .f32⟩
  | 24 => ⟨S8388608x2, .f32⟩
  | 25 => ⟨S1x2, .f32⟩
  | 26 => ⟨S8388608x2, .f32⟩
  | 27 => ⟨S8388608x2, .f32⟩
  | 28 => ⟨S8388608x2, .f32⟩
  | 29 => ⟨S8388608x4, .f32⟩
  | 30 => ⟨S_, .i32⟩
  | 31 => ⟨S4, .i32⟩
  | 32 => ⟨S4, .i32⟩
  | 33 => ⟨S4, .i32⟩
  | 34 => ⟨S4x1, .i32⟩
  | 35 => ⟨S8388608x4, .f32⟩
  | 36 => ⟨S_, .i32⟩
  | 37 => ⟨S4, .i32⟩
  | 38 => ⟨S4, .i32⟩
  | 39 => ⟨S4, .i32⟩
  | 40 => ⟨S4x1, .i32⟩
  | 41 => ⟨S8388608x4, .f32⟩
  | _ => ⟨S8388608x4, .f32⟩

abbrev hbmTy (i : Nat) : BufTy := match i / 128 with
  | 0 => hbmTy0_0 i
  | 1 => hbmTy0_1 i
  | _ => ⟨S8388608x4, .f32⟩

abbrev bufTy : (tb : Table) → Fin (tcTables nBuf tb) → BufTy
  | .hbm, ⟨i, _⟩ => hbmTy i
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_11 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_c_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_16 : Ref sig .tc := ⟨.hbm, 135, rfl⟩
abbrev main_v112 : Ref sig .tc := ⟨.hbm, 136, rfl⟩
abbrev main_v113 : Ref sig .tc := ⟨.hbm, 137, rfl⟩
abbrev main_c_17 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_c_18 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_c_19 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_c_20 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  slices_S4x2x2_S1x2x2_0_0_0 : S4x2x2.Slices ![0, 0, 0] S1x2x2
  shapeCasts_S1x2x2_S2x2 : S1x2x2.ShapeCasts S2x2
  transposes_S2x2_S2x2_1_0 : S2x2.Transposes [1, 0] S2x2
  slices_S8388608x4_S8388608x2_0_0 : S8388608x4.Slices ![0, 0] S8388608x2
  slices_S8388608x4_S8388608x2_0_2 : S8388608x4.Slices ![0, 2] S8388608x2
  concatenates_S8388608x2_S8388608x2_S8388608x4_d1 : Shape.Concatenates [S8388608x2, S8388608x2] S8388608x4 1
  slices_S4x2x2_S1x2x2_1_0_0 : S4x2x2.Slices ![1, 0, 0] S1x2x2
  slices_S4x2x2_S1x2x2_2_0_0 : S4x2x2.Slices ![2, 0, 0] S1x2x2
  slices_S4x2x2_S1x2x2_3_0_0 : S4x2x2.Slices ![3, 0, 0] S1x2x2
  bcast_S_S8388608x4 : S_.BroadcastsInDim S8388608x4 (![] : Fin 0 → Fin S8388608x4.rank)
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  gather_S8388608x4_S4x1_S8388608x4_0_1_n_n_1_1_83886081_wf : GatherDims.WF S8388608x4 S4x1 S8388608x4 [0] [1] [] [1] [] 1 ![8388608, 1]
  dot_S8388608x2_S2x2_S8388608x2_1_0_0_1_n_n_wf : DotDims.WF S8388608x2 S2x2 S8388608x2 [1] [0] [0] [1] [] []

variable [Facts₀]

def gather_S8388608x4_S4x1_S8388608x4_0_1_n_n_1_1_83886081 : GatherDims S8388608x4 S4x1 S8388608x4 where
  offsetDims := [0]
  collapsedSliceDims := [1]
  operandBatchingDims := []
  startIndicesBatchingDims := []
  startIndexMap := [1]
  indexVectorDim := 1
  sliceSizes := ![8388608, 1]
  wf := gather_S8388608x4_S4x1_S8388608x4_0_1_n_n_1_1_83886081_wf
def dot_S8388608x2_S2x2_S8388608x2_1_0_0_1_n_n : DotDims S8388608x2 S2x2 S8388608x2 where
  lhsContracting := [1]
  rhsContracting := [0]
  lhsNonContracting := [0]
  rhsNonContracting := [1]
  lhsBatch := []
  rhsBatch := []
  wf := dot_S8388608x2_S2x2_S8388608x2_1_0_0_1_n_n_wf

class Facts : Prop extends Facts₀ where

variable [Facts]
-- ==== Proof.KFrameBits.lean ====
/-
  The frame of the chain kernel's program: every weakly fair execution of @main terminates without a fault and
  leaves the five argument arrays as launched.

  @main is 397 host operations, which build two 4 × 4 matrices and two 4-vectors from the weight arguments, and
  then one region of 2048 grid points. At each point the body loads its five input blocks whole, loads the output
  block whole (the value is not used), and stores one value — the payload of the five loaded blocks — over the whole
  output block. The proof data: each input window's buffer holds its block at every point; the output window's
  holds the payload of the input blocks; no host operation writes an argument, and the region writes back only
  the result array.
-/
import proofs.«143413_j47167330845370_2_alg».proof.Proof.Gen.Kernel.Launch
import proofs.«143413_j47167330845370_2_alg».proof.Proof.Gen.Kernel.Skeleton
import proofs.«143413_j47167330845370_2_alg».proof.Proof.Gen.Kernel.Points
import Idealize.ShloMosaic.Lib.Pipeline.FrameBody
import Idealize.ShloMosaic.Lib.Ring
import Idealize.ShloMosaic.Lib.Tactic

-- membership in a rectangle of 4096 rows recurses once per row
set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

set_option maxHeartbeats 4000000 in
/-- @main up to the region: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the frame post read at the argument arrays — the staged input `main_arg0` keeps its entry contents, the four
    arrays no window stages are among the untouched rest, each then as launched by `V_main_argK` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (((dats 0 c).arrAt_in 4 rfl _).trans ((hA c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole 4 × 4 block, the whole 4-vector, the whole block of 4096 rows. -/
abbrev rW44 : Rect S4x4 := Rect.unit (s := S4x4) ![0, 0] S4x4.size inb_S4x4_S4x4_0_0
abbrev rW4 : Rect S4 := Rect.unit (s := S4) ![0] S4.size inb_S4_S4_0
abbrev rRows : Rect S4096x4 := Rect.unit (s := S4096x4) ![0, 0] S4096x4.size inb_S4096x4_S4096x4_0_0

/-! ## What the body leaves in the output window's buffer -/

/-- Window 5's staging buffer after the body, from the input windows' blocks: its one store as a piece, the payload
    of the five whole loads. -/
def out0_5 (x0 : Vec F S4x4 .f32) (x1 : Vec F S4x4 .f32) (x2 : Vec F S4 .f32) (x3 : Vec F S4 .f32) (x4 : Vec F S4096x4 .f32) : Vec F S4096x4 .f32 :=
  View.canon [⟨rRows, k0_pay1 (View.ld x0 rW44) (View.ld x1 rW44) (View.ld x2 rW4) (View.ld x3 rW4) (View.ld x4 rRows)⟩]

/-- The one store is over the whole buffer, so it covers it. -/
theorem cover0_5 (p0 : Vec F S4096x4 .f32) (y : S4096x4.Idx) :
    ∃ pc ∈ ([⟨rRows, p0⟩] : List (View.Piece (Elt F) S4096x4 .f32)), y ∈ pc.1.set :=
  View.cover_of_tiled [⟨rRows, p0⟩] S4096x4.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel (c : Dev nD) (E : Set ℕ) (i : grid0.Coords) (arg1 : Memref sig .tc .vmem S4x4 .f32) (harg1 : arg1.IsWhole) (arg2 : Memref sig .tc .vmem S4x4 .f32) (harg2 : arg2.IsWhole) (arg3 : Memref sig .tc .vmem S4 .f32) (harg3 : arg3.IsWhole) (arg4 : Memref sig .tc .vmem S4 .f32) (harg4 : arg4.IsWhole) (arg5 : Memref sig .tc .vmem S4096x4 .f32) (harg5 : arg5.IsWhole) (arg6 : Memref sig .tc .vmem S4096x4 .f32) (harg6 : arg6.IsWhole)
    (x0 : Vec F S4x4 .f32) (x1 : Vec F S4x4 .f32) (x2 : Vec F S4 .f32) (x3 : Vec F S4 .f32) (x4 : Vec F S4096x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__chain_kernel i arg1 harg1 arg2 harg2 arg3 harg3 arg4 harg4 arg5 harg5 arg6 harg6) K := by
  simp only [cc0__chain_kernel_eq_skeleton]; unfold cc0__chain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them (`V`); after the body at
    point `t` each input's buffer at its block and the output's at `out0_5` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over the
    host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.HFrame

end
-- ==== Proof.KFrameIdeal.lean ====
/-
  The frame of the chain kernel's program: every weakly fair execution of @main terminates without a fault and
  leaves the five argument arrays as launched.

  @main is 397 host operations, which build two 4 × 4 matrices and two 4-vectors from the weight arguments, and
  then one region of 2048 grid points. At each point the body loads its five input blocks whole, loads the output
  block whole (the value is not used), and stores one value — the payload of the five loaded blocks — over the whole
  output block. The proof data: each input window's buffer holds its block at every point; the output window's
  holds the payload of the input blocks; no host operation writes an argument, and the region writes back only
  the result array.
-/
import proofs.«143413_j47167330845370_2_alg».proof.Proof.Gen.KernelIdeal.Launch
import proofs.«143413_j47167330845370_2_alg».proof.Proof.Gen.KernelIdeal.Skeleton
import proofs.«143413_j47167330845370_2_alg».proof.Proof.Gen.KernelIdeal.Points
import Idealize.ShloMosaic.Lib.Pipeline.FrameBody
import Idealize.ShloMosaic.Lib.Ring
import Idealize.ShloMosaic.Lib.Tactic

-- membership in a rectangle of 4096 rows recurses once per row
set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

set_option maxHeartbeats 4000000 in
/-- @main up to the region: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block
    index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block
    index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block
    index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block
    index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to
    the frame post read at the argument arrays — the staged input `main_arg0` keeps its entry contents, the four
    arrays no window stages are among the untouched rest, each then as launched by `V_main_argK` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (((dats 0 c).arrAt_in 4 rfl _).trans ((hA c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's accesses -/

/-- The whole 4 × 4 block, the whole 4-vector, the whole block of 4096 rows. -/
abbrev rW44 : Rect S4x4 := Rect.unit (s := S4x4) ![0, 0] S4x4.size inb_S4x4_S4x4_0_0
abbrev rW4 : Rect S4 := Rect.unit (s := S4) ![0] S4.size inb_S4_S4_0
abbrev rRows : Rect S4096x4 := Rect.unit (s := S4096x4) ![0, 0] S4096x4.size inb_S4096x4_S4096x4_0_0

/-! ## What the body leaves in the output window's buffer -/

/-- Window 5's staging buffer after the body, from the input windows' blocks: its one store as a piece, the payload
    of the five whole loads. -/
def out0_5 (x0 : Vec F S4x4 .f32) (x1 : Vec F S4x4 .f32) (x2 : Vec F S4 .f32) (x3 : Vec F S4 .f32) (x4 : Vec F S4096x4 .f32) : Vec F S4096x4 .f32 :=
  View.canon [⟨rRows, k0_pay1 (View.ld x0 rW44) (View.ld x1 rW44) (View.ld x2 rW4) (View.ld x3 rW4) (View.ld x4 rRows)⟩]

/-- The one store is over the whole buffer, so it covers it. -/
theorem cover0_5 (p0 : Vec F S4096x4 .f32) (y : S4096x4.Idx) :
    ∃ pc ∈ ([⟨rRows, p0⟩] : List (View.Piece (Elt F) S4096x4 .f32)), y ∈ pc.1.set :=
  View.cover_of_tiled [⟨rRows, p0⟩] S4096x4.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel (c : Dev nD) (E : Set ℕ) (i : grid0.Coords) (arg1 : Memref sig .tc .vmem S4x4 .f32) (harg1 : arg1.IsWhole) (arg2 : Memref sig .tc .vmem S4x4 .f32) (harg2 : arg2.IsWhole) (arg3 : Memref sig .tc .vmem S4 .f32) (harg3 : arg3.IsWhole) (arg4 : Memref sig .tc .vmem S4 .f32) (harg4 : arg4.IsWhole) (arg5 : Memref sig .tc .vmem S4096x4 .f32) (harg5 : arg5.IsWhole) (arg6 : Memref sig .tc .vmem S4096x4 .f32) (harg6 : arg6.IsWhole)
    (x0 : Vec F S4x4 .f32) (x1 : Vec F S4x4 .f32) (x2 : Vec F S4 .f32) (x3 : Vec F S4 .f32) (x4 : Vec F S4096x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__chain_kernel i arg1 harg1 arg2 harg2 arg3 harg3 arg4 harg4 arg5 harg5 arg6 harg6) K := by
  simp only [cc0__chain_kernel_eq_skeleton]; unfold cc0__chain_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them (`V`); after the body at
    point `t` each input's buffer at its block and the output's at `out0_5` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents: the definition projected, so that `V` — a fold over the
    host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.HFrame

end
-- ==== Proof.KValueBlocks.lean ====
/-
  The value leg of the chain kernel's program, the body's arithmetic left folded.

  The region has 2048 grid points. At point `t` the body reads the two 4 × 4 matrices and the two 4-vectors whole
  (their windows' block index is zero at every point, so the block is the array) and rows `4096 t … 4096 t + 4095` of
  the first argument (the window's block index is `(t, 0)`, and an element of a block sits at the block index times
  the block's size plus its own coordinate), and writes the payload of those five blocks over rows
  `4096 t … 4096 t + 4095` of the result. Row `r` of the result is covered by point `r / 4096`, so the result array
  after the run is one function `Gk` of what the five arrays hold when the region is entered: row `r` is row
  `r % 4096` of the payload of the block of rows `r / 4096`.
-/
import proofs.«143413_j47167330845370_2_alg».proof.Proof.KFrameIdeal
import Idealize.ShloMosaic.Lib.Pipeline.Value
import Idealize.ShloMosaic.Lib.ValueIdx

noncomputable section

namespace Cert.KernelIdeal.HValue

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.HFrame (V iblk dats out0_5 after0_5 A_eq run_main V_main_arg0 V_main_arg1 V_main_arg2 V_main_arg3 V_main_arg4)

variable {F : FTy → Type} [FloatOps F]
variable (m : (ℓ : Loc nD τ sig) → Buf (Elt F) ℓ) (ρ : Dev nD → PrngReg)

/-- Rows `4096 t … 4096 t + 4095` of a full array. -/
def rowsOf (X : Vec F S8388608x4 .f32) (t : Fin 2048) : Vec F S4096x4 .f32 :=
  fun y => X (ix2 (⟨4096 * t.val + (y 0).val, by
    have h0 : (y 0).val < 4096 := (y 0).isLt
    have ht := t.isLt
    omega⟩ : Fin 8388608) (y 1))

/-- The result array as one function of the arrays the windows hold at region entry: row `r` is row `r % 4096` of
    the payload of the block of rows `r / 4096`. -/
def Gk (B1 B2 : Vec F S4x4 .f32) (MU ML : Vec F S4 .f32) (X : Vec F S8388608x4 .f32) : Vec F S8388608x4 .f32 :=
  fun i => k0_pay1 B1 B2 MU ML (rowsOf X ⟨(i 0).val / 4096, by
      have h0 : (i 0).val < 8388608 := (i 0).isLt
      omega⟩)
    (ix2 (⟨(i 0).val % 4096, Nat.mod_lt _ (by omega)⟩ : Fin 4096) (i 1))

set_option maxHeartbeats 400000 in
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem hz2 : (![0, 0] : Fin 2 → Nat) = fun _ => 0 := funext fun a => by fin_cases a <;> rfl
theorem hz1 : (![0] : Fin 1 → Nat) = fun _ => 0 := funext fun a => by fin_cases a <;> rfl

set_option maxHeartbeats 400000 in
/-- Window 0's block at any point is its whole array: the block index is zero on every axis. -/
theorem read_blk0 (A : Vec F S4x4 .f32) (t : Fin cfg0.N) : ((cfg0.win 0).blk t).view.read (Elt F) A = A := by
  obtain ⟨e00, e01, e10, e11, e2, e3, -⟩ := idx_facts t
  funext j
  show A (((cfg0.win 0).blk t).view.emb j) = A j
  refine congrArg A ?_
  funext a; apply Fin.ext
  match a with
  | ⟨0, _⟩ => show win0_0.index t (0 : Fin 2) * 4 + 1 * (j 0).val = (j 0).val; omega
  | ⟨1, _⟩ => show win0_0.index t (1 : Fin 2) * 4 + 1 * (j 1).val = (j 1).val; omega
set_option maxHeartbeats 400000 in
/-- Window 1's block at any point is its whole array: the block index is zero on every axis. -/
theorem read_blk1 (A : Vec F S4x4 .f32) (t : Fin cfg0.N) : ((cfg0.win 1).blk t).view.read (Elt F) A = A := by
  obtain ⟨e00, e01, e10, e11, e2, e3, -⟩ := idx_facts t
  funext j
  show A (((cfg0.win 1).blk t).view.emb j) = A j
  refine congrArg A ?_
  funext a; apply Fin.ext
  match a with
  | ⟨0, _⟩ => show win0_1.index t (0 : Fin 2) * 4 + 1 * (j 0).val = (j 0).val; omega
  | ⟨1, _⟩ => show win0_1.index t (1 : Fin 2) * 4 + 1 * (j 1).val = (j 1).val; omega
set_option maxHeartbeats 400000 in
/-- Window 2's block at any point is its whole array: the block index is zero on every axis. -/
theorem read_blk2 (A : Vec F S4 .f32) (t : Fin cfg0.N) : ((cfg0.win 2).blk t).view.read (Elt F) A = A := by
  obtain ⟨e00, e01, e10, e11, e2, e3, -⟩ := idx_facts t
  funext j
  show A (((cfg0.win 2).blk t).view.emb j) = A j
  refine congrArg A ?_
  funext a; apply Fin.ext
  match a with
  | ⟨0, _⟩ => show win0_2.index t (0 : Fin 1) * 4 + 1 * (j 0).val = (j 0).val; omega
set_option maxHeartbeats 400000 in
/-- Window 3's block at any point is its whole array: the block index is zero on every axis. -/
theorem read_blk3 (A : Vec F S4 .f32) (t : Fin cfg0.N) : ((cfg0.win 3).blk t).view.read (Elt F) A = A := by
  obtain ⟨e00, e01, e10, e11, e2, e3, -⟩ := idx_facts t
  funext j
  show A (((cfg0.win 3).blk t).view.emb j) = A j
  refine congrArg A ?_
  funext a; apply Fin.ext
  match a with
  | ⟨0, _⟩ => show win0_3.index t (0 : Fin 1) * 4 + 1 * (j 0).val = (j 0).val; omega

/-- A grid point as a number below 2048. -/
abbrev pt (t : Fin cfg0.N) : Fin 2048 := Fin.cast N_0 t

set_option maxHeartbeats 400000 in
/-- Window 4's block at point `t` is rows `4096 t … 4096 t + 4095` of its array: an element of the block sits at the
    block index times the block's size plus its own coordinate. -/
theorem read_blk4 (X : Vec F S8388608x4 .f32) (t : Fin cfg0.N) : ((cfg0.win 4).blk t).view.read (Elt F) X = rowsOf X (pt t) := by
  obtain ⟨-, -, -, -, -, -, e0, e1, -⟩ := idx_facts t
  funext j
  show X (((cfg0.win 4).blk t).view.emb j) = rowsOf X (pt t) j
  unfold rowsOf
  refine congrArg X ?_
  funext a; apply Fin.ext
  match a with
  | ⟨0, _⟩ => show win0_4.index t (0 : Fin 2) * 4096 + 1 * (j 0).val = 4096 * t.val + (j 0).val; omega
  | ⟨1, _⟩ => show win0_4.index t (1 : Fin 2) * 4 + 1 * (j 1).val = (j 1).val; omega

/-- The payload at equal blocks and equal indices. -/
theorem pay_congr (A0 A1 : Vec F S4x4 .f32) (A2 A3 : Vec F S4 .f32) (X : Vec F S8388608x4 .f32) {T T' : Fin 2048} {y y' : S4096x4.Idx}
    (hT : T = T') (hy : y = y') : k0_pay1 A0 A1 A2 A3 (rowsOf X T) y = k0_pay1 A0 A1 A2 A3 (rowsOf X T') y' := by
  subst hT hy; rfl

set_option maxHeartbeats 400000 in
/-- `Gk` at the array index under element `j` of the block of rows `t`: element `j` of the payload of that block. -/
theorem Gk_apply_of (A0 A1 : Vec F S4x4 .f32) (A2 A3 : Vec F S4 .f32) (X : Vec F S8388608x4 .f32) (i : S8388608x4.Idx) (t : Fin 2048) (j : S4096x4.Idx)
    (h0 : (i 0).val = 4096 * t.val + (j 0).val) (h1 : (i 1).val = (j 1).val) :
    Gk A0 A1 A2 A3 X i = k0_pay1 A0 A1 A2 A3 (rowsOf X t) j := by
  have hj : (j 0).val < 4096 := (j 0).isLt
  unfold Gk
  refine pay_congr A0 A1 A2 A3 X (Fin.ext ?_) (funext fun a => Fin.ext ?_)
  · show (i 0).val / 4096 = t.val; omega
  · match a with
    | ⟨0, _⟩ => show (i 0).val % 4096 = (j 0).val; omega
    | ⟨1, _⟩ => exact h1

set_option maxHeartbeats 400000 in
/-- What point `t` writes back, for any contents of the five input arrays: the payload of the input windows' blocks
    there is block `t` of `Gk` of the arrays. -/
theorem flushed_of (A0 A1 : Vec F S4x4 .f32) (A2 A3 : Vec F S4 .f32) (X : Vec F S8388608x4 .f32) (t : Fin cfg0.N) :
    (cfg0.win 5).cut (grid0.coords t) (k0_pay1 (((cfg0.win 0).blk t).view.read (Elt F) A0) (((cfg0.win 1).blk t).view.read (Elt F) A1)
        (((cfg0.win 2).blk t).view.read (Elt F) A2) (((cfg0.win 3).blk t).view.read (Elt F) A3) (((cfg0.win 4).blk t).view.read (Elt F) X))
      = ((cfg0.win 5).blk t).view.read (Elt F) (Gk A0 A1 A2 A3 X) := by
  rw [read_blk0, read_blk1, read_blk2, read_blk3, read_blk4]
  obtain ⟨-, -, -, -, -, -, -, -, e0, e1⟩ := idx_facts t
  funext j
  show k0_pay1 A0 A1 A2 A3 (rowsOf X (pt t)) j = Gk A0 A1 A2 A3 X (((cfg0.win 5).blk t).view.emb j)
  refine (Gk_apply_of A0 A1 A2 A3 X _ (pt t) j ?_ ?_).symm
  · show win0_5.index t (0 : Fin 2) * 4096 + 1 * (j 0).val = 4096 * t.val + (j 0).val; omega
  · show win0_5.index t (1 : Fin 2) * 4 + 1 * (j 1).val = (j 1).val; omega

set_option maxHeartbeats 400000 in
/-- What point `t` writes back to the result array is block `t` of `Gk` of the arrays as the region finds them. -/
theorem flushed5_eq (c : Dev nD) (t : Fin cfg0.N) :
    (dats m 0 c).flushed 5 t = ((cfg0.win 5).blk t).view.read (Elt F)
      (Gk (V m c main_v148) (V m c main_v293) (V m c main_v295) (V m c main_v297) (V m c main_arg0)) := by
  show (cfg0.win 5).cut (grid0.coords t) ((dats m 0 c).after 5 t) = _
  rw [after0_5]
  unfold out0_5
  rw [View.canon_unit_zero hz2]
  simp only [View.ld_unit_zero (S := S4x4) hz2, View.ld_unit_zero (S := S4) hz1, View.ld_unit_zero (S := S4096x4) hz2]
  exact flushed_of (V m c main_v148) (V m c main_v293) (V m c main_v295) (V m c main_v297) (V m c main_arg0) t

/-- An index of the result array is in point `t`'s block iff each coordinate is in the block's range on its axis. -/
theorem mem_blk5 (t : Fin cfg0.N) (i : S8388608x4.Idx) :
    i ∈ ((cfg0.win 5).blk t).view.set ↔ ∀ a : Fin 2, win0_5.index t a * S4096x4.size a ≤ (i a).val ∧ (i a).val < win0_5.index t a * S4096x4.size a + S4096x4.size a := by
  show i ∈ ((View.whole main_v298).slice (win0_5.rect t)).set ↔ _
  rw [View.set_slice_whole, Rect.mem_set_unit]
  exact Iff.rfl

set_option maxHeartbeats 400000 in
/-- Every row is covered: row `r` by point `r / 4096`. -/
theorem cover5 (i : S8388608x4.Idx) : ∃ t : Fin cfg0.N, (cfg0.win 5).flush t = true ∧ i ∈ ((cfg0.win 5).blk t).view.set := by
  have hi0 : (i 0).val < 8388608 := (i 0).isLt
  have hi1 : (i 1).val < 4 := (i 1).isLt
  have hN : grid0.N = 2048 := N_0
  have ht : (i 0).val / 4096 < grid0.N := by omega
  obtain ⟨-, -, -, -, -, -, -, -, e0, e1⟩ := idx_facts ⟨(i 0).val / 4096, ht⟩
  have e0' : win0_5.index ⟨(i 0).val / 4096, ht⟩ (0 : Fin 2) = (i 0).val / 4096 := e0
  refine ⟨⟨(i 0).val / 4096, ht⟩, flush0_5 _, ?_⟩
  rw [mem_blk5]
  intro a
  match a with
  | ⟨0, _⟩ => show win0_5.index ⟨(i 0).val / 4096, ht⟩ (0 : Fin 2) * 4096 ≤ (i 0).val ∧ (i 0).val < win0_5.index ⟨(i 0).val / 4096, ht⟩ (0 : Fin 2) * 4096 + 4096; omega
  | ⟨1, _⟩ => show win0_5.index ⟨(i 0).val / 4096, ht⟩ (1 : Fin 2) * 4 ≤ (i 1).val ∧ (i 1).val < win0_5.index ⟨(i 0).val / 4096, ht⟩ (1 : Fin 2) * 4 + 4; omega

set_option maxHeartbeats 400000 in
/-- The result array after the run: `Gk` of the four host-built arrays as the region finds them and of the first
    argument as launched. -/
theorem final5 (c : Dev nD) : (dats m 0 c).arrAt 5 cfg0.N
    = Gk (V m c main_v148) (V m c main_v293) (V m c main_v295) (V m c main_v297) (m ((c : Thread nD τ).loc main_arg0)) :=
  ((dats m 0 c).arrAt_eq_of_cover 5 _ (fun t _ => flushed5_eq m c t) cover5).trans
    (congrArg (Gk (V m c main_v148) (V m c main_v293) (V m c main_v295) (V m c main_v297)) (V_main_arg0 m c))

set_option maxHeartbeats 1000000 in
/-- The run, read: the result array at `Gk`, the arguments unchanged. -/
theorem run_value : θ_run defs (onTc (τ := τ) (main (F := F))) ⟨m, fun _ => 0, ρ⟩ (fun r => ∀ c : Dev nD,
      r.2.mem ((c.tc : Thread nD τ).loc main_v298) = Gk (V m c main_v148) (V m c main_v293) (V m c main_v295) (V m c main_v297) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 5).trans (final5 m c),
      ((h c).1 4).trans (((dats m 0 c).arrAt_in 4 rfl _).trans ((A_eq m c 4).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.HValue

end
-- ==== Proof.KHostDefs.lean ====
/-
  The arrays the host operations before the region leave in the four small operands of the kernel, as closed terms
  of the argument arrays.

  Each 4 × 4 matrix is stacked from four rows, each row from four scalars: float constants 0 and 1, and the entries
  of a 2 × 2 slice of `A + Aᵀ`. `shearUp P` has the 2 × 2 block `P` at rows 2–3, columns 0–1 of the identity,
  `shearLow P` at rows 0–1, columns 2–3. The first operand is `J · (up P₀ · low P₁ · up P₂ · low P₃) · J` of the first
  weight array, the second `J · (low Q₀ · up Q₁ · low Q₂ · up Q₃) · J` of the second, `J` the literal anti-diagonal table;
  the third is the first gain vector followed by two zeros, the fourth two zeros followed by the second gain vector.
-/
import proofs.«143413_j47167330845370_2_alg».proof.Proof.Gen.KernelIdeal.Launch
import Idealize.ShloMosaic.Lib.StableHlo.Run

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]

/-- `A + Aᵀ`, slice by slice. -/
def symm (A : Vec F S4x2x2 .f32) : Vec F S4x2x2 .f32 :=
  addf A (transpose S4x2x2 [0, 2, 1] A Gen.transposes_S4x2x2_S4x2x2_0_2_1)

/-- The four 2 × 2 slices of a 4 × 2 × 2 array. -/
def slice0 (St : Vec F S4x2x2 .f32) : Vec F S2x2 .f32 :=
  shapeCast S2x2 (extractStridedSlice S1x2x2 ![0, 0, 0] St Gen.slices_S4x2x2_S1x2x2_0_0_0) Gen.shapeCasts_S1x2x2_S2x2
def slice1 (St : Vec F S4x2x2 .f32) : Vec F S2x2 .f32 :=
  shapeCast S2x2 (extractStridedSlice S1x2x2 ![1, 0, 0] St Gen.slices_S4x2x2_S1x2x2_1_0_0) Gen.shapeCasts_S1x2x2_S2x2
def slice2 (St : Vec F S4x2x2 .f32) : Vec F S2x2 .f32 :=
  shapeCast S2x2 (extractStridedSlice S1x2x2 ![2, 0, 0] St Gen.slices_S4x2x2_S1x2x2_2_0_0) Gen.shapeCasts_S1x2x2_S2x2
def slice3 (St : Vec F S4x2x2 .f32) : Vec F S2x2 .f32 :=
  shapeCast S2x2 (extractStridedSlice S1x2x2 ![3, 0, 0] St Gen.slices_S4x2x2_S1x2x2_3_0_0) Gen.shapeCasts_S1x2x2_S2x2

/-- The four entries of a 2 × 2 matrix, as scalars. -/
def e00 (P : Vec F S2x2 .f32) : Vec F S_ .f32 :=
  shapeCast S_ (extractStridedSlice S1x1 ![0, 0] P Gen.slices_S2x2_S1x1_0_0) Gen.shapeCasts_S1x1_S_
def e01 (P : Vec F S2x2 .f32) : Vec F S_ .f32 :=
  shapeCast S_ (extractStridedSlice S1x1 ![0, 1] P Gen.slices_S2x2_S1x1_0_1) Gen.shapeCasts_S1x1_S_
def e10 (P : Vec F S2x2 .f32) : Vec F S_ .f32 :=
  shapeCast S_ (extractStridedSlice S1x1 ![1, 0] P Gen.slices_S2x2_S1x1_1_0) Gen.shapeCasts_S1x1_S_
def e11 (P : Vec F S2x2 .f32) : Vec F S_ .f32 :=
  shapeCast S_ (extractStridedSlice S1x1 ![1, 1] P Gen.slices_S2x2_S1x1_1_1) Gen.shapeCasts_S1x1_S_

/-- The float constants 0 and 1 as scalars. -/
def k0 : Vec F S_ .f32 := constant S_ .f32 0x00000000#32
def k1 : Vec F S_ .f32 := constant S_ .f32 0x3F800000#32

/-- Four scalars as a 4-vector. -/
def vec4 (a b c d : Vec F S_ .f32) : Vec F S4 .f32 :=
  concatenate S4 0 [⟨S1, broadcastInDim S1 ![] Gen.bcast_S_S1 a⟩, ⟨S1, broadcastInDim S1 ![] Gen.bcast_S_S1 b⟩,
    ⟨S1, broadcastInDim S1 ![] Gen.bcast_S_S1 c⟩, ⟨S1, broadcastInDim S1 ![] Gen.bcast_S_S1 d⟩] Gen.concatenates_S1_S1_S1_S1_S4_d0

/-- Four 4-vectors as the rows of a 4 × 4 matrix. -/
def mat4 (r0 r1 r2 r3 : Vec F S4 .f32) : Vec F S4x4 .f32 :=
  concatenate S4x4 0 [⟨S1x4, broadcastInDim S1x4 ![1] Gen.bcast_S4_S1x4_1 r0⟩, ⟨S1x4, broadcastInDim S1x4 ![1] Gen.bcast_S4_S1x4_1 r1⟩,
    ⟨S1x4, broadcastInDim S1x4 ![1] Gen.bcast_S4_S1x4_1 r2⟩, ⟨S1x4, broadcastInDim S1x4 ![1] Gen.bcast_S4_S1x4_1 r3⟩]
    Gen.concatenates_S1x4_S1x4_S1x4_S1x4_S4x4_d0

/-- The identity with `P` at rows 2–3, columns 0–1. -/
def shearUp (P : Vec F S2x2 .f32) : Vec F S4x4 .f32 :=
  mat4 (vec4 k1 k0 k0 k0) (vec4 k0 k1 k0 k0) (vec4 (e00 P) (e01 P) k1 k0) (vec4 (e10 P) (e11 P) k0 k1)

/-- The identity with `P` at rows 0–1, columns 2–3. -/
def shearLow (P : Vec F S2x2 .f32) : Vec F S4x4 .f32 :=
  mat4 (vec4 k1 k0 (e00 P) (e01 P)) (vec4 k0 k1 (e10 P) (e11 P)) (vec4 k0 k0 k1 k0) (vec4 k0 k0 k0 k1)

/-- The host's product of two 4 × 4 matrices. -/
def dot4 (L R : Vec F S4x4 .f32) : Vec F S4x4 .f32 := Host.dotGeneral dot_S4x4_S4x4_S4x4_1_0_0_1_n_n none L R

/-- The literal anti-diagonal table. -/
def antiDiag : Vec F S4x4 .f32 := fun i => FloatOps.ofBits .f32 (lit0 (S4x4.rowMajor i))

/-- The first 4 × 4 operand, of `St = A + Aᵀ` of the first weight array. -/
def big1 (St : Vec F S4x2x2 .f32) : Vec F S4x4 .f32 :=
  dot4 (dot4 antiDiag (dot4 (dot4 (dot4 (shearUp (slice0 St)) (shearLow (slice1 St))) (shearUp (slice2 St))) (shearLow (slice3 St)))) antiDiag

/-- The second 4 × 4 operand, of the second weight array's. -/
def big2 (St : Vec F S4x2x2 .f32) : Vec F S4x4 .f32 :=
  dot4 (dot4 antiDiag (dot4 (dot4 (dot4 (shearLow (slice0 St)) (shearUp (slice1 St))) (shearLow (slice2 St))) (shearUp (slice3 St)))) antiDiag

/-- The first mask: the gain vector, then two zeros. -/
def maskUp (a : Vec F S2 .f32) : Vec F S4 .f32 :=
  concatenate S4 0 [⟨S2, a⟩, ⟨S2, broadcastInDim S2 ![] Gen.bcast_S_S2 k0⟩] Gen.concatenates_S2_S2_S4_d0

/-- The second mask: two zeros, then the gain vector. -/
def maskLow (a : Vec F S2 .f32) : Vec F S4 .f32 :=
  concatenate S4 0 [⟨S2, broadcastInDim S2 ![] Gen.bcast_S_S2 k0⟩, ⟨S2, a⟩] Gen.concatenates_S2_S2_S4_d0

end Cert.KernelIdeal.HostTerm

end
-- ==== Proof.KHostSeg.lean ====
/-
  The host operations before the region, cut into stages: the literal table and the two symmetrised weight arrays,
  four 4 × 4 shear matrices and their product for each weight array, and the two gain masks. Each stage leaves every
  buffer it does not write.
-/
import proofs.«143413_j47167330845370_2_alg».proof.Proof.KHostDefs

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]

/-- Running two lists one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The stages' operations -/

/-- Operations 1 … 5. -/
def kseg0 : List (HloOp τ sig (Elt F)) :=
  [ StableHlo.nullary main_cst (fun i => FloatOps.ofBits .f32 (lit0 (S4x4.rowMajor i))),
    StableHlo.unary main_arg1 main_v0 ((transpose S4x2x2 [0, 2, 1] · transposes_S4x2x2_S4x2x2_0_2_1) : (⟨S4x2x2, .f32⟩ : BufTy).Contents (Elt F) → (⟨S4x2x2, .f32⟩ : BufTy).Contents (Elt F)),
    StableHlo.binary main_arg1 main_v0 main_v1 (addf : (⟨S4x2x2, .f32⟩ : BufTy).Contents (Elt F) → (⟨S4x2x2, .f32⟩ : BufTy).Contents (Elt F) → (⟨S4x2x2, .f32⟩ : BufTy).Contents (Elt F)),
    StableHlo.unary main_arg3 main_v2 ((transpose S4x2x2 [0, 2, 1] · transposes_S4x2x2_S4x2x2_0_2_1) : (⟨S4x2x2, .f32⟩ : BufTy).Contents (Elt F) → (⟨S4x2x2, .f32⟩ : BufTy).Contents (Elt F)),
    StableHlo.binary main_arg3 main_v2 main_v3 (addf : (⟨S4x2x2, .f32⟩ : BufTy).Contents (Elt F) → (⟨S4x2x2, .f32⟩ : BufTy).Contents (Elt F) → (⟨S4x2x2, .f32⟩ : BufTy).Contents (Elt F)) ]
/-- The buffers they write. -/
abbrev kseg0_W : List (Ref sig .tc) := [main_cst, main_v0, main_v1, main_v2, main_v3]
theorem kseg0_writes : (kseg0 (F := F)).Forall fun op => op.writes ⊆ (kseg0_W.map (Proc.devRef (τ := τ) .tc)).toFinset := by
  simp only [kseg0, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg0_keep (W : Valuation τ sig (Elt F)) (r : Ref sig .tc) (h : r ∉ kseg0_W) :
    after kseg0 W (no_index (Proc.devRef .tc r)) = W (Proc.devRef .tc r) :=
  after_of_writes_sub kseg0 W kseg0_writes h

/-- Operations 6 … 52. -/
def kseg1 : List (HloOp τ sig (Elt F)) :=
  [ StableHlo.unary main_v1 main_v4 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v4 main_v5 rfl shapeCasts_S1x2x2_S2x2,
    StableHlo.nullary main_cst_0 (constant S_ .f32 0x3F800000#32),
    StableHlo.nullary main_cst_1 (constant S_ .f32 0x00000000#32),
    StableHlo.nullary main_cst_2 (constant S_ .f32 0x00000000#32),
    StableHlo.nullary main_cst_3 (constant S_ .f32 0x00000000#32),
    StableHlo.unary main_cst_0 main_v6 (broadcastInDim S1 ![] bcast_S_S1 : (⟨S_, .f32⟩ : BufTy).Contents (Elt F) → (⟨S1, .f32⟩ : BufTy).Contents (Elt F)),
    StableHlo.unary main_cst_1 main_v7 (broadcastInDim S1 ![] bcast_S_S1 : (⟨S_, .f32⟩ : BufTy).Contents (Elt F) → (⟨S1, .f32⟩ : BufTy).Contents (Elt F)),
    StableHlo.unary main_cst_2 main_v8 (broadcastInDim S1 ![] bcast_S_S1 : (⟨S_, .f32⟩ : BufTy).Contents (Elt F) → (⟨S1, .f32⟩ : BufTy).Contents (Elt F)),
    StableHlo.unary main_cst_3 main_v9 (broadcastInDim S1 ![] bcast_S_S1 : (⟨S_, .f32⟩ : BufTy).Contents (Elt F) → (⟨S1, .f32⟩ : BufTy).Contents (Elt F)),
    StableHlo.nary ![main_v6, main_v7, main_v8, main_v9] main_v10 (fun u => concatenate S4 0 [⟨S1, u 0⟩, ⟨S1, u 1⟩, ⟨S1, u 2⟩, ⟨S1, u 3⟩] concatenates_S1_S1_S1_S1_S4_d0),
    StableHlo.nullary main_cst_4 (constant S_ .f32 0x00000000#32),
    StableHlo.nullary main_cst_5 (constant S_ .f32 0x3F800000#32),
    StableHlo.nullary main_cst_6 (constant S_ .f32 0x00000000#32),
    StableHlo.nullary main_cst_7 (constant S_ .f32 0x00000000#32),
    StableHlo.unary main_cst_4 main_v11 (broadcastInDim S1 ![] bcast_S_S1 : (⟨S_, .f32⟩ : BufTy).Contents (Elt F) → (⟨S1, .f32⟩ : BufTy).Contents (Elt F)),
    StableHlo.unary main_cst_5 main_v12 (broadcastInDim S1 ![] bcast_S_S1 : (⟨S_, .f32⟩ : BufTy).Contents (Elt F) → (⟨S1, .f32⟩ : BufTy).Contents (Elt F)),
    StableHlo.unary main_cst_6 main_v13 (broadcastInDim S1 ![] bcast_S_S1 : (⟨S_, .f32⟩ : BufTy).Contents (Elt F) → (⟨S1, .f32⟩ : BufTy).Contents (Elt F)),
    StableHlo.unary main_cst_7 main_v14 (broadcastInDim S1 ![] bcast_S_S1 : (⟨S_, .f32⟩ : BufTy).Contents (Elt F) → (⟨S1, .f32⟩ : BufTy).Contents (Elt F)),
    StableHlo.nary ![main_v11, main_v12, main_v13, main_v14] main_v15 (fun u => concatenate S4 0 [⟨S1, u 0⟩, ⟨S1, u 1⟩, ⟨S1, u 2⟩, ⟨S1, u 3⟩] concatenates_S1_S1_S1_S1_S4_d0),
    StableHlo.unary main_v5 main_v16 ((extractStridedSlice S1x1 ![0, 0] · slices_S2x2_S1x1_0_0) : (⟨S2x2, .f32⟩ : BufTy).Contents (Elt F) → (⟨S1x1, .f32⟩ : BufTy).Contents (Elt F)),
    StableHlo.reshape main_v16 main_v17 rfl shapeCasts_S1x1_S_,
    StableHlo.unary main_v5 main_v18 ((extractStridedSlice S1x1 ![0, 1] · slices_S2x2_S1x1_0_1) : (⟨S2x2, .f32⟩ : BufTy).Contents (Elt F) → (⟨S1x1, .f32⟩ : BufTy).Contents (Elt F)),
    StableHlo.reshape main_v18 main_v19 rfl shapeCasts_S1x1_S_,
    StableHlo.nullary main_cst_8 (constant S_ .f32 0x3F800000#32),
    StableHlo.nullary main_cst_9 (constant S_ .f32 0x00000000#32),
    StableHlo.unary main_v17 main_v20 (broadcastInDim S1 ![] bcast_S_S1 : (⟨S_, .f32⟩ : BufTy).Contents (Elt F) → (⟨S1, .f32⟩ : BufTy).Contents (Elt F)),
    StableHlo.unary main_v19 main_v21 (broadcastInDim S1 ![] bcast_S_S1 : (⟨S_, .f32⟩ : BufTy).Contents (Elt F) → (⟨S1, .f32⟩ : BufTy).Contents (Elt F)),
    StableHlo.unary main_cst_8 main_v22 (broadcastInDim S1 ![] bcast_S_S1 : (⟨S_, .f32⟩ : BufTy).Contents (Elt F) → (⟨S1, .f32⟩ : BufTy).Contents (Elt F)),
    StableHlo.unary main_cst_9 main_v23 (broadcastInDim S1 ![] bcast_S_S1 : (⟨S_, .f32⟩ : BufTy).Contents (Elt F) → (⟨S1, .f32⟩ : BufTy).Contents (Elt F)),
    StableHlo.nary ![main_v20, main_v21, main_v22, main_v23] main_v24 (fun u => concatenate S4 0 [⟨S1, u 0⟩, ⟨S1, u 1⟩, ⟨S1, u 2⟩, ⟨S1, u 3⟩] concatenates_S1_S1_S1_S1_S4_d0),
    StableHlo.unary main_v5 main_v25 ((extractStridedSlice S1x1 ![1, 0] · slices_S2x2_S1x1_1_0) : (⟨S2x2, .f32⟩ : BufTy).Contents (Elt F) → (⟨S1x1, .f32⟩ : BufTy).Contents (Elt F)),
    StableHlo.reshape main_v25 main_v26 rfl shapeCasts_S1x1_S_,
    StableHlo.unary main_v5 main_v27 ((extractStridedSlice S1x1 ![1, 1] · slices_S2x2_S1x1_1_1) : (⟨S2x2, .f32⟩ : BufTy).Contents (Elt F) → (⟨S1x1, .f32⟩ : BufTy).Contents (Elt F)),
    StableHlo.reshape main_v27 main_v28 rfl shapeCasts_S1x1_S_,
    StableHlo.nullary main_cst_10 (constant S_ .f32 0x00000000#32),
    StableHlo.nullary main_cst_11 (constant S_ .f32 0x3F800000#32),
    StableHlo.unary main_v26 main_v29 (broadcastInDim S1 ![] bcast_S_S1 : (⟨S_, .f32⟩ : BufTy).Contents (Elt F) → (⟨S1, .f32⟩ : BufTy).Contents (Elt F)),
    StableHlo.unary main_v28 main_v30 (broadcastInDim S1 ![] bcast_S_S1 : (⟨S_, .f32⟩ : BufTy).Contents (Elt F) → (⟨S1, .f32⟩ : BufTy).Contents (Elt F)),
    StableHlo.unary main_cst_10 main_v31 (broadcastInDim S1 ![] bcast_S_S1 : (⟨S_, .f32⟩ : BufTy).Contents (Elt F) → (⟨S1, .f32⟩ : BufTy).Contents (Elt F)),
    StableHlo.unary main_cst_11 main_v32 (broadcastInDim S1 ![] bcast_S_S1 : (⟨S_, .f32⟩ : BufTy).Contents (Elt F) → (⟨S1, .f32⟩ : BufTy).Contents (Elt F)),
    StableHlo.nary ![main_v29, main_v30, main_v31, main_v32] main_v33 (fun u => concatenate S4 0 [⟨S1, u 0⟩, ⟨S1, u 1⟩, ⟨S1, u 2⟩, ⟨S1, u 3⟩] concatenates_S1_S1_S1_S1_S4_d0),
    StableHlo.unary main_v10 main_v34 (broadcastInDim S1x4 ![1] bcast_S4_S1x4_1 : (⟨S4, .f32⟩ : BufTy).Contents (Elt F) → (⟨S1x4, .f32⟩ : BufTy).Contents (Elt F)),
    StableHlo.unary main_v15 main_v35 (broadcastInDim S1x4 ![1] bcast_S4_S1x4_1 : (⟨S4, .f32⟩ : BufTy).Contents (Elt F) → (⟨S1x4, .f32⟩ : BufTy).Contents (Elt F)),
    StableHlo.unary main_v24 main_v36 (broadcastInDim S1x4 ![1] bcast_S4_S1x4_1 : (⟨S4, .f32⟩ : BufTy).Contents (Elt F) → (⟨S1x4, .f32⟩ : BufTy).Contents (Elt F)),
    StableHlo.unary main_v33 main_v37 (broadcastInDim S1x4 ![1] bcast_S4_S1x4_1 : (⟨S4, .f32⟩ : BufTy).Contents (Elt F) → (⟨S1x4, .f32⟩ : BufTy).Contents (Elt F)),
    StableHlo.nary ![main_v34, main_v35, main_v36, main_v37] main_v38 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg1_W : List (Ref sig .tc) := [main_v4, main_v5, main_cst_0, main_cst_1, main_cst_2, main_cst_3, main_v6, main_v7, main_v8, main_v9, main_v10, main_cst_4, main_cst_5, main_cst_6, main_cst_7, main_v11, main_v12, main_v13, main_v14, main_v15, main_v16, main_v17, main_v18, main_v19, main_cst_8, main_cst_9, main_v20, main_v21, main_v22, main_v23, main_v24, main_v25, main_v26, main_v27, main_v28, main_cst_10, main_cst_11, main_v29, main_v30, main_v31, main_v32, main_v33, main_v34, main_v35, main_v36, main_v37, main_v38]
theorem kseg1_writes : (kseg1 (F := F)).Forall fun op => op.writes ⊆ (kseg1_W.map (Proc.devRef (τ := τ) .tc)).toFinset := by
  simp only [kseg1, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg1_keep (W : Valuation τ sig (Elt F)) (r : Ref sig .tc) (h : r ∉ kseg1_W) :
    after kseg1 W (no_index (Proc.devRef .tc r)) = W (Proc.devRef .tc r) :=
  after_of_writes_sub kseg1 W kseg1_writes h

/-- Operations 53 … 99. -/
def kseg2 : List (HloOp τ sig (Elt F)) :=
  [ StableHlo.unary main_v1 main_v39 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v39 main_v40 rfl shapeCasts_S1x2x2_S2x2,
    StableHlo.unary main_v40 main_v41 ((extractStridedSlice S1x1 ![0, 0] · slices_S2x2_S1x1_0_0) : (⟨S2x2, .f32⟩ : BufTy).Contents (Elt F) → (⟨S1x1, .f32⟩ : BufTy).Contents (Elt F)),
    StableHlo.reshape main_v41 main_v42 rfl shapeCasts_S1x1_S_,
    StableHlo.unary main_v40 main_v43 ((extractStridedSlice S1x1 ![0, 1] · slices_S2x2_S1x1_0_1) : (⟨S2x2, .f32⟩ : BufTy).Contents (Elt F) → (⟨S1x1, .f32⟩ : BufTy).Contents (Elt F)),
    StableHlo.reshape main_v43 main_v44 rfl shapeCasts_S1x1_S_,
    StableHlo.nullary main_cst_12 (constant S_ .f32 0x3F800000#32),
    StableHlo.nullary main_cst_13 (constant S_ .f32 0x00000000#32),
    StableHlo.unary main_cst_12 main_v45 (broadcastInDim S1 ![] bcast_S_S1 : (⟨S_, .f32⟩ : BufTy).Contents (Elt F) → (⟨S1, .f32⟩ : BufTy).Contents (Elt F)),
    StableHlo.unary main_cst_13 main_v46 (broadcastInDim S1 ![] bcast_S_S1 : (⟨S_, .f32⟩ : BufTy).Contents (Elt F) → (⟨S1, .f32⟩ : BufTy).Contents (Elt F)),
    StableHlo.unary main_v42 main_v47 (broadcastInDim S1 ![] bcast_S_S1 : (⟨S_, .f32⟩ : BufTy).Contents (Elt F) → (⟨S1, .f32⟩ : BufTy).Contents (Elt F)),
    StableHlo.unary main_v44 main_v48 (broadcastInDim S1 ![] bcast_S_S1 : (⟨S_, .f32⟩ : BufTy).Contents (Elt F) → (⟨S1, .f32⟩ : BufTy).Contents (Elt F)),
    StableHlo.nary ![main_v45, main_v46, main_v47, main_v48] main_v49 (fun u => concatenate S4 0 [⟨S1, u 0⟩, ⟨S1, u 1⟩, ⟨S1, u 2⟩, ⟨S1, u 3⟩] concatenates_S1_S1_S1_S1_S4_d0),
    StableHlo.unary main_v40 main_v50 ((extractStridedSlice S1x1 ![1, 0] · slices_S2x2_S1x1_1_0) : (⟨S2x2, .f32⟩ : BufTy).Contents (Elt F) → (⟨S1x1, .f32⟩ : BufTy).Contents (Elt F)),
    StableHlo.reshape main_v50 main_v51 rfl shapeCasts_S1x1_S_,
    StableHlo.unary main_v40 main_v52 ((extractStridedSlice S1x1 ![1, 1] · slices_S2x2_S1x1_1_1) : (⟨S2x2, .f32⟩ : BufTy).Contents (Elt F) → (⟨S1x1, .f32⟩ : BufTy).Contents (Elt F)),
    StableHlo.reshape main_v52 main_v53 rfl shapeCasts_S1x1_S_,
    StableHlo.nullary main_cst_14 (constant S_ .f32 0x00000000#32),
    StableHlo.nullary main_cst_15 (constant S_ .f32 0x3F800000#32),
    StableHlo.unary main_cst_14 main_v54 (broadcastInDim S1 ![] bcast_S_S1 : (⟨S_, .f32⟩ : BufTy).Contents (Elt F) → (⟨S1, .f32⟩ : BufTy).Contents (Elt F)),
    StableHlo.unary main_cst_15 main_v55 (broadcastInDim S1 ![] bcast_S_S1 : (⟨S_, .f32⟩ : BufTy).Contents (Elt F) → (⟨S1, .f32⟩ : BufTy).Contents (Elt F)),
    StableHlo.unary main_v51 main_v56 (broadcastInDim S1 ![] bcast_S_S1 : (⟨S_, .f32⟩ : BufTy).Contents (Elt F) → (⟨S1, .f32⟩ : BufTy).Contents (Elt F)),
    StableHlo.unary main_v53 main_v57 (broadcastInDim S1 ![] bcast_S_S1 : (⟨S_, .f32⟩ : BufTy).Contents (Elt F) → (⟨S1, .f32⟩ : BufTy).Contents (Elt F)),
    StableHlo.nary ![main_v54, main_v55, main_v56, main_v57] main_v58 (fun u => concatenate S4 0 [⟨S1, u 0⟩, ⟨S1, u 1⟩, ⟨S1, u 2⟩, ⟨S1, u 3⟩] concatenates_S1_S1_S1_S1_S4_d0),
    StableHlo.nullary main_cst_16 (constant S_ .f32 0x00000000#32),
    StableHlo.nullary main_cst_17 (constant S_ .f32 0x00000000#32),
    StableHlo.nullary main_cst_18 (constant S_ .f32 0x3F800000#32),
    StableHlo.nullary main_cst_19 (constant S_ .f32 0x00000000#32),
    StableHlo.unary main_cst_16 main_v59 (broadcastInDim S1 ![] bcast_S_S1 : (⟨S_, .f32⟩ : BufTy).Contents (Elt F) → (⟨S1, .f32⟩ : BufTy).Contents (Elt F)),
    StableHlo.unary main_cst_17 main_v60 (broadcastInDim S1 ![] bcast_S_S1 : (⟨S_, .f32⟩ : BufTy).Contents (Elt F) → (⟨S1, .f32⟩ : BufTy).Contents (Elt F)),
    StableHlo.unary main_cst_18 main_v61 (broadcastInDim S1 ![] bcast_S_S1 : (⟨S_, .f32⟩ : BufTy).Contents (Elt F) → (⟨S1, .f32⟩ : BufTy).Contents (Elt F)),
    StableHlo.unary main_cst_19 main_v62 (broadcastInDim S1 ![] bcast_S_S1 : (⟨S_, .f32⟩ : BufTy).Contents (Elt F) → (⟨S1, .f32⟩ : BufTy).Contents (Elt F)),
    StableHlo.nary ![main_v59, main_v60, main_v61, main_v62] main_v63 (fun u => concatenate S4 0 [⟨S1, u 0⟩, ⟨S1, u 1⟩, ⟨S1, u 2⟩, ⟨S1, u 3⟩] concatenates_S1_S1_S1_S1_S4_d0),
    StableHlo.nullary main_cst_20 (constant S_ .f32 0x00000000#32),
    StableHlo.nullary main_cst_21 (constant S_ .f32 0x00000000#32),
    StableHlo.nullary main_cst_22 (constant S_ .f32 0x00000000#32),
    StableHlo.nullary main_cst_23 (constant S_ .f32 0x3F800000#32),
    StableHlo.unary main_cst_20 main_v64 (broadcastInDim S1 ![] bcast_S_S1 : (⟨S_, .f32⟩ : BufTy).Contents (Elt F) → (⟨S1, .f32⟩ : BufTy).Contents (Elt F)),
    StableHlo.unary main_cst_21 main_v65 (broadcastInDim S1 ![] bcast_S_S1 : (⟨S_, .f32⟩ : BufTy).Contents (Elt F) → (⟨S1, .f32⟩ : BufTy).Contents (Elt F)),
    StableHlo.unary main_cst_22 main_v66 (broadcastInDim S1 ![] bcast_S_S1 : (⟨S_, .f32⟩ : BufTy).Contents (Elt F) → (⟨S1, .f32⟩ : BufTy).Contents (Elt F)),
    StableHlo.unary main_cst_23 main_v67 (broadcastInDim S1 ![] bcast_S_S1 : (⟨S_, .f32⟩ : BufTy).Contents (Elt F) → (⟨S1, .f32⟩ : BufTy).Contents (Elt F)),
    StableHlo.nary ![main_v64, main_v65, main_v66, main_v67] main_v68 (fun u => concatenate S4 0 [⟨S1, u 0⟩, ⟨S1, u 1⟩, ⟨S1, u 2⟩, ⟨S1, u 3⟩] concatenates_S1_S1_S1_S1_S4_d0),
    StableHlo.unary main_v49 main_v69 (broadcastInDim S1x4 ![1] bcast_S4_S1x4_1 : (⟨S4, .f32⟩ : BufTy).Contents (Elt F) → (⟨S1x4, .f32⟩ : BufTy).Contents (Elt F)),
    StableHlo.unary main_v58 main_v70 (broadcastInDim S1x4 ![1] bcast_S4_S1x4_1 : (⟨S4, .f32⟩ : BufTy).Contents (Elt F) → (⟨S1x4, .f32⟩ : BufTy).Contents (Elt F)),
    StableHlo.unary main_v63 main_v71 (broadcastInDim S1x4 ![1] bcast_S4_S1x4_1 : (⟨S4, .f32⟩ : BufTy).Contents (Elt F) → (⟨S1x4, .f32⟩ : BufTy).Contents (Elt F)),
    StableHlo.unary main_v68 main_v72 (broadcastInDim S1x4 ![1] bcast_S4_S1x4_1 : (⟨S4, .f32⟩ : BufTy).Contents (Elt F) → (⟨S1x4, .f32⟩ : BufTy).Contents (Elt F)),
    StableHlo.nary ![main_v69, main_v70, main_v71, main_v72] main_v73 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg2_W : List (Ref sig .tc) := [main_v39, main_v40, main_v41, main_v42, main_v43, main_v44, main_cst_12, main_cst_13, main_v45, main_v46, main_v47, main_v48, main_v49, main_v50, main_v51, main_v52, main_v53, main_cst_14, main_cst_15, main_v54, main_v55, main_v56, main_v57, main_v58, main_cst_16, main_cst_17, main_cst_18, main_cst_19, main_v59, main_v60, main_v61, main_v62, main_v63, main_cst_20, main_cst_21, main_cst_22, main_cst_23, main_v64, main_v65, main_v66, main_v67, main_v68, main_v69, main_v70, main_v71, main_v72, main_v73]
theorem kseg2_writes : (kseg2 (F := F)).Forall fun op => op.writes ⊆ (kseg2_W.map (Proc.devRef (τ := τ) .tc)).toFinset := by
  simp only [kseg2, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg2_keep (W : Valuation τ sig (Elt F)) (r : Ref sig .tc) (h : r ∉ kseg2_W) :
    after kseg2 W (no_index (Proc.devRef .tc r)) = W (Proc.devRef .tc r) :=
  after_of_writes_sub kseg2 W kseg2_writes h

/-- Operations 100 … 146. -/
def kseg3 : List (HloOp τ sig (Elt F)) :=
  [ StableHlo.unary main_v1 main_v74 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v74 main_v75 rfl shapeCasts_S1x2x2_S2x2,
    StableHlo.nullary main_cst_24 (constant S_ .f32 0x3F800000#32),
    StableHlo.nullary main_cst_25 (constant S_ .f32 0x00000000#32),
    StableHlo.nullary main_cst_26 (constant S_ .f32 0x00000000#32),
    StableHlo.nullary main_cst_27 (constant S_ .f32 0x00000000#32),
    StableHlo.unary main_cst_24 main_v76 (broadcastInDim S1 ![] bcast_S_S1 : (⟨S_, .f32⟩ : BufTy).Contents (Elt F) → (⟨S1, .f32⟩ : BufTy).Contents (Elt F)),
    StableHlo.unary main_cst_25 main_v77 (broadcastInDim S1 ![] bcast_S_S1 : (⟨S_, .f32⟩ : BufTy).Contents (Elt F) → (⟨S1, .f32⟩ : BufTy).Contents (Elt F)),
    StableHlo.unary main_cst_26 main_v78 (broadcastInDim S1 ![] bcast_S_S1 : (⟨S_, .f32⟩ : BufTy).Contents (Elt F) → (⟨S1, .f32⟩ : BufTy).Contents (Elt F)),
    StableHlo.unary main_cst_27 main_v79 (broadcastInDim S1 ![] bcast_S_S1 : (⟨S_, .f32⟩ : BufTy).Contents (Elt F) → (⟨S1, .f32⟩ : BufTy).Contents (Elt F)),
    StableHlo.nary ![main_v76, main_v77, main_v78, main_v79] main_v80 (fun u => concatenate S4 0 [⟨S1, u 0⟩, ⟨S1, u 1⟩, ⟨S1, u 2⟩, ⟨S1, u 3⟩] concatenates_S1_S1_S1_S1_S4_d0),
    StableHlo.nullary main_cst_28 (constant S_ .f32 0x00000000#32),
    StableHlo.nullary main_cst_29 (constant S_ .f32 0x3F800000#32),
    StableHlo.nullary main_cst_30 (constant S_ .f32 0x00000000#32),
    StableHlo.nullary main_cst_31 (constant S_ .f32 0x00000000#32),
    StableHlo.unary main_cst_28 main_v81 (broadcastInDim S1 ![] bcast_S_S1 : (⟨S_, .f32⟩ : BufTy).Contents (Elt F) → (⟨S1, .f32⟩ : BufTy).Contents (Elt F)),
    StableHlo.unary main_cst_29 main_v82 (broadcastInDim S1 ![] bcast_S_S1 : (⟨S_, .f32⟩ : BufTy).Contents (Elt F) → (⟨S1, .f32⟩ : BufTy).Contents (Elt F)),
    StableHlo.unary main_cst_30 main_v83 (broadcastInDim S1 ![] bcast_S_S1 : (⟨S_, .f32⟩ : BufTy).Contents (Elt F) → (⟨S1, .f32⟩ : BufTy).Contents (Elt F)),
    StableHlo.unary main_cst_31 main_v84 (broadcastInDim S1 ![] bcast_S_S1 : (⟨S_, .f32⟩ : BufTy).Contents (Elt F) → (⟨S1, .f32⟩ : BufTy).Contents (Elt F)),
    StableHlo.nary ![main_v81, main_v82, main_v83, main_v84] main_v85 (fun u => concatenate S4 0 [⟨S1, u 0⟩, ⟨S1, u 1⟩, ⟨S1, u 2⟩, ⟨S1, u 3⟩] concatenates_S1_S1_S1_S1_S4_d0),
    StableHlo.unary main_v75 main_v86 ((extractStridedSlice S1x1 ![0, 0] · slices_S2x2_S1x1_0_0) : (⟨S2x2, .f32⟩ : BufTy).Contents (Elt F) → (⟨S1x1, .f32⟩ : BufTy).Contents (Elt F)),
    StableHlo.reshape main_v86 main_v87 rfl shapeCasts_S1x1_S_,
    StableHlo.unary main_v75 main_v88 ((extractStridedSlice S1x1 ![0, 1] · slices_S2x2_S1x1_0_1) : (⟨S2x2, .f32⟩ : BufTy).Contents (Elt F) → (⟨S1x1, .f32⟩ : BufTy).Contents (Elt F)),
    StableHlo.reshape main_v88 main_v89 rfl shapeCasts_S1x1_S_,
    StableHlo.nullary main_cst_32 (constant S_ .f32 0x3F800000#32),
    StableHlo.nullary main_cst_33 (constant S_ .f32 0x00000000#32),
    StableHlo.unary main_v87 main_v90 (broadcastInDim S1 ![] bcast_S_S1 : (⟨S_, .f32⟩ : BufTy).Contents (Elt F) → (⟨S1, .f32⟩ : BufTy).Contents (Elt F)),
    StableHlo.unary main_v89 main_v91 (broadcastInDim S1 ![] bcast_S_S1 : (⟨S_, .f32⟩ : BufTy).Contents (Elt F) → (⟨S1, .f32⟩ : BufTy).Contents (Elt F)),
    StableHlo.unary main_cst_32 main_v92 (broadcastInDim S1 ![] bcast_S_S1 : (⟨S_, .f32⟩ : BufTy).Contents (Elt F) → (⟨S1, .f32⟩ : BufTy).Contents (Elt F)),
    StableHlo.unary main_cst_33 main_v93 (broadcastInDim S1 ![] bcast_S_S1 : (⟨S_, .f32⟩ : BufTy).Contents (Elt F) → (⟨S1, .f32⟩ : BufTy).Contents (Elt F)),
    StableHlo.nary ![main_v90, main_v91, main_v92, main_v93] main_v94 (fun u => concatenate S4 0 [⟨S1, u 0⟩, ⟨S1, u 1⟩, ⟨S1, u 2⟩, ⟨S1, u 3⟩] concatenates_S1_S1_S1_S1_S4_d0),
    StableHlo.unary main_v75 main_v95 ((extractStridedSlice S1x1 ![1, 0] · slices_S2x2_S1x1_1_0) : (⟨S2x2, .f32⟩ : BufTy).Contents (Elt F) → (⟨S1x1, .f32⟩ : BufTy).Contents (Elt F)),
    StableHlo.reshape main_v95 main_v96 rfl shapeCasts_S1x1_S_,
    StableHlo.unary main_v75 main_v97 ((extractStridedSlice S1x1 ![1, 1] · slices_S2x2_S1x1_1_1) : (⟨S2x2, .f32⟩ : BufTy).Contents (Elt F) → (⟨S1x1, .f32⟩ : BufTy).Contents (Elt F)),
    StableHlo.reshape main_v97 main_v98 rfl shapeCasts_S1x1_S_,
    StableHlo.nullary main_cst_34 (constant S_ .f32 0x00000000#32),
    StableHlo.nullary main_cst_35 (constant S_ .f32 0x3F800000#32),
    StableHlo.unary main_v96 main_v99 (broadcastInDim S1 ![] bcast_S_S1 : (⟨S_, .f32⟩ : BufTy).Contents (Elt F) → (⟨S1, .f32⟩ : BufTy).Contents (Elt F)),
    StableHlo.unary main_v98 main_v100 (broadcastInDim S1 ![] bcast_S_S1 : (⟨S_, .f32⟩ : BufTy).Contents (Elt F) → (⟨S1, .f32⟩ : BufTy).Contents (Elt F)),
    StableHlo.unary main_cst_34 main_v101 (broadcastInDim S1 ![] bcast_S_S1 : (⟨S_, .f32⟩ : BufTy).Contents (Elt F) → (⟨S1, .f32⟩ : BufTy).Contents (Elt F)),
    StableHlo.unary main_cst_35 main_v102 (broadcastInDim S1 ![] bcast_S_S1 : (⟨S_, .f32⟩ : BufTy).Contents (Elt F) → (⟨S1, .f32⟩ : BufTy).Contents (Elt F)),
    StableHlo.nary ![main_v99, main_v100, main_v101, main_v102] main_v103 (fun u => concatenate S4 0 [⟨S1, u 0⟩, ⟨S1, u 1⟩, ⟨S1, u 2⟩, ⟨S1, u 3⟩] concatenates_S1_S1_S1_S1_S4_d0),
    StableHlo.unary main_v80 main_v104 (broadcastInDim S1x4 ![1] bcast_S4_S1x4_1 : (⟨S4, .f32⟩ : BufTy).Contents (Elt F) → (⟨S1x4, .f32⟩ : BufTy).Contents (Elt F)),
    StableHlo.unary main_v85 main_v105 (broadcastInDim S1x4 ![1] bcast_S4_S1x4_1 : (⟨S4, .f32⟩ : BufTy).Contents (Elt F) → (⟨S1x4, .f32⟩ : BufTy).Contents (Elt F)),
    StableHlo.unary main_v94 main_v106 (broadcastInDim S1x4 ![1] bcast_S4_S1x4_1 : (⟨S4, .f32⟩ : BufTy).Contents (Elt F) → (⟨S1x4, .f32⟩ : BufTy).Contents (Elt F)),
    StableHlo.unary main_v103 main_v107 (broadcastInDim S1x4 ![1] bcast_S4_S1x4_1 : (⟨S4, .f32⟩ : BufTy).Contents (Elt F) → (⟨S1x4, .f32⟩ : BufTy).Contents (Elt F)),
    StableHlo.nary ![main_v104, main_v105, main_v106, main_v107] main_v108 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg3_W : List (Ref sig .tc) := [main_v74, main_v75, main_cst_24, main_cst_25, main_cst_26, main_cst_27, main_v76, main_v77, main_v78, main_v79, main_v80, main_cst_28, main_cst_29, main_cst_30, main_cst_31, main_v81, main_v82, main_v83, main_v84, main_v85, main_v86, main_v87, main_v88, main_v89, main_cst_32, main_cst_33, main_v90, main_v91, main_v92, main_v93, main_v94, main_v95, main_v96, main_v97, main_v98, main_cst_34, main_cst_35, main_v99, main_v100, main_v101, main_v102, main_v103, main_v104, main_v105, main_v106, main_v107, main_v108]
theorem kseg3_writes : (kseg3 (F := F)).Forall fun op => op.writes ⊆ (kseg3_W.map (Proc.devRef (τ := τ) .tc)).toFinset := by
  simp only [kseg3, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg3_keep (W : Valuation τ sig (Elt F)) (r : Ref sig .tc) (h : r ∉ kseg3_W) :
    after kseg3 W (no_index (Proc.devRef .tc r)) = W (Proc.devRef .tc r) :=
  after_of_writes_sub kseg3 W kseg3_writes h

/-- Operations 147 … 193. -/
def kseg4 : List (HloOp τ sig (Elt F)) :=
  [ StableHlo.unary main_v1 main_v109 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v109 main_v110 rfl shapeCasts_S1x2x2_S2x2,
    StableHlo.unary main_v110 main_v111 ((extractStridedSlice S1x1 ![0, 0] · slices_S2x2_S1x1_0_0) : (⟨S2x2, .f32⟩ : BufTy).Contents (Elt F) → (⟨S1x1, .f32⟩ : BufTy).Contents (Elt F)),
    StableHlo.reshape main_v111 main_v112 rfl shapeCasts_S1x1_S_,
    StableHlo.unary main_v110 main_v113 ((extractStridedSlice S1x1 ![0, 1] · slices_S2x2_S1x1_0_1) : (⟨S2x2, .f32⟩ : BufTy).Contents (Elt F) → (⟨S1x1, .f32⟩ : BufTy).Contents (Elt F)),
    StableHlo.reshape main_v113 main_v114 rfl shapeCasts_S1x1_S_,
    StableHlo.nullary main_cst_36 (constant S_ .f32 0x3F800000#32),
    StableHlo.nullary main_cst_37 (constant S_ .f32 0x00000000#32),
    StableHlo.unary main_cst_36 main_v115 (broadcastInDim S1 ![] bcast_S_S1 : (⟨S_, .f32⟩ : BufTy).Contents (Elt F) → (⟨S1, .f32⟩ : BufTy).Contents (Elt F)),
    StableHlo.unary main_cst_37 main_v116 (broadcastInDim S1 ![] bcast_S_S1 : (⟨S_, .f32⟩ : BufTy).Contents (Elt F) → (⟨S1, .f32⟩ : BufTy).Contents (Elt F)),
    StableHlo.unary main_v112 main_v117 (broadcastInDim S1 ![] bcast_S_S1 : (⟨S_, .f32⟩ : BufTy).Contents (Elt F) → (⟨S1, .f32⟩ : BufTy).Contents (Elt F)),
    StableHlo.unary main_v114 main_v118 (broadcastInDim S1 ![] bcast_S_S1 : (⟨S_, .f32⟩ : BufTy).Contents (Elt F) → (⟨S1, .f32⟩ : BufTy).Contents (Elt F)),
    StableHlo.nary ![main_v115, main_v116, main_v117, main_v118] main_v119 (fun u => concatenate S4 0 [⟨S1, u 0⟩, ⟨S1, u 1⟩, ⟨S1, u 2⟩, ⟨S1, u 3⟩] concatenates_S1_S1_S1_S1_S4_d0),
    StableHlo.unary main_v110 main_v120 ((extractStridedSlice S1x1 ![1, 0] · slices_S2x2_S1x1_1_0) : (⟨S2x2, .f32⟩ : BufTy).Contents (Elt F) → (⟨S1x1, .f32⟩ : BufTy).Contents (Elt F)),
    StableHlo.reshape main_v120 main_v121 rfl shapeCasts_S1x1_S_,
    StableHlo.unary main_v110 main_v122 ((extractStridedSlice S1x1 ![1, 1] · slices_S2x2_S1x1_1_1) : (⟨S2x2, .f32⟩ : BufTy).Contents (Elt F) → (⟨S1x1, .f32⟩ : BufTy).Contents (Elt F)),
    StableHlo.reshape main_v122 main_v123 rfl shapeCasts_S1x1_S_,
    StableHlo.nullary main_cst_38 (constant S_ .f32 0x00000000#32),
    StableHlo.nullary main_cst_39 (constant S_ .f32 0x3F800000#32),
    StableHlo.unary main_cst_38 main_v124 (broadcastInDim S1 ![] bcast_S_S1 : (⟨S_, .f32⟩ : BufTy).Contents (Elt F) → (⟨S1, .f32⟩ : BufTy).Contents (Elt F)),
    StableHlo.unary main_cst_39 main_v125 (broadcastInDim S1 ![] bcast_S_S1 : (⟨S_, .f32⟩ : BufTy).Contents (Elt F) → (⟨S1, .f32⟩ : BufTy).Contents (Elt F)),
    StableHlo.unary main_v121 main_v126 (broadcastInDim S1 ![] bcast_S_S1 : (⟨S_, .f32⟩ : BufTy).Contents (Elt F) → (⟨S1, .f32⟩ : BufTy).Contents (Elt F)),
    StableHlo.unary main_v123 main_v127 (broadcastInDim S1 ![] bcast_S_S1 : (⟨S_, .f32⟩ : BufTy).Contents (Elt F) → (⟨S1, .f32⟩ : BufTy).Contents (Elt F)),
    StableHlo.nary ![main_v124, main_v125, main_v126, main_v127] main_v128 (fun u => concatenate S4 0 [⟨S1, u 0⟩, ⟨S1, u 1⟩, ⟨S1, u 2⟩, ⟨S1, u 3⟩] concatenates_S1_S1_S1_S1_S4_d0),
    StableHlo.nullary main_cst_40 (constant S_ .f32 0x00000000#32),
    StableHlo.nullary main_cst_41 (constant S_ .f32 0x00000000#32),
    StableHlo.nullary main_cst_42 (constant S_ .f32 0x3F800000#32),
    StableHlo.nullary main_cst_43 (constant S_ .f32 0x00000000#32),
    StableHlo.unary main_cst_40 main_v129 (broadcastInDim S1 ![] bcast_S_S1 : (⟨S_, .f32⟩ : BufTy).Contents (Elt F) → (⟨S1, .f32⟩ : BufTy).Contents (Elt F)),
    StableHlo.unary main_cst_41 main_v130 (broadcastInDim S1 ![] bcast_S_S1 : (⟨S_, .f32⟩ : BufTy).Contents (Elt F) → (⟨S1, .f32⟩ : BufTy).Contents (Elt F)),
    StableHlo.unary main_cst_42 main_v131 (broadcastInDim S1 ![] bcast_S_S1 : (⟨S_, .f32⟩ : BufTy).Contents (Elt F) → (⟨S1, .f32⟩ : BufTy).Contents (Elt F)),
    StableHlo.unary main_cst_43 main_v132 (broadcastInDim S1 ![] bcast_S_S1 : (⟨S_, .f32⟩ : BufTy).Contents (Elt F) → (⟨S1, .f32⟩ : BufTy).Contents (Elt F)),
    StableHlo.nary ![main_v129, main_v130, main_v131, main_v132] main_v133 (fun u => concatenate S4 0 [⟨S1, u 0⟩, ⟨S1, u 1⟩, ⟨S1, u 2⟩, ⟨S1, u 3⟩] concatenates_S1_S1_S1_S1_S4_d0),
    StableHlo.nullary main_cst_44 (constant S_ .f32 0x00000000#32),
    StableHlo.nullary main_cst_45 (constant S_ .f32 0x00000000#32),
    StableHlo.nullary main_cst_46 (constant S_ .f32 0x00000000#32),
    StableHlo.nullary main_cst_47 (constant S_ .f32 0x3F800000#32),
    StableHlo.unary main_cst_44 main_v134 (broadcastInDim S1 ![] bcast_S_S1 : (⟨S_, .f32⟩ : BufTy).Contents (Elt F) → (⟨S1, .f32⟩ : BufTy).Contents (Elt F)),
    StableHlo.unary main_cst_45 main_v135 (broadcastInDim S1 ![] bcast_S_S1 : (⟨S_, .f32⟩ : BufTy).Contents (Elt F) → (⟨S1, .f32⟩ : BufTy).Contents (Elt F)),
    StableHlo.unary main_cst_46 main_v136 (broadcastInDim S1 ![] bcast_S_S1 : (⟨S_, .f32⟩ : BufTy).Contents (Elt F) → (⟨S1, .f32⟩ : BufTy).Contents (Elt F)),
    StableHlo.unary main_cst_47 main_v137 (broadcastInDim S1 ![] bcast_S_S1 : (⟨S_, .f32⟩ : BufTy).Contents (Elt F) → (⟨S1, .f32⟩ : BufTy).Contents (Elt F)),
    StableHlo.nary ![main_v134, main_v135, main_v136, main_v137] main_v138 (fun u => concatenate S4 0 [⟨S1, u 0⟩, ⟨S1, u 1⟩, ⟨S1, u 2⟩, ⟨S1, u 3⟩] concatenates_S1_S1_S1_S1_S4_d0),
    StableHlo.unary main_v119 main_v139 (broadcastInDim S1x4 ![1] bcast_S4_S1x4_1 : (⟨S4, .f32⟩ : BufTy).Contents (Elt F) → (⟨S1x4, .f32⟩ : BufTy).Contents (Elt F)),
    StableHlo.unary main_v128 main_v140 (broadcastInDim S1x4 ![1] bcast_S4_S1x4_1 : (⟨S4, .f32⟩ : BufTy).Contents (Elt F) → (⟨S1x4, .f32⟩ : BufTy).Contents (Elt F)),
    StableHlo.unary main_v133 main_v141 (broadcastInDim S1x4 ![1] bcast_S4_S1x4_1 : (⟨S4, .f32⟩ : BufTy).Contents (Elt F) → (⟨S1x4, .f32⟩ : BufTy).Contents (Elt F)),
    StableHlo.unary main_v138 main_v142 (broadcastInDim S1x4 ![1] bcast_S4_S1x4_1 : (⟨S4, .f32⟩ : BufTy).Contents (Elt F) → (⟨S1x4, .f32⟩ : BufTy).Contents (Elt F)),
    StableHlo.nary ![main_v139, main_v140, main_v141, main_v142] main_v143 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg4_W : List (Ref sig .tc) := [main_v109, main_v110, main_v111, main_v112, main_v113, main_v114, main_cst_36, main_cst_37, main_v115, main_v116, main_v117, main_v118, main_v119, main_v120, main_v121, main_v122, main_v123, main_cst_38, main_cst_39, main_v124, main_v125, main_v126, main_v127, main_v128, main_cst_40, main_cst_41, main_cst_42, main_cst_43, main_v129, main_v130, main_v131, main_v132, main_v133, main_cst_44, main_cst_45, main_cst_46, main_cst_47, main_v134, main_v135, main_v136, main_v137, main_v138, main_v139, main_v140, main_v141, main_v142, main_v143]
theorem kseg4_writes : (kseg4 (F := F)).Forall fun op => op.writes ⊆ (kseg4_W.map (Proc.devRef (τ := τ) .tc)).toFinset := by
  simp only [kseg4, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg4_keep (W : Valuation τ sig (Elt F)) (r : Ref sig .tc) (h : r ∉ kseg4_W) :
    after kseg4 W (no_index (Proc.devRef .tc r)) = W (Proc.devRef .tc r) :=
  after_of_writes_sub kseg4 W kseg4_writes h

/-- Operations 194 … 198. -/
def kseg5 : List (HloOp τ sig (Elt F)) :=
  [ StableHlo.binary main_v38 main_v73 main_v144 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v144 main_v108 main_v145 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v145 main_v143 main_v146 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_cst main_v146 main_v147 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v147 main_cst main_v148 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)) ]
/-- The buffers they write. -/
abbrev kseg5_W : List (Ref sig .tc) := [main_v144, main_v145, main_v146, main_v147, main_v148]
theorem kseg5_writes : (kseg5 (F := F)).Forall fun op => op.writes ⊆ (kseg5_W.map (Proc.devRef (τ := τ) .tc)).toFinset := by
  simp only [kseg5, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg5_keep (W : Valuation τ sig (Elt F)) (r : Ref sig .tc) (h : r ∉ kseg5_W) :
    after kseg5 W (no_index (Proc.devRef .tc r)) = W (Proc.devRef .tc r) :=
  after_of_writes_sub kseg5 W kseg5_writes h

/-- Operations 199 … 245. -/
def kseg6 : List (HloOp τ sig (Elt F)) :=
  [ StableHlo.unary main_v3 main_v149 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v149 main_v150 rfl shapeCasts_S1x2x2_S2x2,
    StableHlo.unary main_v150 main_v151 ((extractStridedSlice S1x1 ![0, 0] · slices_S2x2_S1x1_0_0) : (⟨S2x2, .f32⟩ : BufTy).Contents (Elt F) → (⟨S1x1, .f32⟩ : BufTy).Contents (Elt F)),
    StableHlo.reshape main_v151 main_v152 rfl shapeCasts_S1x1_S_,
    StableHlo.unary main_v150 main_v153 ((extractStridedSlice S1x1 ![0, 1] · slices_S2x2_S1x1_0_1) : (⟨S2x2, .f32⟩ : BufTy).Contents (Elt F) → (⟨S1x1, .f32⟩ : BufTy).Contents (Elt F)),
    StableHlo.reshape main_v153 main_v154 rfl shapeCasts_S1x1_S_,
    StableHlo.nullary main_cst_48 (constant S_ .f32 0x3F800000#32),
    StableHlo.nullary main_cst_49 (constant S_ .f32 0x00000000#32),
    StableHlo.unary main_cst_48 main_v155 (broadcastInDim S1 ![] bcast_S_S1 : (⟨S_, .f32⟩ : BufTy).Contents (Elt F) → (⟨S1, .f32⟩ : BufTy).Contents (Elt F)),
    StableHlo.unary main_cst_49 main_v156 (broadcastInDim S1 ![] bcast_S_S1 : (⟨S_, .f32⟩ : BufTy).Contents (Elt F) → (⟨S1, .f32⟩ : BufTy).Contents (Elt F)),
    StableHlo.unary main_v152 main_v157 (broadcastInDim S1 ![] bcast_S_S1 : (⟨S_, .f32⟩ : BufTy).Contents (Elt F) → (⟨S1, .f32⟩ : BufTy).Contents (Elt F)),
    StableHlo.unary main_v154 main_v158 (broadcastInDim S1 ![] bcast_S_S1 : (⟨S_, .f32⟩ : BufTy).Contents (Elt F) → (⟨S1, .f32⟩ : BufTy).Contents (Elt F)),
    StableHlo.nary ![main_v155, main_v156, main_v157, main_v158] main_v159 (fun u => concatenate S4 0 [⟨S1, u 0⟩, ⟨S1, u 1⟩, ⟨S1, u 2⟩, ⟨S1, u 3⟩] concatenates_S1_S1_S1_S1_S4_d0),
    StableHlo.unary main_v150 main_v160 ((extractStridedSlice S1x1 ![1, 0] · slices_S2x2_S1x1_1_0) : (⟨S2x2, .f32⟩ : BufTy).Contents (Elt F) → (⟨S1x1, .f32⟩ : BufTy).Contents (Elt F)),
    StableHlo.reshape main_v160 main_v161 rfl shapeCasts_S1x1_S_,
    StableHlo.unary main_v150 main_v162 ((extractStridedSlice S1x1 ![1, 1] · slices_S2x2_S1x1_1_1) : (⟨S2x2, .f32⟩ : BufTy).Contents (Elt F) → (⟨S1x1, .f32⟩ : BufTy).Contents (Elt F)),
    StableHlo.reshape main_v162 main_v163 rfl shapeCasts_S1x1_S_,
    StableHlo.nullary main_cst_50 (constant S_ .f32 0x00000000#32),
    StableHlo.nullary main_cst_51 (constant S_ .f32 0x3F800000#32),
    StableHlo.unary main_cst_50 main_v164 (broadcastInDim S1 ![] bcast_S_S1 : (⟨S_, .f32⟩ : BufTy).Contents (Elt F) → (⟨S1, .f32⟩ : BufTy).Contents (Elt F)),
    StableHlo.unary main_cst_51 main_v165 (broadcastInDim S1 ![] bcast_S_S1 : (⟨S_, .f32⟩ : BufTy).Contents (Elt F) → (⟨S1, .f32⟩ : BufTy).Contents (Elt F)),
    StableHlo.unary main_v161 main_v166 (broadcastInDim S1 ![] bcast_S_S1 : (⟨S_, .f32⟩ : BufTy).Contents (Elt F) → (⟨S1, .f32⟩ : BufTy).Contents (Elt F)),
    StableHlo.unary main_v163 main_v167 (broadcastInDim S1 ![] bcast_S_S1 : (⟨S_, .f32⟩ : BufTy).Contents (Elt F) → (⟨S1, .f32⟩ : BufTy).Contents (Elt F)),
    StableHlo.nary ![main_v164, main_v165, main_v166, main_v167] main_v168 (fun u => concatenate S4 0 [⟨S1, u 0⟩, ⟨S1, u 1⟩, ⟨S1, u 2⟩, ⟨S1, u 3⟩] concatenates_S1_S1_S1_S1_S4_d0),
    StableHlo.nullary main_cst_52 (constant S_ .f32 0x00000000#32),
    StableHlo.nullary main_cst_53 (constant S_ .f32 0x00000000#32),
    StableHlo.nullary main_cst_54 (constant S_ .f32 0x3F800000#32),
    StableHlo.nullary main_cst_55 (constant S_ .f32 0x00000000#32),
    StableHlo.unary main_cst_52 main_v169 (broadcastInDim S1 ![] bcast_S_S1 : (⟨S_, .f32⟩ : BufTy).Contents (Elt F) → (⟨S1, .f32⟩ : BufTy).Contents (Elt F)),
    StableHlo.unary main_cst_53 main_v170 (broadcastInDim S1 ![] bcast_S_S1 : (⟨S_, .f32⟩ : BufTy).Contents (Elt F) → (⟨S1, .f32⟩ : BufTy).Contents (Elt F)),
    StableHlo.unary main_cst_54 main_v171 (broadcastInDim S1 ![] bcast_S_S1 : (⟨S_, .f32⟩ : BufTy).Contents (Elt F) → (⟨S1, .f32⟩ : BufTy).Contents (Elt F)),
    StableHlo.unary main_cst_55 main_v172 (broadcastInDim S1 ![] bcast_S_S1 : (⟨S_, .f32⟩ : BufTy).Contents (Elt F) → (⟨S1, .f32⟩ : BufTy).Contents (Elt F)),
    StableHlo.nary ![main_v169, main_v170, main_v171, main_v172] main_v173 (fun u => concatenate S4 0 [⟨S1, u 0⟩, ⟨S1, u 1⟩, ⟨S1, u 2⟩, ⟨S1, u 3⟩] concatenates_S1_S1_S1_S1_S4_d0),
    StableHlo.nullary main_cst_56 (constant S_ .f32 0x00000000#32),
    StableHlo.nullary main_cst_57 (constant S_ .f32 0x00000000#32),
    StableHlo.nullary main_cst_58 (constant S_ .f32 0x00000000#32),
    StableHlo.nullary main_cst_59 (constant S_ .f32 0x3F800000#32),
    StableHlo.unary main_cst_56 main_v174 (broadcastInDim S1 ![] bcast_S_S1 : (⟨S_, .f32⟩ : BufTy).Contents (Elt F) → (⟨S1, .f32⟩ : BufTy).Contents (Elt F)),
    StableHlo.unary main_cst_57 main_v175 (broadcastInDim S1 ![] bcast_S_S1 : (⟨S_, .f32⟩ : BufTy).Contents (Elt F) → (⟨S1, .f32⟩ : BufTy).Contents (Elt F)),
    StableHlo.unary main_cst_58 main_v176 (broadcastInDim S1 ![] bcast_S_S1 : (⟨S_, .f32⟩ : BufTy).Contents (Elt F) → (⟨S1, .f32⟩ : BufTy).Contents (Elt F)),
    StableHlo.unary main_cst_59 main_v177 (broadcastInDim S1 ![] bcast_S_S1 : (⟨S_, .f32⟩ : BufTy).Contents (Elt F) → (⟨S1, .f32⟩ : BufTy).Contents (Elt F)),
    StableHlo.nary ![main_v174, main_v175, main_v176, main_v177] main_v178 (fun u => concatenate S4 0 [⟨S1, u 0⟩, ⟨S1, u 1⟩, ⟨S1, u 2⟩, ⟨S1, u 3⟩] concatenates_S1_S1_S1_S1_S4_d0),
    StableHlo.unary main_v159 main_v179 (broadcastInDim S1x4 ![1] bcast_S4_S1x4_1 : (⟨S4, .f32⟩ : BufTy).Contents (Elt F) → (⟨S1x4, .f32⟩ : BufTy).Contents (Elt F)),
    StableHlo.unary main_v168 main_v180 (broadcastInDim S1x4 ![1] bcast_S4_S1x4_1 : (⟨S4, .f32⟩ : BufTy).Contents (Elt F) → (⟨S1x4, .f32⟩ : BufTy).Contents (Elt F)),
    StableHlo.unary main_v173 main_v181 (broadcastInDim S1x4 ![1] bcast_S4_S1x4_1 : (⟨S4, .f32⟩ : BufTy).Contents (Elt F) → (⟨S1x4, .f32⟩ : BufTy).Contents (Elt F)),
    StableHlo.unary main_v178 main_v182 (broadcastInDim S1x4 ![1] bcast_S4_S1x4_1 : (⟨S4, .f32⟩ : BufTy).Contents (Elt F) → (⟨S1x4, .f32⟩ : BufTy).Contents (Elt F)),
    StableHlo.nary ![main_v179, main_v180, main_v181, main_v182] main_v183 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg6_W : List (Ref sig .tc) := [main_v149, main_v150, main_v151, main_v152, main_v153, main_v154, main_cst_48, main_cst_49, main_v155, main_v156, main_v157, main_v158, main_v159, main_v160, main_v161, main_v162, main_v163, main_cst_50, main_cst_51, main_v164, main_v165, main_v166, main_v167, main_v168, main_cst_52, main_cst_53, main_cst_54, main_cst_55, main_v169, main_v170, main_v171, main_v172, main_v173, main_cst_56, main_cst_57, main_cst_58, main_cst_59, main_v174, main_v175, main_v176, main_v177, main_v178, main_v179, main_v180, main_v181, main_v182, main_v183]
theorem kseg6_writes : (kseg6 (F := F)).Forall fun op => op.writes ⊆ (kseg6_W.map (Proc.devRef (τ := τ) .tc)).toFinset := by
  simp only [kseg6, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg6_keep (W : Valuation τ sig (Elt F)) (r : Ref sig .tc) (h : r ∉ kseg6_W) :
    after kseg6 W (no_index (Proc.devRef .tc r)) = W (Proc.devRef .tc r) :=
  after_of_writes_sub kseg6 W kseg6_writes h

/-- Operations 246 … 292. -/
def kseg7 : List (HloOp τ sig (Elt F)) :=
  [ StableHlo.unary main_v3 main_v184 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v184 main_v185 rfl shapeCasts_S1x2x2_S2x2,
    StableHlo.nullary main_cst_60 (constant S_ .f32 0x3F800000#32),
    StableHlo.nullary main_cst_61 (constant S_ .f32 0x00000000#32),
    StableHlo.nullary main_cst_62 (constant S_ .f32 0x00000000#32),
    StableHlo.nullary main_cst_63 (constant S_ .f32 0x00000000#32),
    StableHlo.unary main_cst_60 main_v186 (broadcastInDim S1 ![] bcast_S_S1 : (⟨S_, .f32⟩ : BufTy).Contents (Elt F) → (⟨S1, .f32⟩ : BufTy).Contents (Elt F)),
    StableHlo.unary main_cst_61 main_v187 (broadcastInDim S1 ![] bcast_S_S1 : (⟨S_, .f32⟩ : BufTy).Contents (Elt F) → (⟨S1, .f32⟩ : BufTy).Contents (Elt F)),
    StableHlo.unary main_cst_62 main_v188 (broadcastInDim S1 ![] bcast_S_S1 : (⟨S_, .f32⟩ : BufTy).Contents (Elt F) → (⟨S1, .f32⟩ : BufTy).Contents (Elt F)),
    StableHlo.unary main_cst_63 main_v189 (broadcastInDim S1 ![] bcast_S_S1 : (⟨S_, .f32⟩ : BufTy).Contents (Elt F) → (⟨S1, .f32⟩ : BufTy).Contents (Elt F)),
    StableHlo.nary ![main_v186, main_v187, main_v188, main_v189] main_v190 (fun u => concatenate S4 0 [⟨S1, u 0⟩, ⟨S1, u 1⟩, ⟨S1, u 2⟩, ⟨S1, u 3⟩] concatenates_S1_S1_S1_S1_S4_d0),
    StableHlo.nullary main_cst_64 (constant S_ .f32 0x00000000#32),
    StableHlo.nullary main_cst_65 (constant S_ .f32 0x3F800000#32),
    StableHlo.nullary main_cst_66 (constant S_ .f32 0x00000000#32),
    StableHlo.nullary main_cst_67 (constant S_ .f32 0x00000000#32),
    StableHlo.unary main_cst_64 main_v191 (broadcastInDim S1 ![] bcast_S_S1 : (⟨S_, .f32⟩ : BufTy).Contents (Elt F) → (⟨S1, .f32⟩ : BufTy).Contents (Elt F)),
    StableHlo.unary main_cst_65 main_v192 (broadcastInDim S1 ![] bcast_S_S1 : (⟨S_, .f32⟩ : BufTy).Contents (Elt F) → (⟨S1, .f32⟩ : BufTy).Contents (Elt F)),
    StableHlo.unary main_cst_66 main_v193 (broadcastInDim S1 ![] bcast_S_S1 : (⟨S_, .f32⟩ : BufTy).Contents (Elt F) → (⟨S1, .f32⟩ : BufTy).Contents (Elt F)),
    StableHlo.unary main_cst_67 main_v194 (broadcastInDim S1 ![] bcast_S_S1 : (⟨S_, .f32⟩ : BufTy).Contents (Elt F) → (⟨S1, .f32⟩ : BufTy).Contents (Elt F)),
    StableHlo.nary ![main_v191, main_v192, main_v193, main_v194] main_v195 (fun u => concatenate S4 0 [⟨S1, u 0⟩, ⟨S1, u 1⟩, ⟨S1, u 2⟩, ⟨S1, u 3⟩] concatenates_S1_S1_S1_S1_S4_d0),
    StableHlo.unary main_v185 main_v196 ((extractStridedSlice S1x1 ![0, 0] · slices_S2x2_S1x1_0_0) : (⟨S2x2, .f32⟩ : BufTy).Contents (Elt F) → (⟨S1x1, .f32⟩ : BufTy).Contents (Elt F)),
    StableHlo.reshape main_v196 main_v197 rfl shapeCasts_S1x1_S_,
    StableHlo.unary main_v185 main_v198 ((extractStridedSlice S1x1 ![0, 1] · slices_S2x2_S1x1_0_1) : (⟨S2x2, .f32⟩ : BufTy).Contents (Elt F) → (⟨S1x1, .f32⟩ : BufTy).Contents (Elt F)),
    StableHlo.reshape main_v198 main_v199 rfl shapeCasts_S1x1_S_,
    StableHlo.nullary main_cst_68 (constant S_ .f32 0x3F800000#32),
    StableHlo.nullary main_cst_69 (constant S_ .f32 0x00000000#32),
    StableHlo.unary main_v197 main_v200 (broadcastInDim S1 ![] bcast_S_S1 : (⟨S_, .f32⟩ : BufTy).Contents (Elt F) → (⟨S1, .f32⟩ : BufTy).Contents (Elt F)),
    StableHlo.unary main_v199 main_v201 (broadcastInDim S1 ![] bcast_S_S1 : (⟨S_, .f32⟩ : BufTy).Contents (Elt F) → (⟨S1, .f32⟩ : BufTy).Contents (Elt F)),
    StableHlo.unary main_cst_68 main_v202 (broadcastInDim S1 ![] bcast_S_S1 : (⟨S_, .f32⟩ : BufTy).Contents (Elt F) → (⟨S1, .f32⟩ : BufTy).Contents (Elt F)),
    StableHlo.unary main_cst_69 main_v203 (broadcastInDim S1 ![] bcast_S_S1 : (⟨S_, .f32⟩ : BufTy).Contents (Elt F) → (⟨S1, .f32⟩ : BufTy).Contents (Elt F)),
    StableHlo.nary ![main_v200, main_v201, main_v202, main_v203] main_v204 (fun u => concatenate S4 0 [⟨S1, u 0⟩, ⟨S1, u 1⟩, ⟨S1, u 2⟩, ⟨S1, u 3⟩] concatenates_S1_S1_S1_S1_S4_d0),
    StableHlo.unary main_v185 main_v205 ((extractStridedSlice S1x1 ![1, 0] · slices_S2x2_S1x1_1_0) : (⟨S2x2, .f32⟩ : BufTy).Contents (Elt F) → (⟨S1x1, .f32⟩ : BufTy).Contents (Elt F)),
    StableHlo.reshape main_v205 main_v206 rfl shapeCasts_S1x1_S_,
    StableHlo.unary main_v185 main_v207 ((extractStridedSlice S1x1 ![1, 1] · slices_S2x2_S1x1_1_1) : (⟨S2x2, .f32⟩ : BufTy).Contents (Elt F) → (⟨S1x1, .f32⟩ : BufTy).Contents (Elt F)),
    StableHlo.reshape main_v207 main_v208 rfl shapeCasts_S1x1_S_,
    StableHlo.nullary main_cst_70 (constant S_ .f32 0x00000000#32),
    StableHlo.nullary main_cst_71 (constant S_ .f32 0x3F800000#32),
    StableHlo.unary main_v206 main_v209 (broadcastInDim S1 ![] bcast_S_S1 : (⟨S_, .f32⟩ : BufTy).Contents (Elt F) → (⟨S1, .f32⟩ : BufTy).Contents (Elt F)),
    StableHlo.unary main_v208 main_v210 (broadcastInDim S1 ![] bcast_S_S1 : (⟨S_, .f32⟩ : BufTy).Contents (Elt F) → (⟨S1, .f32⟩ : BufTy).Contents (Elt F)),
    StableHlo.unary main_cst_70 main_v211 (broadcastInDim S1 ![] bcast_S_S1 : (⟨S_, .f32⟩ : BufTy).Contents (Elt F) → (⟨S1, .f32⟩ : BufTy).Contents (Elt F)),
    StableHlo.unary main_cst_71 main_v212 (broadcastInDim S1 ![] bcast_S_S1 : (⟨S_, .f32⟩ : BufTy).Contents (Elt F) → (⟨S1, .f32⟩ : BufTy).Contents (Elt F)),
    StableHlo.nary ![main_v209, main_v210, main_v211, main_v212] main_v213 (fun u => concatenate S4 0 [⟨S1, u 0⟩, ⟨S1, u 1⟩, ⟨S1, u 2⟩, ⟨S1, u 3⟩] concatenates_S1_S1_S1_S1_S4_d0),
    StableHlo.unary main_v190 main_v214 (broadcastInDim S1x4 ![1] bcast_S4_S1x4_1 : (⟨S4, .f32⟩ : BufTy).Contents (Elt F) → (⟨S1x4, .f32⟩ : BufTy).Contents (Elt F)),
    StableHlo.unary main_v195 main_v215 (broadcastInDim S1x4 ![1] bcast_S4_S1x4_1 : (⟨S4, .f32⟩ : BufTy).Contents (Elt F) → (⟨S1x4, .f32⟩ : BufTy).Contents (Elt F)),
    StableHlo.unary main_v204 main_v216 (broadcastInDim S1x4 ![1] bcast_S4_S1x4_1 : (⟨S4, .f32⟩ : BufTy).Contents (Elt F) → (⟨S1x4, .f32⟩ : BufTy).Contents (Elt F)),
    StableHlo.unary main_v213 main_v217 (broadcastInDim S1x4 ![1] bcast_S4_S1x4_1 : (⟨S4, .f32⟩ : BufTy).Contents (Elt F) → (⟨S1x4, .f32⟩ : BufTy).Contents (Elt F)),
    StableHlo.nary ![main_v214, main_v215, main_v216, main_v217] main_v218 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg7_W : List (Ref sig .tc) := [main_v184, main_v185, main_cst_60, main_cst_61, main_cst_62, main_cst_63, main_v186, main_v187, main_v188, main_v189, main_v190, main_cst_64, main_cst_65, main_cst_66, main_cst_67, main_v191, main_v192, main_v193, main_v194, main_v195, main_v196, main_v197, main_v198, main_v199, main_cst_68, main_cst_69, main_v200, main_v201, main_v202, main_v203, main_v204, main_v205, main_v206, main_v207, main_v208, main_cst_70, main_cst_71, main_v209, main_v210, main_v211, main_v212, main_v213, main_v214, main_v215, main_v216, main_v217, main_v218]
theorem kseg7_writes : (kseg7 (F := F)).Forall fun op => op.writes ⊆ (kseg7_W.map (Proc.devRef (τ := τ) .tc)).toFinset := by
  simp only [kseg7, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg7_keep (W : Valuation τ sig (Elt F)) (r : Ref sig .tc) (h : r ∉ kseg7_W) :
    after kseg7 W (no_index (Proc.devRef .tc r)) = W (Proc.devRef .tc r) :=
  after_of_writes_sub kseg7 W kseg7_writes h

/-- Operations 293 … 339. -/
def kseg8 : List (HloOp τ sig (Elt F)) :=
  [ StableHlo.unary main_v3 main_v219 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v219 main_v220 rfl shapeCasts_S1x2x2_S2x2,
    StableHlo.unary main_v220 main_v221 ((extractStridedSlice S1x1 ![0, 0] · slices_S2x2_S1x1_0_0) : (⟨S2x2, .f32⟩ : BufTy).Contents (Elt F) → (⟨S1x1, .f32⟩ : BufTy).Contents (Elt F)),
    StableHlo.reshape main_v221 main_v222 rfl shapeCasts_S1x1_S_,
    StableHlo.unary main_v220 main_v223 ((extractStridedSlice S1x1 ![0, 1] · slices_S2x2_S1x1_0_1) : (⟨S2x2, .f32⟩ : BufTy).Contents (Elt F) → (⟨S1x1, .f32⟩ : BufTy).Contents (Elt F)),
    StableHlo.reshape main_v223 main_v224 rfl shapeCasts_S1x1_S_,
    StableHlo.nullary main_cst_72 (constant S_ .f32 0x3F800000#32),
    StableHlo.nullary main_cst_73 (constant S_ .f32 0x00000000#32),
    StableHlo.unary main_cst_72 main_v225 (broadcastInDim S1 ![] bcast_S_S1 : (⟨S_, .f32⟩ : BufTy).Contents (Elt F) → (⟨S1, .f32⟩ : BufTy).Contents (Elt F)),
    StableHlo.unary main_cst_73 main_v226 (broadcastInDim S1 ![] bcast_S_S1 : (⟨S_, .f32⟩ : BufTy).Contents (Elt F) → (⟨S1, .f32⟩ : BufTy).Contents (Elt F)),
    StableHlo.unary main_v222 main_v227 (broadcastInDim S1 ![] bcast_S_S1 : (⟨S_, .f32⟩ : BufTy).Contents (Elt F) → (⟨S1, .f32⟩ : BufTy).Contents (Elt F)),
    StableHlo.unary main_v224 main_v228 (broadcastInDim S1 ![] bcast_S_S1 : (⟨S_, .f32⟩ : BufTy).Contents (Elt F) → (⟨S1, .f32⟩ : BufTy).Contents (Elt F)),
    StableHlo.nary ![main_v225, main_v226, main_v227, main_v228] main_v229 (fun u => concatenate S4 0 [⟨S1, u 0⟩, ⟨S1, u 1⟩, ⟨S1, u 2⟩, ⟨S1, u 3⟩] concatenates_S1_S1_S1_S1_S4_d0),
    StableHlo.unary main_v220 main_v230 ((extractStridedSlice S1x1 ![1, 0] · slices_S2x2_S1x1_1_0) : (⟨S2x2, .f32⟩ : BufTy).Contents (Elt F) → (⟨S1x1, .f32⟩ : BufTy).Contents (Elt F)),
    StableHlo.reshape main_v230 main_v231 rfl shapeCasts_S1x1_S_,
    StableHlo.unary main_v220 main_v232 ((extractStridedSlice S1x1 ![1, 1] · slices_S2x2_S1x1_1_1) : (⟨S2x2, .f32⟩ : BufTy).Contents (Elt F) → (⟨S1x1, .f32⟩ : BufTy).Contents (Elt F)),
    StableHlo.reshape main_v232 main_v233 rfl shapeCasts_S1x1_S_,
    StableHlo.nullary main_cst_74 (constant S_ .f32 0x00000000#32),
    StableHlo.nullary main_cst_75 (constant S_ .f32 0x3F800000#32),
    StableHlo.unary main_cst_74 main_v234 (broadcastInDim S1 ![] bcast_S_S1 : (⟨S_, .f32⟩ : BufTy).Contents (Elt F) → (⟨S1, .f32⟩ : BufTy).Contents (Elt F)),
    StableHlo.unary main_cst_75 main_v235 (broadcastInDim S1 ![] bcast_S_S1 : (⟨S_, .f32⟩ : BufTy).Contents (Elt F) → (⟨S1, .f32⟩ : BufTy).Contents (Elt F)),
    StableHlo.unary main_v231 main_v236 (broadcastInDim S1 ![] bcast_S_S1 : (⟨S_, .f32⟩ : BufTy).Contents (Elt F) → (⟨S1, .f32⟩ : BufTy).Contents (Elt F)),
    StableHlo.unary main_v233 main_v237 (broadcastInDim S1 ![] bcast_S_S1 : (⟨S_, .f32⟩ : BufTy).Contents (Elt F) → (⟨S1, .f32⟩ : BufTy).Contents (Elt F)),
    StableHlo.nary ![main_v234, main_v235, main_v236, main_v237] main_v238 (fun u => concatenate S4 0 [⟨S1, u 0⟩, ⟨S1, u 1⟩, ⟨S1, u 2⟩, ⟨S1, u 3⟩] concatenates_S1_S1_S1_S1_S4_d0),
    StableHlo.nullary main_cst_76 (constant S_ .f32 0x00000000#32),
    StableHlo.nullary main_cst_77 (constant S_ .f32 0x00000000#32),
    StableHlo.nullary main_cst_78 (constant S_ .f32 0x3F800000#32),
    StableHlo.nullary main_cst_79 (constant S_ .f32 0x00000000#32),
    StableHlo.unary main_cst_76 main_v239 (broadcastInDim S1 ![] bcast_S_S1 : (⟨S_, .f32⟩ : BufTy).Contents (Elt F) → (⟨S1, .f32⟩ : BufTy).Contents (Elt F)),
    StableHlo.unary main_cst_77 main_v240 (broadcastInDim S1 ![] bcast_S_S1 : (⟨S_, .f32⟩ : BufTy).Contents (Elt F) → (⟨S1, .f32⟩ : BufTy).Contents (Elt F)),
    StableHlo.unary main_cst_78 main_v241 (broadcastInDim S1 ![] bcast_S_S1 : (⟨S_, .f32⟩ : BufTy).Contents (Elt F) → (⟨S1, .f32⟩ : BufTy).Contents (Elt F)),
    StableHlo.unary main_cst_79 main_v242 (broadcastInDim S1 ![] bcast_S_S1 : (⟨S_, .f32⟩ : BufTy).Contents (Elt F) → (⟨S1, .f32⟩ : BufTy).Contents (Elt F)),
    StableHlo.nary ![main_v239, main_v240, main_v241, main_v242] main_v243 (fun u => concatenate S4 0 [⟨S1, u 0⟩, ⟨S1, u 1⟩, ⟨S1, u 2⟩, ⟨S1, u 3⟩] concatenates_S1_S1_S1_S1_S4_d0),
    StableHlo.nullary main_cst_80 (constant S_ .f32 0x00000000#32),
    StableHlo.nullary main_cst_81 (constant S_ .f32 0x00000000#32),
    StableHlo.nullary main_cst_82 (constant S_ .f32 0x00000000#32),
    StableHlo.nullary main_cst_83 (constant S_ .f32 0x3F800000#32),
    StableHlo.unary main_cst_80 main_v244 (broadcastInDim S1 ![] bcast_S_S1 : (⟨S_, .f32⟩ : BufTy).Contents (Elt F) → (⟨S1, .f32⟩ : BufTy).Contents (Elt F)),
    StableHlo.unary main_cst_81 main_v245 (broadcastInDim S1 ![] bcast_S_S1 : (⟨S_, .f32⟩ : BufTy).Contents (Elt F) → (⟨S1, .f32⟩ : BufTy).Contents (Elt F)),
    StableHlo.unary main_cst_82 main_v246 (broadcastInDim S1 ![] bcast_S_S1 : (⟨S_, .f32⟩ : BufTy).Contents (Elt F) → (⟨S1, .f32⟩ : BufTy).Contents (Elt F)),
    StableHlo.unary main_cst_83 main_v247 (broadcastInDim S1 ![] bcast_S_S1 : (⟨S_, .f32⟩ : BufTy).Contents (Elt F) → (⟨S1, .f32⟩ : BufTy).Contents (Elt F)),
    StableHlo.nary ![main_v244, main_v245, main_v246, main_v247] main_v248 (fun u => concatenate S4 0 [⟨S1, u 0⟩, ⟨S1, u 1⟩, ⟨S1, u 2⟩, ⟨S1, u 3⟩] concatenates_S1_S1_S1_S1_S4_d0),
    StableHlo.unary main_v229 main_v249 (broadcastInDim S1x4 ![1] bcast_S4_S1x4_1 : (⟨S4, .f32⟩ : BufTy).Contents (Elt F) → (⟨S1x4, .f32⟩ : BufTy).Contents (Elt F)),
    StableHlo.unary main_v238 main_v250 (broadcastInDim S1x4 ![1] bcast_S4_S1x4_1 : (⟨S4, .f32⟩ : BufTy).Contents (Elt F) → (⟨S1x4, .f32⟩ : BufTy).Contents (Elt F)),
    StableHlo.unary main_v243 main_v251 (broadcastInDim S1x4 ![1] bcast_S4_S1x4_1 : (⟨S4, .f32⟩ : BufTy).Contents (Elt F) → (⟨S1x4, .f32⟩ : BufTy).Contents (Elt F)),
    StableHlo.unary main_v248 main_v252 (broadcastInDim S1x4 ![1] bcast_S4_S1x4_1 : (⟨S4, .f32⟩ : BufTy).Contents (Elt F) → (⟨S1x4, .f32⟩ : BufTy).Contents (Elt F)),
    StableHlo.nary ![main_v249, main_v250, main_v251, main_v252] main_v253 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg8_W : List (Ref sig .tc) := [main_v219, main_v220, main_v221, main_v222, main_v223, main_v224, main_cst_72, main_cst_73, main_v225, main_v226, main_v227, main_v228, main_v229, main_v230, main_v231, main_v232, main_v233, main_cst_74, main_cst_75, main_v234, main_v235, main_v236, main_v237, main_v238, main_cst_76, main_cst_77, main_cst_78, main_cst_79, main_v239, main_v240, main_v241, main_v242, main_v243, main_cst_80, main_cst_81, main_cst_82, main_cst_83, main_v244, main_v245, main_v246, main_v247, main_v248, main_v249, main_v250, main_v251, main_v252, main_v253]
theorem kseg8_writes : (kseg8 (F := F)).Forall fun op => op.writes ⊆ (kseg8_W.map (Proc.devRef (τ := τ) .tc)).toFinset := by
  simp only [kseg8, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg8_keep (W : Valuation τ sig (Elt F)) (r : Ref sig .tc) (h : r ∉ kseg8_W) :
    after kseg8 W (no_index (Proc.devRef .tc r)) = W (Proc.devRef .tc r) :=
  after_of_writes_sub kseg8 W kseg8_writes h

/-- Operations 340 … 386. -/
def kseg9 : List (HloOp τ sig (Elt F)) :=
  [ StableHlo.unary main_v3 main_v254 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v254 main_v255 rfl shapeCasts_S1x2x2_S2x2,
    StableHlo.nullary main_cst_84 (constant S_ .f32 0x3F800000#32),
    StableHlo.nullary main_cst_85 (constant S_ .f32 0x00000000#32),
    StableHlo.nullary main_cst_86 (constant S_ .f32 0x00000000#32),
    StableHlo.nullary main_cst_87 (constant S_ .f32 0x00000000#32),
    StableHlo.unary main_cst_84 main_v256 (broadcastInDim S1 ![] bcast_S_S1 : (⟨S_, .f32⟩ : BufTy).Contents (Elt F) → (⟨S1, .f32⟩ : BufTy).Contents (Elt F)),
    StableHlo.unary main_cst_85 main_v257 (broadcastInDim S1 ![] bcast_S_S1 : (⟨S_, .f32⟩ : BufTy).Contents (Elt F) → (⟨S1, .f32⟩ : BufTy).Contents (Elt F)),
    StableHlo.unary main_cst_86 main_v258 (broadcastInDim S1 ![] bcast_S_S1 : (⟨S_, .f32⟩ : BufTy).Contents (Elt F) → (⟨S1, .f32⟩ : BufTy).Contents (Elt F)),
    StableHlo.unary main_cst_87 main_v259 (broadcastInDim S1 ![] bcast_S_S1 : (⟨S_, .f32⟩ : BufTy).Contents (Elt F) → (⟨S1, .f32⟩ : BufTy).Contents (Elt F)),
    StableHlo.nary ![main_v256, main_v257, main_v258, main_v259] main_v260 (fun u => concatenate S4 0 [⟨S1, u 0⟩, ⟨S1, u 1⟩, ⟨S1, u 2⟩, ⟨S1, u 3⟩] concatenates_S1_S1_S1_S1_S4_d0),
    StableHlo.nullary main_cst_88 (constant S_ .f32 0x00000000#32),
    StableHlo.nullary main_cst_89 (constant S_ .f32 0x3F800000#32),
    StableHlo.nullary main_cst_90 (constant S_ .f32 0x00000000#32),
    StableHlo.nullary main_cst_91 (constant S_ .f32 0x00000000#32),
    StableHlo.unary main_cst_88 main_v261 (broadcastInDim S1 ![] bcast_S_S1 : (⟨S_, .f32⟩ : BufTy).Contents (Elt F) → (⟨S1, .f32⟩ : BufTy).Contents (Elt F)),
    StableHlo.unary main_cst_89 main_v262 (broadcastInDim S1 ![] bcast_S_S1 : (⟨S_, .f32⟩ : BufTy).Contents (Elt F) → (⟨S1, .f32⟩ : BufTy).Contents (Elt F)),
    StableHlo.unary main_cst_90 main_v263 (broadcastInDim S1 ![] bcast_S_S1 : (⟨S_, .f32⟩ : BufTy).Contents (Elt F) → (⟨S1, .f32⟩ : BufTy).Contents (Elt F)),
    StableHlo.unary main_cst_91 main_v264 (broadcastInDim S1 ![] bcast_S_S1 : (⟨S_, .f32⟩ : BufTy).Contents (Elt F) → (⟨S1, .f32⟩ : BufTy).Contents (Elt F)),
    StableHlo.nary ![main_v261, main_v262, main_v263, main_v264] main_v265 (fun u => concatenate S4 0 [⟨S1, u 0⟩, ⟨S1, u 1⟩, ⟨S1, u 2⟩, ⟨S1, u 3⟩] concatenates_S1_S1_S1_S1_S4_d0),
    StableHlo.unary main_v255 main_v266 ((extractStridedSlice S1x1 ![0, 0] · slices_S2x2_S1x1_0_0) : (⟨S2x2, .f32⟩ : BufTy).Contents (Elt F) → (⟨S1x1, .f32⟩ : BufTy).Contents (Elt F)),
    StableHlo.reshape main_v266 main_v267 rfl shapeCasts_S1x1_S_,
    StableHlo.unary main_v255 main_v268 ((extractStridedSlice S1x1 ![0, 1] · slices_S2x2_S1x1_0_1) : (⟨S2x2, .f32⟩ : BufTy).Contents (Elt F) → (⟨S1x1, .f32⟩ : BufTy).Contents (Elt F)),
    StableHlo.reshape main_v268 main_v269 rfl shapeCasts_S1x1_S_,
    StableHlo.nullary main_cst_92 (constant S_ .f32 0x3F800000#32),
    StableHlo.nullary main_cst_93 (constant S_ .f32 0x00000000#32),
    StableHlo.unary main_v267 main_v270 (broadcastInDim S1 ![] bcast_S_S1 : (⟨S_, .f32⟩ : BufTy).Contents (Elt F) → (⟨S1, .f32⟩ : BufTy).Contents (Elt F)),
    StableHlo.unary main_v269 main_v271 (broadcastInDim S1 ![] bcast_S_S1 : (⟨S_, .f32⟩ : BufTy).Contents (Elt F) → (⟨S1, .f32⟩ : BufTy).Contents (Elt F)),
    StableHlo.unary main_cst_92 main_v272 (broadcastInDim S1 ![] bcast_S_S1 : (⟨S_, .f32⟩ : BufTy).Contents (Elt F) → (⟨S1, .f32⟩ : BufTy).Contents (Elt F)),
    StableHlo.unary main_cst_93 main_v273 (broadcastInDim S1 ![] bcast_S_S1 : (⟨S_, .f32⟩ : BufTy).Contents (Elt F) → (⟨S1, .f32⟩ : BufTy).Contents (Elt F)),
    StableHlo.nary ![main_v270, main_v271, main_v272, main_v273] main_v274 (fun u => concatenate S4 0 [⟨S1, u 0⟩, ⟨S1, u 1⟩, ⟨S1, u 2⟩, ⟨S1, u 3⟩] concatenates_S1_S1_S1_S1_S4_d0),
    StableHlo.unary main_v255 main_v275 ((extractStridedSlice S1x1 ![1, 0] · slices_S2x2_S1x1_1_0) : (⟨S2x2, .f32⟩ : BufTy).Contents (Elt F) → (⟨S1x1, .f32⟩ : BufTy).Contents (Elt F)),
    StableHlo.reshape main_v275 main_v276 rfl shapeCasts_S1x1_S_,
    StableHlo.unary main_v255 main_v277 ((extractStridedSlice S1x1 ![1, 1] · slices_S2x2_S1x1_1_1) : (⟨S2x2, .f32⟩ : BufTy).Contents (Elt F) → (⟨S1x1, .f32⟩ : BufTy).Contents (Elt F)),
    StableHlo.reshape main_v277 main_v278 rfl shapeCasts_S1x1_S_,
    StableHlo.nullary main_cst_94 (constant S_ .f32 0x00000000#32),
    StableHlo.nullary main_cst_95 (constant S_ .f32 0x3F800000#32),
    StableHlo.unary main_v276 main_v279 (broadcastInDim S1 ![] bcast_S_S1 : (⟨S_, .f32⟩ : BufTy).Contents (Elt F) → (⟨S1, .f32⟩ : BufTy).Contents (Elt F)),
    StableHlo.unary main_v278 main_v280 (broadcastInDim S1 ![] bcast_S_S1 : (⟨S_, .f32⟩ : BufTy).Contents (Elt F) → (⟨S1, .f32⟩ : BufTy).Contents (Elt F)),
    StableHlo.unary main_cst_94 main_v281 (broadcastInDim S1 ![] bcast_S_S1 : (⟨S_, .f32⟩ : BufTy).Contents (Elt F) → (⟨S1, .f32⟩ : BufTy).Contents (Elt F)),
    StableHlo.unary main_cst_95 main_v282 (broadcastInDim S1 ![] bcast_S_S1 : (⟨S_, .f32⟩ : BufTy).Contents (Elt F) → (⟨S1, .f32⟩ : BufTy).Contents (Elt F)),
    StableHlo.nary ![main_v279, main_v280, main_v281, main_v282] main_v283 (fun u => concatenate S4 0 [⟨S1, u 0⟩, ⟨S1, u 1⟩, ⟨S1, u 2⟩, ⟨S1, u 3⟩] concatenates_S1_S1_S1_S1_S4_d0),
    StableHlo.unary main_v260 main_v284 (broadcastInDim S1x4 ![1] bcast_S4_S1x4_1 : (⟨S4, .f32⟩ : BufTy).Contents (Elt F) → (⟨S1x4, .f32⟩ : BufTy).Contents (Elt F)),
    StableHlo.unary main_v265 main_v285 (broadcastInDim S1x4 ![1] bcast_S4_S1x4_1 : (⟨S4, .f32⟩ : BufTy).Contents (Elt F) → (⟨S1x4, .f32⟩ : BufTy).Contents (Elt F)),
    StableHlo.unary main_v274 main_v286 (broadcastInDim S1x4 ![1] bcast_S4_S1x4_1 : (⟨S4, .f32⟩ : BufTy).Contents (Elt F) → (⟨S1x4, .f32⟩ : BufTy).Contents (Elt F)),
    StableHlo.unary main_v283 main_v287 (broadcastInDim S1x4 ![1] bcast_S4_S1x4_1 : (⟨S4, .f32⟩ : BufTy).Contents (Elt F) → (⟨S1x4, .f32⟩ : BufTy).Contents (Elt F)),
    StableHlo.nary ![main_v284, main_v285, main_v286, main_v287] main_v288 (fun u => concatenate S4x4 0 [⟨S1x4, u 0⟩, ⟨S1x4, u 1⟩, ⟨S1x4, u 2⟩, ⟨S1x4, u 3⟩] concatenates_S1x4_S1x4_S1x4_S1x4_S4x4_d0) ]
/-- The buffers they write. -/
abbrev kseg9_W : List (Ref sig .tc) := [main_v254, main_v255, main_cst_84, main_cst_85, main_cst_86, main_cst_87, main_v256, main_v257, main_v258, main_v259, main_v260, main_cst_88, main_cst_89, main_cst_90, main_cst_91, main_v261, main_v262, main_v263, main_v264, main_v265, main_v266, main_v267, main_v268, main_v269, main_cst_92, main_cst_93, main_v270, main_v271, main_v272, main_v273, main_v274, main_v275, main_v276, main_v277, main_v278, main_cst_94, main_cst_95, main_v279, main_v280, main_v281, main_v282, main_v283, main_v284, main_v285, main_v286, main_v287, main_v288]
theorem kseg9_writes : (kseg9 (F := F)).Forall fun op => op.writes ⊆ (kseg9_W.map (Proc.devRef (τ := τ) .tc)).toFinset := by
  simp only [kseg9, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg9_keep (W : Valuation τ sig (Elt F)) (r : Ref sig .tc) (h : r ∉ kseg9_W) :
    after kseg9 W (no_index (Proc.devRef .tc r)) = W (Proc.devRef .tc r) :=
  after_of_writes_sub kseg9 W kseg9_writes h

/-- Operations 387 … 391. -/
def kseg10 : List (HloOp τ sig (Elt F)) :=
  [ StableHlo.binary main_v183 main_v218 main_v289 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v289 main_v253 main_v290 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v290 main_v288 main_v291 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_cst main_v291 main_v292 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)),
    StableHlo.binary main_v292 main_cst main_v293 ((fun l r => Host.dotGeneral dot_S4x4_S4x4_S4x4_1_0_0_1_n_n none l r) : (⟨S4x4, .f32⟩ : BufTy).Contents (Elt F) → (⟨S4x4, .f32⟩ : BufTy).Contents (Elt F) → (⟨S4x4, .f32⟩ : BufTy).Contents (Elt F)) ]
/-- The buffers they write. -/
abbrev kseg10_W : List (Ref sig .tc) := [main_v289, main_v290, main_v291, main_v292, main_v293]
theorem kseg10_writes : (kseg10 (F := F)).Forall fun op => op.writes ⊆ (kseg10_W.map (Proc.devRef (τ := τ) .tc)).toFinset := by
  simp only [kseg10, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg10_keep (W : Valuation τ sig (Elt F)) (r : Ref sig .tc) (h : r ∉ kseg10_W) :
    after kseg10 W (no_index (Proc.devRef .tc r)) = W (Proc.devRef .tc r) :=
  after_of_writes_sub kseg10 W kseg10_writes h

/-- Operations 392 … 397. -/
def kseg11 : List (HloOp τ sig (Elt F)) :=
  [ StableHlo.nullary main_cst_96 (constant S_ .f32 0x00000000#32),
    StableHlo.unary main_cst_96 main_v294 (broadcastInDim S2 ![] bcast_S_S2 : (⟨S_, .f32⟩ : BufTy).Contents (Elt F) → (⟨S2, .f32⟩ : BufTy).Contents (Elt F)),
    StableHlo.binary main_arg2 main_v294 main_v295 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F)),
    StableHlo.nullary main_cst_97 (constant S_ .f32 0x00000000#32),
    StableHlo.unary main_cst_97 main_v296 (broadcastInDim S2 ![] bcast_S_S2 : (⟨S_, .f32⟩ : BufTy).Contents (Elt F) → (⟨S2, .f32⟩ : BufTy).Contents (Elt F)),
    StableHlo.binary main_v296 main_arg4 main_v297 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F)) ]
/-- The buffers they write. -/
abbrev kseg11_W : List (Ref sig .tc) := [main_cst_96, main_v294, main_v295, main_cst_97, main_v296, main_v297]
theorem kseg11_writes : (kseg11 (F := F)).Forall fun op => op.writes ⊆ (kseg11_W.map (Proc.devRef (τ := τ) .tc)).toFinset := by
  simp only [kseg11, List.Forall]; exact ⟨by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide),
    by simp only [nullary_writes, unary_writes, binary_writes, reshape_writes, nary_writes, Finset.singleton_subset_iff, List.mem_toFinset]; exact List.mem_map_of_mem (by decide)⟩
/-- A buffer they do not write keeps its contents. -/
theorem kseg11_keep (W : Valuation τ sig (Elt F)) (r : Ref sig .tc) (h : r ∉ kseg11_W) :
    after kseg11 W (no_index (Proc.devRef .tc r)) = W (Proc.devRef .tc r) :=
  after_of_writes_sub kseg11 W kseg11_writes h

/-- The first stage leaves the literal table and the two symmetrised weight arrays. -/
theorem kseg0_cst (W : Valuation τ sig (Elt F)) : after kseg0 W (Proc.devRef .tc main_cst) = antiDiag := by
  simp only [kseg0]
  after_results
  rfl
theorem kseg0_cst' (W : Valuation τ sig (Elt F)) : after kseg0 W (no_index (Proc.devRef .tc main_cst)) = antiDiag := kseg0_cst W
theorem kseg0_v1 (W : Valuation τ sig (Elt F)) : after kseg0 W (Proc.devRef .tc main_v1) = HostTerm.symm (W (Proc.devRef .tc main_arg1)) := by
  simp only [kseg0]
  after_results
  rfl
theorem kseg0_v1' (W : Valuation τ sig (Elt F)) : after kseg0 W (no_index (Proc.devRef .tc main_v1)) = HostTerm.symm (W (Proc.devRef .tc main_arg1)) := kseg0_v1 W
theorem kseg0_v3 (W : Valuation τ sig (Elt F)) : after kseg0 W (Proc.devRef .tc main_v3) = HostTerm.symm (W (Proc.devRef .tc main_arg3)) := by
  simp only [kseg0]
  after_results
  rfl
theorem kseg0_v3' (W : Valuation τ sig (Elt F)) : after kseg0 W (no_index (Proc.devRef .tc main_v3)) = HostTerm.symm (W (Proc.devRef .tc main_arg3)) := kseg0_v3 W

set_option maxHeartbeats 2000000 in
/-- The whole list is the stages in order. -/
theorem hostOps0_split : hostOps0 (F := F) = kseg0 ++ kseg1 ++ kseg2 ++ kseg3 ++ kseg4 ++ kseg5 ++ kseg6 ++ kseg7 ++ kseg8 ++ kseg9 ++ kseg10 ++ kseg11 := by
  simp only [hostOps0, kseg0, kseg1, kseg2, kseg3, kseg4, kseg5, kseg6, kseg7, kseg8, kseg9, kseg10, kseg11, List.cons_append, List.nil_append]

end Cert.KernelIdeal.HostTerm

end
-- ==== Proof.KHostA2.lean ====
/-
  The first 4 × 4 operand at region entry, stage by stage: each shear matrix from its slice of the first
  symmetrised weight array, then the product of the four between the two literal tables.
-/
import proofs.«143413_j47167330845370_2_alg».proof.Proof.KHostSeg

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]

set_option maxHeartbeats 2000000 in
theorem kseg1_out (W : Valuation τ sig (Elt F)) :
    after kseg1 W (Proc.devRef .tc main_v38) = shearUp (slice0 (W (Proc.devRef .tc main_v1))) := by
  simp only [kseg1]
  after_results
  rfl
theorem kseg1_out' (W : Valuation τ sig (Elt F)) :
    after kseg1 W (no_index (Proc.devRef .tc main_v38)) = shearUp (slice0 (W (Proc.devRef .tc main_v1))) := kseg1_out W

set_option maxHeartbeats 2000000 in
theorem kseg2_out (W : Valuation τ sig (Elt F)) :
    after kseg2 W (Proc.devRef .tc main_v73) = shearLow (slice1 (W (Proc.devRef .tc main_v1))) := by
  simp only [kseg2]
  after_results
  rfl
theorem kseg2_out' (W : Valuation τ sig (Elt F)) :
    after kseg2 W (no_index (Proc.devRef .tc main_v73)) = shearLow (slice1 (W (Proc.devRef .tc main_v1))) := kseg2_out W

set_option maxHeartbeats 2000000 in
theorem kseg3_out (W : Valuation τ sig (Elt F)) :
    after kseg3 W (Proc.devRef .tc main_v108) = shearUp (slice2 (W (Proc.devRef .tc main_v1))) := by
  simp only [kseg3]
  after_results
  rfl
theorem kseg3_out' (W : Valuation τ sig (Elt F)) :
    after kseg3 W (no_index (Proc.devRef .tc main_v108)) = shearUp (slice2 (W (Proc.devRef .tc main_v1))) := kseg3_out W

set_option maxHeartbeats 2000000 in
theorem kseg4_out (W : Valuation τ sig (Elt F)) :
    after kseg4 W (Proc.devRef .tc main_v143) = shearLow (slice3 (W (Proc.devRef .tc main_v1))) := by
  simp only [kseg4]
  after_results
  rfl
theorem kseg4_out' (W : Valuation τ sig (Elt F)) :
    after kseg4 W (no_index (Proc.devRef .tc main_v143)) = shearLow (slice3 (W (Proc.devRef .tc main_v1))) := kseg4_out W

set_option maxHeartbeats 2000000 in
theorem kseg5_out (W : Valuation τ sig (Elt F)) :
    after kseg5 W (Proc.devRef .tc main_v148) = dot4 (dot4 (W (Proc.devRef .tc main_cst)) (dot4 (dot4 (dot4 (W (Proc.devRef .tc main_v38)) (W (Proc.devRef .tc main_v73))) (W (Proc.devRef .tc main_v108))) (W (Proc.devRef .tc main_v143)))) (W (Proc.devRef .tc main_cst)) := by
  simp only [kseg5]
  after_results
  rfl
theorem kseg5_out' (W : Valuation τ sig (Elt F)) :
    after kseg5 W (no_index (Proc.devRef .tc main_v148)) = dot4 (dot4 (W (Proc.devRef .tc main_cst)) (dot4 (dot4 (dot4 (W (Proc.devRef .tc main_v38)) (W (Proc.devRef .tc main_v73))) (W (Proc.devRef .tc main_v108))) (W (Proc.devRef .tc main_v143)))) (W (Proc.devRef .tc main_cst)) := kseg5_out W

set_option maxHeartbeats 2000000 in
theorem v148_eq' (m : (ℓ : Loc nD τ sig) → Buf (Elt F) ℓ) (c : Dev nD) :
    StableHlo.after (hostOps0 (F := F)) (fun b => m (c, b)) (main_v148 : Ref sig .tc) = big1 (HostTerm.symm (m ((c : Thread nD τ).loc main_arg1))) := by
  rw [hostOps0_split]
  simp only [after_app]
  simp (disch := decide) only [kseg1_out', kseg2_out', kseg3_out', kseg4_out', kseg5_out', kseg0_cst', kseg0_v1',
    kseg0_keep, kseg1_keep, kseg2_keep, kseg3_keep, kseg4_keep, kseg5_keep, kseg6_keep, kseg7_keep, kseg8_keep, kseg9_keep, kseg10_keep, kseg11_keep]
  rfl

end Cert.KernelIdeal.HostTerm

end
-- ==== Proof.KHostB2.lean ====
/-
  The second 4 × 4 operand at region entry, stage by stage: each shear matrix from its slice of the second
  symmetrised weight array, then the product of the four between the two literal tables.
-/
import proofs.«143413_j47167330845370_2_alg».proof.Proof.KHostSeg

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]

set_option maxHeartbeats 2000000 in
theorem kseg6_out (W : Valuation τ sig (Elt F)) :
    after kseg6 W (Proc.devRef .tc main_v183) = shearLow (slice0 (W (Proc.devRef .tc main_v3))) := by
  simp only [kseg6]
  after_results
  rfl
theorem kseg6_out' (W : Valuation τ sig (Elt F)) :
    after kseg6 W (no_index (Proc.devRef .tc main_v183)) = shearLow (slice0 (W (Proc.devRef .tc main_v3))) := kseg6_out W

set_option maxHeartbeats 2000000 in
theorem kseg7_out (W : Valuation τ sig (Elt F)) :
    after kseg7 W (Proc.devRef .tc main_v218) = shearUp (slice1 (W (Proc.devRef .tc main_v3))) := by
  simp only [kseg7]
  after_results
  rfl
theorem kseg7_out' (W : Valuation τ sig (Elt F)) :
    after kseg7 W (no_index (Proc.devRef .tc main_v218)) = shearUp (slice1 (W (Proc.devRef .tc main_v3))) := kseg7_out W

set_option maxHeartbeats 2000000 in
theorem kseg8_out (W : Valuation τ sig (Elt F)) :
    after kseg8 W (Proc.devRef .tc main_v253) = shearLow (slice2 (W (Proc.devRef .tc main_v3))) := by
  simp only [kseg8]
  after_results
  rfl
theorem kseg8_out' (W : Valuation τ sig (Elt F)) :
    after kseg8 W (no_index (Proc.devRef .tc main_v253)) = shearLow (slice2 (W (Proc.devRef .tc main_v3))) := kseg8_out W

set_option maxHeartbeats 2000000 in
theorem kseg9_out (W : Valuation τ sig (Elt F)) :
    after kseg9 W (Proc.devRef .tc main_v288) = shearUp (slice3 (W (Proc.devRef .tc main_v3))) := by
  simp only [kseg9]
  after_results
  rfl
theorem kseg9_out' (W : Valuation τ sig (Elt F)) :
    after kseg9 W (no_index (Proc.devRef .tc main_v288)) = shearUp (slice3 (W (Proc.devRef .tc main_v3))) := kseg9_out W

set_option maxHeartbeats 2000000 in
theorem kseg10_out (W : Valuation τ sig (Elt F)) :
    after kseg10 W (Proc.devRef .tc main_v293) = dot4 (dot4 (W (Proc.devRef .tc main_cst)) (dot4 (dot4 (dot4 (W (Proc.devRef .tc main_v183)) (W (Proc.devRef .tc main_v218))) (W (Proc.devRef .tc main_v253))) (W (Proc.devRef .tc main_v288)))) (W (Proc.devRef .tc main_cst)) := by
  simp only [kseg10]
  after_results
  rfl
theorem kseg10_out' (W : Valuation τ sig (Elt F)) :
    after kseg10 W (no_index (Proc.devRef .tc main_v293)) = dot4 (dot4 (W (Proc.devRef .tc main_cst)) (dot4 (dot4 (dot4 (W (Proc.devRef .tc main_v183)) (W (Proc.devRef .tc main_v218))) (W (Proc.devRef .tc main_v253))) (W (Proc.devRef .tc main_v288)))) (W (Proc.devRef .tc main_cst)) := kseg10_out W

set_option maxHeartbeats 2000000 in
theorem v293_eq' (m : (ℓ : Loc nD τ sig) → Buf (Elt F) ℓ) (c : Dev nD) :
    StableHlo.after (hostOps0 (F := F)) (fun b => m (c, b)) (main_v293 : Ref sig .tc) = big2 (HostTerm.symm (m ((c : Thread nD τ).loc main_arg3))) := by
  rw [hostOps0_split]
  simp only [after_app]
  simp (disch := decide) only [kseg6_out', kseg7_out', kseg8_out', kseg9_out', kseg10_out', kseg0_cst', kseg0_v3',
    kseg0_keep, kseg1_keep, kseg2_keep, kseg3_keep, kseg4_keep, kseg5_keep, kseg6_keep, kseg7_keep, kseg8_keep, kseg9_keep, kseg10_keep, kseg11_keep]
  rfl

end Cert.KernelIdeal.HostTerm

end
-- ==== Proof.KHostC.lean ====
/-
  What the host operations before the region leave in the kernel's small operands, read off the operation list:
  the two masks are the gain vectors padded with two zeros, behind and in front.
-/
import proofs.«143413_j47167330845370_2_alg».proof.Proof.KHostDefs

noncomputable section

namespace Cert.KernelIdeal.HostTerm

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxHeartbeats 400000000 in
/-- The first mask at region entry. -/
theorem v295_eq :
    StableHlo.after (hostOps0 (F := F)) (fun b => m (c, b)) (main_v295 : Ref sig .tc)
      = maskUp (m ((c : Thread nD τ).loc main_arg2)) := by
  after_results
  rfl

set_option maxHeartbeats 400000000 in
/-- The second mask at region entry. -/
theorem v297_eq :
    StableHlo.after (hostOps0 (F := F)) (fun b => m (c, b)) (main_v297 : Ref sig .tc)
      = maskLow (m ((c : Thread nD τ).loc main_arg4)) := by
  after_results
  rfl

end Cert.KernelIdeal.HostTerm

end
-- ==== Proof.ChainReal.lean ====
/-
  The real-number algebra behind the kernel: a chain of eight shears of ℝ⁴, taken four at a time between reversals
  and tanh taps, equals one product with a composed 4 × 4 matrix per block of four.

  Row vectors act on the right: `v ᵥ* M`. With `Rm` the reversal matrix, `Mup S` the shear `(p, q) ↦ (p + q·S, q)`
  and `Mlow S` the shear `(p, q) ↦ (p, q + p·S)`, associativity of the matrix product gives
  `v ᵥ* (Rm * (M₁ * M₂ * M₃ * M₄) * Rm) = rev (M₄ (M₃ (M₂ (M₁ (rev v)))))`; adding a constant commutes with the
  reversal; and a tap `v ↦ v + mask ⊙ tanh (v rolled by two)` with the mask supported on the first (last) two
  entries is `actUp` (`actLow`).
-/
import Mathlib.Data.Matrix.Mul
import Mathlib.LinearAlgebra.Matrix.Notation
import Mathlib.Analysis.SpecialFunctions.Trigonometric.Basic
import Mathlib.Tactic.Ring
import Mathlib.Tactic.FinCases

noncomputable section

namespace Cert.ChainReal

open Matrix

/-- The reversal matrix: `(v ᵥ* Rm) j = v (3 - j)`. -/
def Rm : Matrix (Fin 4) (Fin 4) ℝ := !![0, 0, 0, 1; 0, 0, 1, 0; 0, 1, 0, 0; 1, 0, 0, 0]

/-- The shear `(p, q) ↦ (p + q·S, q)` as a matrix acting on row vectors. -/
def Mup (S : Fin 2 → Fin 2 → ℝ) : Matrix (Fin 4) (Fin 4) ℝ :=
  !![1, 0, 0, 0; 0, 1, 0, 0; S 0 0, S 0 1, 1, 0; S 1 0, S 1 1, 0, 1]

/-- The shear `(p, q) ↦ (p, q + p·S)` as a matrix acting on row vectors. -/
def Mlow (S : Fin 2 → Fin 2 → ℝ) : Matrix (Fin 4) (Fin 4) ℝ :=
  !![1, 0, S 0 0, S 0 1; 0, 1, S 1 0, S 1 1; 0, 0, 1, 0; 0, 0, 0, 1]

def rev (v : Fin 4 → ℝ) : Fin 4 → ℝ := ![v 3, v 2, v 1, v 0]

def up (S : Fin 2 → Fin 2 → ℝ) (v : Fin 4 → ℝ) : Fin 4 → ℝ :=
  ![v 0 + (v 2 * S 0 0 + v 3 * S 1 0), v 1 + (v 2 * S 0 1 + v 3 * S 1 1), v 2, v 3]

def low (S : Fin 2 → Fin 2 → ℝ) (v : Fin 4 → ℝ) : Fin 4 → ℝ :=
  ![v 0, v 1, v 2 + (v 0 * S 0 0 + v 1 * S 1 0), v 3 + (v 0 * S 0 1 + v 1 * S 1 1)]

def plus (c : ℝ) (v : Fin 4 → ℝ) : Fin 4 → ℝ := fun j => v j + c

def actUp (a : Fin 2 → ℝ) (v : Fin 4 → ℝ) : Fin 4 → ℝ :=
  ![v 0 + a 0 * Real.tanh (v 2), v 1 + a 1 * Real.tanh (v 3), v 2, v 3]

def actLow (a : Fin 2 → ℝ) (v : Fin 4 → ℝ) : Fin 4 → ℝ :=
  ![v 0, v 1, v 2 + a 0 * Real.tanh (v 0), v 3 + a 1 * Real.tanh (v 1)]

/-- One row through the whole chain, step by step. -/
def row (c : ℝ) (S T : Fin 4 → Fin 2 → Fin 2 → ℝ) (au al : Fin 2 → ℝ) (x : Fin 4 → ℝ) : Fin 4 → ℝ :=
  rev (actLow al (rev (plus c (up (T 3) (low (T 2) (up (T 1) (low (T 0)
    (rev (actUp au (rev (plus c (low (S 3) (up (S 2) (low (S 1) (up (S 0) (rev x))))))))))))))))

/-- A 4-vector rolled by two places. -/
def roll2 (v : Fin 4 → ℝ) : Fin 4 → ℝ := ![v 2, v 3, v 0, v 1]

/-- The tap `v ↦ v + mask ⊙ tanh (roll2 v)`. -/
def tap (mask : Fin 4 → ℝ) (v : Fin 4 → ℝ) : Fin 4 → ℝ := fun j => v j + mask j * Real.tanh (roll2 v j)

/-- One row the fused way: two matrix products, two taps, one reversal. -/
def rowK (c : ℝ) (B1 B2 : Matrix (Fin 4) (Fin 4) ℝ) (mu ml : Fin 4 → ℝ) (x : Fin 4 → ℝ) : Fin 4 → ℝ :=
  rev (tap ml (plus c (tap mu (plus c (x ᵥ* B1)) ᵥ* B2)))

theorem vecMul_Rm (v : Fin 4 → ℝ) : v ᵥ* Rm = rev v := by
  funext j; fin_cases j <;> simp [Rm, rev, Matrix.vecMul, dotProduct, Fin.sum_univ_four]

theorem vecMul_Mup (S : Fin 2 → Fin 2 → ℝ) (v : Fin 4 → ℝ) : v ᵥ* Mup S = up S v := by
  funext j; fin_cases j <;> simp [Mup, up, Matrix.vecMul, dotProduct, Fin.sum_univ_four] <;> ring

theorem vecMul_Mlow (S : Fin 2 → Fin 2 → ℝ) (v : Fin 4 → ℝ) : v ᵥ* Mlow S = low S v := by
  funext j; fin_cases j <;> simp [Mlow, low, Matrix.vecMul, dotProduct, Fin.sum_univ_four] <;> ring

theorem plus_rev (c : ℝ) (v : Fin 4 → ℝ) : plus c (rev v) = rev (plus c v) := by
  funext j; fin_cases j <;> simp [plus, rev]

theorem tap_up (a : Fin 2 → ℝ) (v : Fin 4 → ℝ) : tap ![a 0, a 1, 0, 0] v = actUp a v := by
  funext j; fin_cases j <;> simp [tap, roll2, actUp]

theorem tap_low (a : Fin 2 → ℝ) (v : Fin 4 → ℝ) : tap ![0, 0, a 0, a 1] v = actLow a v := by
  funext j; fin_cases j <;> simp [tap, roll2, actLow]

/-- The fused row is the step-by-step row. -/
theorem rowK_eq_row (c : ℝ) (S T : Fin 4 → Fin 2 → Fin 2 → ℝ) (au al : Fin 2 → ℝ) (x : Fin 4 → ℝ) :
    rowK c (Rm * (Mup (S 0) * Mlow (S 1) * Mup (S 2) * Mlow (S 3)) * Rm)
        (Rm * (Mlow (T 0) * Mup (T 1) * Mlow (T 2) * Mup (T 3)) * Rm) ![au 0, au 1, 0, 0] ![0, 0, al 0, al 1] x
      = row c S T au al x := by
  unfold rowK row
  simp only [← Matrix.vecMul_vecMul, vecMul_Rm, vecMul_Mup, vecMul_Mlow, plus_rev, tap_up, tap_low]

end Cert.ChainReal

end
-- ==== Proof.ChainSpec.lean ====
/-
  The function both programs compute, row by row, on the extended reals.

  A row of the input is a 4-vector v. With R the reversal v ↦ (v₃, v₂, v₁, v₀), S_k = A_k + A_kᵀ the symmetrised
  2 × 2 slices of the first weight array and T_k those of the second, the result row is

      R · actLow · R · (+c) · up T₃ · low T₂ · up T₁ · low T₀ · R · actUp · R · (+c) · low S₃ · up S₂ · low S₁ · up S₀ · R

  applied to v, where, writing v = (p, q) with p = (v₀, v₁) and q = (v₂, v₃),
  up S (p, q) = (p + q·S, q), low S (p, q) = (p, q + p·S), actUp a (p, q) = (p + a ⊙ tanh q, q),
  actLow a (p, q) = (p, q + a ⊙ tanh p), and c is the float constant one.
-/
import Idealize.ShloMosaic.PureOps.Ideal
import Idealize.ShloMosaic.Lib.ValueIdx

noncomputable section

namespace Cert.ChainSpec

open Idealize.ShloMosaic Idealize.ShloMosaic.ValueIdx

/-- The constant added after each linear block: the float 1.0, as the extended real its word denotes. -/
def one : EReal := Ideal.ofBits .f32 0x3F800000#32

/-- Reversal of a 4-vector. -/
def rev (v : Fin 4 → EReal) : Fin 4 → EReal := ![v 3, v 2, v 1, v 0]

/-- The symmetrised slice `k` of a 4 × 2 × 2 array: `S_k[a][b] = A[k][a][b] + A[k][b][a]`. -/
def sym (A : (⟨3, ![4, 2, 2]⟩ : Shape).Idx → EReal) (k : Fin 4) (a b : Fin 2) : EReal :=
  A (ix3 k a b) + A (ix3 k b a)

/-- `(p, q) ↦ (p + q·S, q)`, with `(q·S)_j = q₀ S₀ⱼ + q₁ S₁ⱼ`. -/
def up (S : Fin 2 → Fin 2 → EReal) (v : Fin 4 → EReal) : Fin 4 → EReal :=
  ![v 0 + (v 2 * S 0 0 + v 3 * S 1 0), v 1 + (v 2 * S 0 1 + v 3 * S 1 1), v 2, v 3]

/-- `(p, q) ↦ (p, q + p·S)`. -/
def low (S : Fin 2 → Fin 2 → EReal) (v : Fin 4 → EReal) : Fin 4 → EReal :=
  ![v 0, v 1, v 2 + (v 0 * S 0 0 + v 1 * S 1 0), v 3 + (v 0 * S 0 1 + v 1 * S 1 1)]

/-- Adding the constant to every entry. -/
def plus1 (v : Fin 4 → EReal) : Fin 4 → EReal := fun j => v j + one

/-- `(p, q) ↦ (p + a ⊙ tanh q, q)`. -/
def actUp (a : Fin 2 → EReal) (v : Fin 4 → EReal) : Fin 4 → EReal :=
  ![v 0 + a 0 * Ideal.tanh (v 2), v 1 + a 1 * Ideal.tanh (v 3), v 2, v 3]

/-- `(p, q) ↦ (p, q + a ⊙ tanh p)`. -/
def actLow (a : Fin 2 → EReal) (v : Fin 4 → EReal) : Fin 4 → EReal :=
  ![v 0, v 1, v 2 + a 0 * Ideal.tanh (v 0), v 3 + a 1 * Ideal.tanh (v 1)]

/-- One row through the whole chain. -/
def row (S T : Fin 4 → Fin 2 → Fin 2 → EReal) (au al : Fin 2 → EReal) (x : Fin 4 → EReal) : Fin 4 → EReal :=
  rev (actLow al (rev (plus1 (up (T 3) (low (T 2) (up (T 1) (low (T 0)
    (rev (actUp au (rev (plus1 (low (S 3) (up (S 2) (low (S 1) (up (S 0) (rev x))))))))))))))))

/-- The whole result array as one function of the five argument arrays. -/
def G (X : (⟨2, ![8388608, 4]⟩ : Shape).Idx → EReal) (A1 : (⟨3, ![4, 2, 2]⟩ : Shape).Idx → EReal)
    (U : (⟨1, ![2]⟩ : Shape).Idx → EReal) (A3 : (⟨3, ![4, 2, 2]⟩ : Shape).Idx → EReal)
    (L : (⟨1, ![2]⟩ : Shape).Idx → EReal) : (⟨2, ![8388608, 4]⟩ : Shape).Idx → EReal :=
  fun i => row (sym A1) (sym A3) (fun k => U (ix1 k)) (fun k => L (ix1 k)) (fun k => X (ix2 (i 0) k)) (i 1)

end Cert.ChainSpec

end
-- ==== Proof.ChainCoe.lean ====
/-
  The specification on real inputs is the real chain: every operation of the extended reals used by the specification
  (sum, product, tanh, the float constant one) restricts to the reals, so a row of real numbers through
  `ChainSpec.row` is the coercion of the same row through `ChainReal.row`.
-/
import proofs.«143413_j47167330845370_2_alg».proof.Proof.ChainSpec
import proofs.«143413_j47167330845370_2_alg».proof.Proof.ChainReal

noncomputable section

namespace Cert.ChainCoe

open Idealize.ShloMosaic Idealize.ShloMosaic.ValueIdx

/-- A real 4-vector as extended reals. -/
def cv (v : Fin 4 → ℝ) : Fin 4 → EReal := fun j => ((v j : ℝ) : EReal)
/-- A real 2-vector as extended reals. -/
def cv2 (v : Fin 2 → ℝ) : Fin 2 → EReal := fun j => ((v j : ℝ) : EReal)
/-- A real 2 × 2 block as extended reals. -/
def cm (S : Fin 2 → Fin 2 → ℝ) : Fin 2 → Fin 2 → EReal := fun a b => ((S a b : ℝ) : EReal)

/-- The float constant one is the real number one. -/
theorem one_eq : ChainSpec.one = ((1 : ℝ) : EReal) := by
  unfold ChainSpec.one
  simp [Ideal.ofBits, Ideal.ieee, -EReal.coe_mul]; norm_num

theorem rev_cv (v : Fin 4 → ℝ) : ChainSpec.rev (cv v) = cv (ChainReal.rev v) := by
  funext j; fin_cases j <;> rfl

theorem up_cv (S : Fin 2 → Fin 2 → ℝ) (v : Fin 4 → ℝ) : ChainSpec.up (cm S) (cv v) = cv (ChainReal.up S v) := by
  funext j; fin_cases j <;> simp [ChainSpec.up, ChainReal.up, cv, cm, EReal.coe_add, EReal.coe_mul]

theorem low_cv (S : Fin 2 → Fin 2 → ℝ) (v : Fin 4 → ℝ) : ChainSpec.low (cm S) (cv v) = cv (ChainReal.low S v) := by
  funext j; fin_cases j <;> simp [ChainSpec.low, ChainReal.low, cv, cm, EReal.coe_add, EReal.coe_mul]

theorem plus1_cv (v : Fin 4 → ℝ) : ChainSpec.plus1 (cv v) = cv (ChainReal.plus 1 v) := by
  funext j; simp [ChainSpec.plus1, ChainReal.plus, cv, one_eq, EReal.coe_add]

theorem actUp_cv (a : Fin 2 → ℝ) (v : Fin 4 → ℝ) : ChainSpec.actUp (cv2 a) (cv v) = cv (ChainReal.actUp a v) := by
  funext j; fin_cases j <;> simp [ChainSpec.actUp, ChainReal.actUp, cv, cv2, EReal.coe_add, EReal.coe_mul, Ideal.tanh_coe]

theorem actLow_cv (a : Fin 2 → ℝ) (v : Fin 4 → ℝ) : ChainSpec.actLow (cv2 a) (cv v) = cv (ChainReal.actLow a v) := by
  funext j; fin_cases j <;> simp [ChainSpec.actLow, ChainReal.actLow, cv, cv2, EReal.coe_add, EReal.coe_mul, Ideal.tanh_coe]

/-- A real row through the specification is the real chain. -/
theorem row_cv (S T : Fin 4 → Fin 2 → Fin 2 → ℝ) (au al : Fin 2 → ℝ) (x : Fin 4 → ℝ) :
    ChainSpec.row (fun k => cm (S k)) (fun k => cm (T k)) (cv2 au) (cv2 al) (cv x) = cv (ChainReal.row 1 S T au al x) := by
  unfold ChainSpec.row ChainReal.row
  simp only [rev_cv, up_cv, low_cv, plus1_cv, actUp_cv, actLow_cv]

/-- `A + Aᵀ` of a real 4 × 2 × 2 array, slice by slice. -/
def symR (A : (⟨3, ![4, 2, 2]⟩ : Shape).Idx → ℝ) (k : Fin 4) (a b : Fin 2) : ℝ := A (ix3 k a b) + A (ix3 k b a)

theorem sym_coe (A : (⟨3, ![4, 2, 2]⟩ : Shape).Idx → ℝ) :
    ChainSpec.sym (fun i => ((A i : ℝ) : EReal)) = fun k => cm (symR A k) := by
  funext k a b; simp [ChainSpec.sym, symR, cm, EReal.coe_add]

/-- The specification on real arrays, read at an index. -/
theorem G_coe (X : (⟨2, ![8388608, 4]⟩ : Shape).Idx → ℝ) (A1 A3 : (⟨3, ![4, 2, 2]⟩ : Shape).Idx → ℝ)
    (U L : (⟨1, ![2]⟩ : Shape).Idx → ℝ) (i : (⟨2, ![8388608, 4]⟩ : Shape).Idx) :
    ChainSpec.G (fun i => ((X i : ℝ) : EReal)) (fun i => ((A1 i : ℝ) : EReal)) (fun i => ((U i : ℝ) : EReal))
        (fun i => ((A3 i : ℝ) : EReal)) (fun i => ((L i : ℝ) : EReal)) i
      = ((ChainReal.row 1 (symR A1) (symR A3) (fun k => U (ix1 k)) (fun k => L (ix1 k)) (fun k => X (ix2 (i 0) k)) (i 1) : ℝ) : EReal) := by
  unfold ChainSpec.G
  rw [sym_coe, sym_coe]
  exact congrFun (row_cv (symR A1) (symR A3) (fun k => U (ix1 k)) (fun k => L (ix1 k)) (fun k => X (ix2 (i 0) k))) (i 1)

end Cert.ChainCoe

end
-- ==== Proof.KHostRead.lean ====
/-
  The host-built operands read entry by entry.

  A 4-vector stacked from four scalars reads the scalar its index names; a 4 × 4 matrix stacked from four rows reads the
  row's entry; the 2 × 2 slices of `A + Aᵀ` read `A[k][a][b] + A[k][b][a]`; the host's product of two 4 × 4 matrices is
  the four-term sum of products; the literal anti-diagonal table is the reversal matrix. Hence, for REAL weight arrays,
  every host-built operand is the coercion of a real matrix or vector: the shears `Mup`, `Mlow`, their products between
  two reversals, and the gain vectors padded with zeros.
-/
import proofs.«143413_j47167330845370_2_alg».proof.Proof.KHostDefs
import proofs.«143413_j47167330845370_2_alg».proof.Proof.ChainReal
import proofs.«143413_j47167330845370_2_alg».proof.Proof.ChainCoe
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.HostRead

open Cert.KernelIdeal Cert.KernelIdeal.Gen Cert.KernelIdeal.HostTerm Idealize.ShloMosaic Idealize.ShloMosaic.TcCoe Idealize.ShloMosaic.ValueIdx
open Cert.ChainReal Cert.ChainCoe Matrix

/-! ## Layout reads, at any instance -/

section Layout
variable {F : FTy → Type} [FloatOps F]

theorem vec4_apply (a b c d : Vec F S_ .f32) (j : Fin 4) :
    vec4 a b c d (ix1 j) = (![a ix0, b ix0, c ix0, d ix0] : Fin 4 → F .f32) j := by
  unfold vec4
  have hi : ∀ (q : Fin 4) (b' : Fin S1.rank), b'.cast (rfl : S1.rank = S4.rank) ≠ (0 : Fin S4.rank) →
      ((ix1 (0 : Fin 1) : S1.Idx) b').val = ((ix1 q : S4.Idx) (b'.cast rfl)).val :=
    fun q b' hb => absurd (Fin.ext (Nat.lt_one_iff.mp (b'.isLt : b'.val < 1))) hb
  fin_cases j
  · exact (concatenate_apply_piece (0 : Fin S4.rank) _ _ (ix1 (0 : Fin 4)) 0 (by simp only [List.length_cons, List.length_nil]; omega) S1 _ rfl rfl 0 rfl
      (ix1 (0 : Fin 1)) (hi 0) rfl).trans (broadcastInDim_scalar_apply _ _ _)
  · exact (concatenate_apply_piece (0 : Fin S4.rank) _ _ (ix1 (1 : Fin 4)) 1 (by simp only [List.length_cons, List.length_nil]; omega) S1 _ rfl rfl 1 rfl
      (ix1 (0 : Fin 1)) (hi 1) rfl).trans (broadcastInDim_scalar_apply _ _ _)
  · exact (concatenate_apply_piece (0 : Fin S4.rank) _ _ (ix1 (2 : Fin 4)) 2 (by simp only [List.length_cons, List.length_nil]; omega) S1 _ rfl rfl 2 rfl
      (ix1 (0 : Fin 1)) (hi 2) rfl).trans (broadcastInDim_scalar_apply _ _ _)
  · exact (concatenate_apply_piece (0 : Fin S4.rank) _ _ (ix1 (3 : Fin 4)) 3 (by simp only [List.length_cons, List.length_nil]; omega) S1 _ rfl rfl 3 rfl
      (ix1 (0 : Fin 1)) (hi 3) rfl).trans (broadcastInDim_scalar_apply _ _ _)

/-- A row vector broadcast to a one-row matrix reads the vector. -/
theorem rowBcast_apply (r : Vec F S4 .f32) (j : Fin 4) :
    broadcastInDim S1x4 ![1] Gen.bcast_S4_S1x4_1 r (ix2 (0 : Fin 1) j) = r (ix1 j) :=
  broadcastInDim_apply _ _ r _ (ix1 j) fun a => by
    match a with
    | ⟨0, _⟩ => rfl

theorem mat4_apply (r0 r1 r2 r3 : Vec F S4 .f32) (i j : Fin 4) :
    mat4 r0 r1 r2 r3 (ix2 i j) = (![r0, r1, r2, r3] : Fin 4 → Vec F S4 .f32) i (ix1 j) := by
  unfold mat4
  have hi : ∀ (q : Fin 4) (b' : Fin S1x4.rank), b'.cast (rfl : S1x4.rank = S4x4.rank) ≠ (0 : Fin S4x4.rank) →
      ((ix2 (0 : Fin 1) j : S1x4.Idx) b').val = ((ix2 q j : S4x4.Idx) (b'.cast rfl)).val := fun q b' hb => by
    match b' with
    | ⟨0, _⟩ => exact absurd rfl hb
    | ⟨1, _⟩ => rfl
  fin_cases i
  · exact (concatenate_apply_piece (0 : Fin S4x4.rank) _ _ (ix2 (0 : Fin 4) j) 0 (by simp only [List.length_cons, List.length_nil]; omega) S1x4 _ rfl rfl 0 rfl
      (ix2 (0 : Fin 1) j) (hi 0) rfl).trans (rowBcast_apply _ j)
  · exact (concatenate_apply_piece (0 : Fin S4x4.rank) _ _ (ix2 (1 : Fin 4) j) 1 (by simp only [List.length_cons, List.length_nil]; omega) S1x4 _ rfl rfl 1 rfl
      (ix2 (0 : Fin 1) j) (hi 1) rfl).trans (rowBcast_apply _ j)
  · exact (concatenate_apply_piece (0 : Fin S4x4.rank) _ _ (ix2 (2 : Fin 4) j) 2 (by simp only [List.length_cons, List.length_nil]; omega) S1x4 _ rfl rfl 2 rfl
      (ix2 (0 : Fin 1) j) (hi 2) rfl).trans (rowBcast_apply _ j)
  · exact (concatenate_apply_piece (0 : Fin S4x4.rank) _ _ (ix2 (3 : Fin 4) j) 3 (by simp only [List.length_cons, List.length_nil]; omega) S1x4 _ rfl rfl 3 rfl
      (ix2 (0 : Fin 1) j) (hi 3) rfl).trans (rowBcast_apply _ j)

/-- One entry of a 2 × 2 matrix cut out as a scalar. -/
theorem entry_apply (P : Vec F S2x2 .f32) (a b : Fin 2) (h : S2x2.Slices ![a.val, b.val] S1x1) :
    shapeCast S_ (extractStridedSlice S1x1 ![a.val, b.val] P h) Gen.shapeCasts_S1x1_S_ ix0 = P (ix2 a b) :=
  (shapeCast_apply _ _ ix0 (ix2 (0 : Fin 1) (0 : Fin 1)) rfl).trans
    (extractStridedSlice_apply _ P h _ (ix2 a b) fun c => by
      match c with
      | ⟨0, _⟩ => exact (Nat.add_zero _).symm
      | ⟨1, _⟩ => exact (Nat.add_zero _).symm)

theorem e00_apply (P : Vec F S2x2 .f32) : e00 P ix0 = P (ix2 0 0) := entry_apply P 0 0 _
theorem e01_apply (P : Vec F S2x2 .f32) : e01 P ix0 = P (ix2 0 1) := entry_apply P 0 1 _
theorem e10_apply (P : Vec F S2x2 .f32) : e10 P ix0 = P (ix2 1 0) := entry_apply P 1 0 _
theorem e11_apply (P : Vec F S2x2 .f32) : e11 P ix0 = P (ix2 1 1) := entry_apply P 1 1 _

/-- Slice `k` of a 4 × 2 × 2 array as a 2 × 2 matrix. -/
theorem slice_apply (St : Vec F S4x2x2 .f32) (k : Fin 4) (h : S4x2x2.Slices ![k.val, 0, 0] S1x2x2) (a b : Fin 2) :
    shapeCast S2x2 (extractStridedSlice S1x2x2 ![k.val, 0, 0] St h) Gen.shapeCasts_S1x2x2_S2x2 (ix2 a b) = St (ix3 k a b) :=
  (shapeCast_1ab_ab_apply _ _ a b).trans
    (extractStridedSlice_apply _ St h _ (ix3 k a b) fun c => by
      match c with
      | ⟨0, _⟩ => exact (Nat.add_zero _).symm
      | ⟨1, _⟩ => exact (Nat.zero_add _).symm
      | ⟨2, _⟩ => exact (Nat.zero_add _).symm)

theorem slice0_apply (St : Vec F S4x2x2 .f32) (a b : Fin 2) : slice0 St (ix2 a b) = St (ix3 0 a b) := slice_apply St 0 _ a b
theorem slice1_apply (St : Vec F S4x2x2 .f32) (a b : Fin 2) : slice1 St (ix2 a b) = St (ix3 1 a b) := slice_apply St 1 _ a b
theorem slice2_apply (St : Vec F S4x2x2 .f32) (a b : Fin 2) : slice2 St (ix2 a b) = St (ix3 2 a b) := slice_apply St 2 _ a b
theorem slice3_apply (St : Vec F S4x2x2 .f32) (a b : Fin 2) : slice3 St (ix2 a b) = St (ix3 3 a b) := slice_apply St 3 _ a b

end Layout

/-! ## At the extended reals -/

/-- The float zero and one. -/
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num

theorem k0_apply : (k0 (F := Ideal)) ix0 = ((0 : ℝ) : EReal) := ofBits_zero
theorem k1_apply : (k1 (F := Ideal)) ix0 = ((1 : ℝ) : EReal) := ofBits_one

theorem symm_apply (A : Vec Ideal S4x2x2 .f32) (k : Fin 4) (a b : Fin 2) :
    HostTerm.symm A (ix3 k a b) = A (ix3 k a b) + A (ix3 k b a) := by
  unfold HostTerm.symm
  rw [addf_apply, transpose_ix3_021_apply]

theorem dot4_apply (L R : Vec Ideal S4x4 .f32) (i j : Fin 4) :
    dot4 L R (ix2 i j) = ∑ k : Fin 4, L (ix2 i k) * R (ix2 k j) := by
  unfold dot4
  simp only [Host.dotGeneral]
  rw [Ideal.dotGeneral_apply, ← Equiv.sum_comp (contrEquiv1 dot_S4x4_S4x4_S4x4_1_0_0_1_n_n 4 rfl rfl).symm]
  refine Finset.sum_congr rfl fun k _ => ?_
  have hl : dot_S4x4_S4x4_S4x4_1_0_0_1_n_n.lhsIdx (ix2 i j) ((contrEquiv1 dot_S4x4_S4x4_S4x4_1_0_0_1_n_n 4 rfl rfl).symm k) = ix2 i k := by
    funext a; apply Fin.ext
    match a with
    | ⟨0, _⟩ => rfl
    | ⟨1, _⟩ => exact (rfl : _ = (((contrEquiv1 dot_S4x4_S4x4_S4x4_1_0_0_1_n_n 4 rfl rfl).symm k) ⟨0, by decide⟩ : ℕ)).trans (contrEquiv1_symm_val _ 4 rfl rfl k)
  have hr : dot_S4x4_S4x4_S4x4_1_0_0_1_n_n.rhsIdx (ix2 i j) ((contrEquiv1 dot_S4x4_S4x4_S4x4_1_0_0_1_n_n 4 rfl rfl).symm k) = ix2 k j := by
    funext a; apply Fin.ext
    match a with
    | ⟨0, _⟩ => exact (rfl : _ = (((contrEquiv1 dot_S4x4_S4x4_S4x4_1_0_0_1_n_n 4 rfl rfl).symm k) ⟨0, by decide⟩ : ℕ)).trans (contrEquiv1_symm_val _ 4 rfl rfl k)
    | ⟨1, _⟩ => rfl
  rw [hl, hr]

/-- A finite sum of real numbers, coerced. -/
theorem coe_sum4 (f : Fin 4 → ℝ) : (∑ k : Fin 4, ((f k : ℝ) : EReal)) = ((∑ k : Fin 4, f k : ℝ) : EReal) := by
  simp only [Fin.sum_univ_four, EReal.coe_add]

/-- The host's product of two real matrices is the real product. -/
theorem dot4_coe (L R : Vec Ideal S4x4 .f32) (A B : Matrix (Fin 4) (Fin 4) ℝ)
    (hL : ∀ i j, L (ix2 i j) = ((A i j : ℝ) : EReal)) (hR : ∀ i j, R (ix2 i j) = ((B i j : ℝ) : EReal)) (i j : Fin 4) :
    dot4 L R (ix2 i j) = (((A * B) i j : ℝ) : EReal) := by
  rw [dot4_apply, Matrix.mul_apply, ← coe_sum4]
  exact Finset.sum_congr rfl fun k _ => by rw [hL, hR, EReal.coe_mul]

/-- The literal table is the reversal matrix. -/
theorem antiDiag_apply (i j : Fin 4) : antiDiag (F := Ideal) (ix2 i j) = ((Rm i j : ℝ) : EReal) := by
  have hb : ∀ i j : Fin 4, lit0 (S4x4.rowMajor (ix2 i j)) = if i.val + j.val = 3 then 0x3F800000#32 else 0x00000000#32 := by decide
  show Ideal.ofBits .f32 (lit0 (S4x4.rowMajor (ix2 i j))) = _
  rw [hb]
  fin_cases i <;> fin_cases j <;> simp [Rm, ofBits_zero, ofBits_one]

/-- The upper shear of a real 2 × 2 block. -/
theorem shearUp_coe (P : Vec Ideal S2x2 .f32) (S : Fin 2 → Fin 2 → ℝ) (hP : ∀ a b, P (ix2 a b) = ((S a b : ℝ) : EReal)) (i j : Fin 4) :
    shearUp P (ix2 i j) = ((Mup S i j : ℝ) : EReal) := by
  fin_cases i <;> fin_cases j <;>
    simp [shearUp, mat4_apply, vec4_apply, Mup, k0_apply, k1_apply, e00_apply, e01_apply, e10_apply, e11_apply, hP]

/-- The lower shear of a real 2 × 2 block. -/
theorem shearLow_coe (P : Vec Ideal S2x2 .f32) (S : Fin 2 → Fin 2 → ℝ) (hP : ∀ a b, P (ix2 a b) = ((S a b : ℝ) : EReal)) (i j : Fin 4) :
    shearLow P (ix2 i j) = ((Mlow S i j : ℝ) : EReal) := by
  fin_cases i <;> fin_cases j <;>
    simp [shearLow, mat4_apply, vec4_apply, Mlow, k0_apply, k1_apply, e00_apply, e01_apply, e10_apply, e11_apply, hP]

end Cert.KernelIdeal.HostRead

end
-- ==== Proof.KHostCoe.lean ====
/-
  For real weight arrays the four small operands of the kernel are real: the two composed matrices
  `Rm · (M₁ M₂ M₃ M₄) · Rm` of the shears of `A + Aᵀ`, and the two gain vectors padded with zeros.
-/
import proofs.«143413_j47167330845370_2_alg».proof.Proof.KHostRead

noncomputable section

namespace Cert.KernelIdeal.HostRead

open Cert.KernelIdeal Cert.KernelIdeal.Gen Cert.KernelIdeal.HostTerm Idealize.ShloMosaic Idealize.ShloMosaic.TcCoe Idealize.ShloMosaic.ValueIdx
open Cert.ChainReal Cert.ChainCoe Matrix

/-- The 2 × 2 slices of `A + Aᵀ` of a real array. -/
theorem slice_symm_coe (A : S4x2x2.Idx → ℝ) (a b : Fin 2) :
    (slice0 (HostTerm.symm (F := Ideal) fun i => ((A i : ℝ) : EReal)) (ix2 a b) = ((symR A 0 a b : ℝ) : EReal))
    ∧ (slice1 (HostTerm.symm (F := Ideal) fun i => ((A i : ℝ) : EReal)) (ix2 a b) = ((symR A 1 a b : ℝ) : EReal))
    ∧ (slice2 (HostTerm.symm (F := Ideal) fun i => ((A i : ℝ) : EReal)) (ix2 a b) = ((symR A 2 a b : ℝ) : EReal))
    ∧ (slice3 (HostTerm.symm (F := Ideal) fun i => ((A i : ℝ) : EReal)) (ix2 a b) = ((symR A 3 a b : ℝ) : EReal)) := by
  refine ⟨?_, ?_, ?_, ?_⟩
  · rw [slice0_apply, symm_apply]; simp only [symR, EReal.coe_add]
  · rw [slice1_apply, symm_apply]; simp only [symR, EReal.coe_add]
  · rw [slice2_apply, symm_apply]; simp only [symR, EReal.coe_add]
  · rw [slice3_apply, symm_apply]; simp only [symR, EReal.coe_add]

/-- The first composed matrix of a real weight array. -/
theorem big1_coe (A : S4x2x2.Idx → ℝ) (i j : Fin 4) :
    big1 (HostTerm.symm (F := Ideal) fun i => ((A i : ℝ) : EReal)) (ix2 i j)
      = (((Rm * (Mup (symR A 0) * Mlow (symR A 1) * Mup (symR A 2) * Mlow (symR A 3)) * Rm) i j : ℝ) : EReal) := by
  unfold big1
  refine dot4_coe _ _ _ _ (fun i j => dot4_coe _ _ _ _ antiDiag_apply (fun i j =>
    dot4_coe _ _ _ _ (fun i j => dot4_coe _ _ _ _ (fun i j => dot4_coe _ _ _ _
      (shearUp_coe _ _ fun a b => (slice_symm_coe A a b).1)
      (shearLow_coe _ _ fun a b => (slice_symm_coe A a b).2.1) i j)
      (shearUp_coe _ _ fun a b => (slice_symm_coe A a b).2.2.1) i j)
      (shearLow_coe _ _ fun a b => (slice_symm_coe A a b).2.2.2) i j) i j) antiDiag_apply i j

/-- The second composed matrix of a real weight array. -/
theorem big2_coe (A : S4x2x2.Idx → ℝ) (i j : Fin 4) :
    big2 (HostTerm.symm (F := Ideal) fun i => ((A i : ℝ) : EReal)) (ix2 i j)
      = (((Rm * (Mlow (symR A 0) * Mup (symR A 1) * Mlow (symR A 2) * Mup (symR A 3)) * Rm) i j : ℝ) : EReal) := by
  unfold big2
  refine dot4_coe _ _ _ _ (fun i j => dot4_coe _ _ _ _ antiDiag_apply (fun i j =>
    dot4_coe _ _ _ _ (fun i j => dot4_coe _ _ _ _ (fun i j => dot4_coe _ _ _ _
      (shearLow_coe _ _ fun a b => (slice_symm_coe A a b).1)
      (shearUp_coe _ _ fun a b => (slice_symm_coe A a b).2.1) i j)
      (shearLow_coe _ _ fun a b => (slice_symm_coe A a b).2.2.1) i j)
      (shearUp_coe _ _ fun a b => (slice_symm_coe A a b).2.2.2) i j) i j) antiDiag_apply i j

/-- Two zeros as a 2-vector. -/
theorem zeros2_apply (k : Fin 2) : broadcastInDim S2 ![] Gen.bcast_S_S2 (k0 (F := Ideal)) (ix1 k) = ((0 : ℝ) : EReal) :=
  (broadcastInDim_scalar_apply _ _ _).trans k0_apply

/-- The first mask of a real gain vector. -/
theorem maskUp_coe (U : S2.Idx → ℝ) (j : Fin 4) :
    maskUp (F := Ideal) (fun i => ((U i : ℝ) : EReal)) (ix1 j) = (((![U (ix1 0), U (ix1 1), 0, 0] : Fin 4 → ℝ) j : ℝ) : EReal) := by
  unfold maskUp
  have hi : ∀ (q : Fin 4) (p : Fin 2) (b' : Fin S2.rank), b'.cast (rfl : S2.rank = S4.rank) ≠ (0 : Fin S4.rank) →
      ((ix1 p : S2.Idx) b').val = ((ix1 q : S4.Idx) (b'.cast rfl)).val :=
    fun q p b' hb => absurd (Fin.ext (Nat.lt_one_iff.mp (b'.isLt : b'.val < 1))) hb
  fin_cases j
  · exact (concatenate_apply_piece (0 : Fin S4.rank) _ _ (ix1 (0 : Fin 4)) 0 (by simp only [List.length_cons, List.length_nil]; omega) S2 _ rfl rfl 0 rfl
      (ix1 (0 : Fin 2)) (hi 0 0) rfl).trans (by simp)
  · exact (concatenate_apply_piece (0 : Fin S4.rank) _ _ (ix1 (1 : Fin 4)) 0 (by simp only [List.length_cons, List.length_nil]; omega) S2 _ rfl rfl 0 rfl
      (ix1 (1 : Fin 2)) (hi 1 1) rfl).trans (by simp)
  · exact (concatenate_apply_piece (0 : Fin S4.rank) _ _ (ix1 (2 : Fin 4)) 1 (by simp only [List.length_cons, List.length_nil]; omega) S2 _ rfl rfl 2 rfl
      (ix1 (0 : Fin 2)) (hi 2 0) rfl).trans ((zeros2_apply 0).trans (by simp))
  · exact (concatenate_apply_piece (0 : Fin S4.rank) _ _ (ix1 (3 : Fin 4)) 1 (by simp only [List.length_cons, List.length_nil]; omega) S2 _ rfl rfl 2 rfl
      (ix1 (1 : Fin 2)) (hi 3 1) rfl).trans ((zeros2_apply 1).trans (by simp))

/-- The second mask of a real gain vector. -/
theorem maskLow_coe (L : S2.Idx → ℝ) (j : Fin 4) :
    maskLow (F := Ideal) (fun i => ((L i : ℝ) : EReal)) (ix1 j) = (((![0, 0, L (ix1 0), L (ix1 1)] : Fin 4 → ℝ) j : ℝ) : EReal) := by
  unfold maskLow
  have hi : ∀ (q : Fin 4) (p : Fin 2) (b' : Fin S2.rank), b'.cast (rfl : S2.rank = S4.rank) ≠ (0 : Fin S4.rank) →
      ((ix1 p : S2.Idx) b').val = ((ix1 q : S4.Idx) (b'.cast rfl)).val :=
    fun q p b' hb => absurd (Fin.ext (Nat.lt_one_iff.mp (b'.isLt : b'.val < 1))) hb
  fin_cases j
  · exact (concatenate_apply_piece (0 : Fin S4.rank) _ _ (ix1 (0 : Fin 4)) 0 (by simp only [List.length_cons, List.length_nil]; omega) S2 _ rfl rfl 0 rfl
      (ix1 (0 : Fin 2)) (hi 0 0) rfl).trans ((zeros2_apply 0).trans (by simp))
  · exact (concatenate_apply_piece (0 : Fin S4.rank) _ _ (ix1 (1 : Fin 4)) 0 (by simp only [List.length_cons, List.length_nil]; omega) S2 _ rfl rfl 0 rfl
      (ix1 (1 : Fin 2)) (hi 1 1) rfl).trans ((zeros2_apply 1).trans (by simp))
  · exact (concatenate_apply_piece (0 : Fin S4.rank) _ _ (ix1 (2 : Fin 4)) 1 (by simp only [List.length_cons, List.length_nil]; omega) S2 _ rfl rfl 2 rfl
      (ix1 (0 : Fin 2)) (hi 2 0) rfl).trans (by simp)
  · exact (concatenate_apply_piece (0 : Fin S4.rank) _ _ (ix1 (3 : Fin 4)) 1 (by simp only [List.length_cons, List.length_nil]; omega) S2 _ rfl rfl 2 rfl
      (ix1 (1 : Fin 2)) (hi 3 1) rfl).trans (by simp)

end Cert.KernelIdeal.HostRead

end
-- ==== Proof.KPayload.lean ====
/-
  The body's payload read row by row on real data.

  The payload of the kernel's body takes two 4 × 4 matrices `B1`, `B2`, two 4-vectors `mu`, `ml` and a block of 4096
  rows. Row by row it computes  rev (tap ml (plus 1 (tap mu (plus 1 (x ᵥ* B1)) ᵥ* B2))):  a matrix product into the
  zero splat is, at row `r` and column `q`, the sum over the contracted coordinate of the products of the entries;
  the constant added is the float one; a rotation by two along the four lanes reads lane `(q + 2) % 4`; the mask,
  a 4-vector seen as one row and repeated over the rows, reads its entry `q`; and the four one-column slices at
  columns 3, 2, 1, 0 put side by side read column `3 - q`. When every entry involved is a real number, so is every
  intermediate, and the extended reals' operations are the reals'.
-/
import proofs.«143413_j47167330845370_2_alg».proof.Proof.Gen.KernelIdeal.Skeleton
import proofs.«143413_j47167330845370_2_alg».proof.Proof.ChainReal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Matrix

/-- The float constant one is the real number one. -/
theorem one_eq : (Scalar.ofBits (F := Ideal) .f32 0x3F800000#32) = ((1 : ℝ) : EReal) := by
  show Ideal.ofBits .f32 0x3F800000#32 = _
  simp [Ideal.ofBits, Ideal.ieee, -EReal.coe_mul]; norm_num

/-- A sum of four real numbers, coerced. -/
theorem coe_sum4 (f : Fin 4 → ℝ) : (∑ k : Fin 4, ((f k : ℝ) : EReal)) = ((∑ k : Fin 4, f k : ℝ) : EReal) := by
  simp only [Fin.sum_univ_four, EReal.coe_add]

set_option maxHeartbeats 400000 in
/-- The matrix product into the zero splat, at row `r` and column `q`: the sum over the contracted coordinate. -/
theorem matmul_apply4 (Y : FVec Ideal S4096x4 .f32) (W : FVec Ideal S4x4 .f32) (r : Fin 4096) (q : Fin 4) :
    matmul (F := Ideal) dot_S4096x4_S4x4_S4096x4_1_0_0_1_n_n (some .fp32) Y W (constant (F := Ideal) S4096x4 .f32 0x00000000#32) (ix2 r q)
      = ∑ k : Fin 4, Y (ix2 r k) * W (ix2 k q) := by
  show FloatOps.matmul dot_S4096x4_S4x4_S4096x4_1_0_0_1_n_n (some .fp32) Y W (constant S4096x4 .f32 0x00000000#32) (ix2 r q) = _
  rw [Ideal.matmul_constant_zero_apply, ← Equiv.sum_comp (contrEquiv1 dot_S4096x4_S4x4_S4096x4_1_0_0_1_n_n 4 rfl rfl).symm]
  refine Finset.sum_congr rfl fun k _ => ?_
  have hl : dot_S4096x4_S4x4_S4096x4_1_0_0_1_n_n.lhsIdx (ix2 r q) ((contrEquiv1 dot_S4096x4_S4x4_S4096x4_1_0_0_1_n_n 4 rfl rfl).symm k) = ix2 r k := by
    funext a; apply Fin.ext
    match a with
    | ⟨0, _⟩ => rfl
    | ⟨1, _⟩ => exact (rfl : _ = (((contrEquiv1 dot_S4096x4_S4x4_S4096x4_1_0_0_1_n_n 4 rfl rfl).symm k) ⟨0, by decide⟩ : ℕ)).trans (contrEquiv1_symm_val _ 4 rfl rfl k)
  have hr : dot_S4096x4_S4x4_S4096x4_1_0_0_1_n_n.rhsIdx (ix2 r q) ((contrEquiv1 dot_S4096x4_S4x4_S4096x4_1_0_0_1_n_n 4 rfl rfl).symm k) = ix2 k q := by
    funext a; apply Fin.ext
    match a with
    | ⟨0, _⟩ => exact (rfl : _ = (((contrEquiv1 dot_S4096x4_S4x4_S4096x4_1_0_0_1_n_n 4 rfl rfl).symm k) ⟨0, by decide⟩ : ℕ)).trans (contrEquiv1_symm_val _ 4 rfl rfl k)
    | ⟨1, _⟩ => rfl
  rw [hl, hr]

set_option maxHeartbeats 400000 in
/-- On real data the product's row is the row vector times the matrix. -/
theorem matmul_cv (Y : FVec Ideal S4096x4 .f32) (W : FVec Ideal S4x4 .f32) (B : Matrix (Fin 4) (Fin 4) ℝ) (y : Fin 4 → ℝ) (r : Fin 4096)
    (hY : ∀ k : Fin 4, Y (ix2 r k) = ((y k : ℝ) : EReal)) (hW : ∀ a b : Fin 4, W (ix2 a b) = ((B a b : ℝ) : EReal)) (q : Fin 4) :
    matmul (F := Ideal) dot_S4096x4_S4x4_S4096x4_1_0_0_1_n_n (some .fp32) Y W (constant (F := Ideal) S4096x4 .f32 0x00000000#32) (ix2 r q)
      = (((y ᵥ* B) q : ℝ) : EReal) := by
  rw [matmul_apply4]
  show _ = ((∑ k : Fin 4, y k * B k q : ℝ) : EReal)
  rw [← coe_sum4]
  exact Finset.sum_congr rfl fun k _ => by rw [hY, hW, EReal.coe_mul]

set_option maxHeartbeats 400000 in
/-- Adding the broadcast constant one. -/
theorem add_one_cv (Y : FVec Ideal S4096x4 .f32) (y : Fin 4 → ℝ) (r : Fin 4096)
    (hY : ∀ k : Fin 4, Y (ix2 r k) = ((y k : ℝ) : EReal)) (q : Fin 4) :
    addf (F := Ideal) Y (broadcast S4096x4 (Scalar.ofBits (F := Ideal) .f32 0x3F800000#32)) (ix2 r q) = ((Cert.ChainReal.plus 1 y q : ℝ) : EReal) := by
  rw [addf_apply, broadcast_apply, one_eq, hY]
  show _ = ((y q + 1 : ℝ) : EReal)
  rw [EReal.coe_add]

set_option maxHeartbeats 400000 in
/-- A rotation by two along the four lanes reads lane `(q + 2) % 4`. -/
theorem rot_apply (Y : FVec Ideal S4096x4 .f32) (r : Fin 4096) (q : Fin 4) :
    dynamicRotate 1 2#32 none Y rotates_S4096x4_d1 (ix2 r q) = Y (ix2 r (⟨(q.val + 2) % 4, Nat.mod_lt _ (by omega)⟩ : Fin 4)) := by
  unfold dynamicRotate
  refine congrArg Y (funext fun b => Fin.ext ?_)
  match b with
  | ⟨0, _⟩ => rfl
  | ⟨1, _⟩ =>
    show (q.val + 4 - (2 + 0) % 4) % 4 = (q.val + 2) % 4
    omega

set_option maxHeartbeats 400000 in
/-- The tap: the row plus the mask times the tanh of the row rolled by two. -/
theorem tap_cv (Y : FVec Ideal S4096x4 .f32) (M : FVec Ideal S4 .f32) (mask y : Fin 4 → ℝ) (r : Fin 4096)
    (hY : ∀ k : Fin 4, Y (ix2 r k) = ((y k : ℝ) : EReal)) (hM : ∀ a : Fin 4, M (ix1 a) = ((mask a : ℝ) : EReal)) (q : Fin 4) :
    addf (F := Ideal) Y (mulf (F := Ideal) (broadcastTo S4096x4 (shapeCast S1x4 M shapeCasts_S4_S1x4) broadcasts_S1x4_S4096x4)
        (tanh (F := Ideal) (dynamicRotate 1 2#32 none Y rotates_S4096x4_d1))) (ix2 r q)
      = ((Cert.ChainReal.tap mask y q : ℝ) : EReal) := by
  rw [addf_apply, mulf_apply, hY q, broadcastTo_1b_ab_apply, shapeCast_a_1a_apply, hM q]
  show _ + _ * Ideal.tanh (dynamicRotate 1 2#32 none Y rotates_S4096x4_d1 (ix2 r q)) = _
  rw [rot_apply, hY, Ideal.tanh_coe, ← EReal.coe_mul, ← EReal.coe_add]
  refine congrArg _ ?_
  fin_cases q <;> rfl

set_option maxHeartbeats 400000 in
/-- A one-column slice at column offset `cq` reads column `cq`. -/
theorem slice_col (Y : FVec Ideal S4096x4 .f32) (off : Fin 2 → ℕ) (h : S4096x4.Slices off S4096x1) (r : Fin 4096) (cq : Fin 4)
    (h0 : off 0 = 0) (h1 : off 1 = cq.val) :
    extractStridedSlice S4096x1 off Y h (ix2 r (0 : Fin 1)) = Y (ix2 r cq) :=
  extractStridedSlice_apply off Y h (ix2 r (0 : Fin 1)) (ix2 r cq) (fun a => by
    match a with
    | ⟨0, _⟩ => show r.val = off 0 + r.val; omega
    | ⟨1, _⟩ => show cq.val = off 1 + 0; omega)

set_option maxHeartbeats 1000000 in
/-- The four one-column slices at columns 3, 2, 1, 0, put side by side, are the row reversed. -/
theorem rev_cv (Y : FVec Ideal S4096x4 .f32) (y : Fin 4 → ℝ) (r : Fin 4096)
    (hY : ∀ k : Fin 4, Y (ix2 r k) = ((y k : ℝ) : EReal)) (q : Fin 4) :
    concatenate S4096x4 1 [⟨S4096x1, extractStridedSlice S4096x1 ![0, 3] Y slices_S4096x4_o0_3_S4096x1⟩,
        ⟨S4096x1, extractStridedSlice S4096x1 ![0, 2] Y slices_S4096x4_o0_2_S4096x1⟩,
        ⟨S4096x1, extractStridedSlice S4096x1 ![0, 1] Y slices_S4096x4_o0_1_S4096x1⟩,
        ⟨S4096x1, extractStridedSlice S4096x1 ![0, 0] Y slices_S4096x4_o0_0_S4096x1⟩]
        concatenates_S4096x1_S4096x1_S4096x1_S4096x1_S4096x4_d1 (ix2 r q)
      = ((Cert.ChainReal.rev y q : ℝ) : EReal) := by
  have hi : ∀ (qq : Fin 4) (b : Fin S4096x1.rank), b.cast (rfl : S4096x1.rank = S4096x4.rank) ≠ (1 : Fin S4096x4.rank) →
      ((ix2 r (0 : Fin 1) : S4096x1.Idx) b).val = ((ix2 r qq : S4096x4.Idx) (b.cast rfl)).val := fun qq b hb => by
    match b with
    | ⟨0, _⟩ => rfl
    | ⟨1, _⟩ => exact absurd rfl hb
  fin_cases q
  · refine (concatenate_apply_piece (1 : Fin S4096x4.rank) _ _ _ 0 (by simp) S4096x1 _ rfl rfl 0 rfl (ix2 r (0 : Fin 1)) (hi _) rfl).trans ?_
    exact (slice_col Y _ _ r 3 rfl rfl).trans (hY 3)
  · refine (concatenate_apply_piece (1 : Fin S4096x4.rank) _ _ _ 1 (by simp) S4096x1 _ rfl rfl 1 rfl (ix2 r (0 : Fin 1)) (hi _) rfl).trans ?_
    exact (slice_col Y _ _ r 2 rfl rfl).trans (hY 2)
  · refine (concatenate_apply_piece (1 : Fin S4096x4.rank) _ _ _ 2 (by simp) S4096x1 _ rfl rfl 2 rfl (ix2 r (0 : Fin 1)) (hi _) rfl).trans ?_
    exact (slice_col Y _ _ r 1 rfl rfl).trans (hY 1)
  · refine (concatenate_apply_piece (1 : Fin S4096x4.rank) _ _ _ 3 (by simp) S4096x1 _ rfl rfl 3 rfl (ix2 r (0 : Fin 1)) (hi _) rfl).trans ?_
    exact (slice_col Y _ _ r 0 rfl rfl).trans (hY 0)

set_option maxHeartbeats 2000000 in
/-- The body's payload, row by row on real data: row `r` of the result is the fused chain of row `r` of the block. -/
theorem pay_row (v0 v2 : Vec Ideal S4x4 .f32) (v4 v6 : Vec Ideal S4 .f32) (v8 : Vec Ideal S4096x4 .f32)
    (B1 B2 : Matrix (Fin 4) (Fin 4) ℝ) (mu ml : Fin 4 → ℝ) (x : Fin 4 → ℝ) (r : Fin 4096)
    (h0 : ∀ a b : Fin 4, v0 (ix2 a b) = ((B1 a b : ℝ) : EReal)) (h2 : ∀ a b : Fin 4, v2 (ix2 a b) = ((B2 a b : ℝ) : EReal))
    (h4 : ∀ a : Fin 4, v4 (ix1 a) = ((mu a : ℝ) : EReal)) (h6 : ∀ a : Fin 4, v6 (ix1 a) = ((ml a : ℝ) : EReal))
    (h8 : ∀ k : Fin 4, v8 (ix2 r k) = ((x k : ℝ) : EReal)) (j : Fin 4) :
    Gen.k0_pay1 (F := Ideal) v0 v2 v4 v6 v8 (ix2 r j) = ((Cert.ChainReal.rowK 1 B1 B2 mu ml x j : ℝ) : EReal) := by
  have e0 : ∀ a b : Fin 4, shapeCast S4x4 v0 shapeCasts_S4x4_S4x4 (ix2 a b) = ((B1 a b : ℝ) : EReal) := fun a b =>
    (congrFun (shapeCast_self v0 shapeCasts_S4x4_S4x4) _).trans (h0 a b)
  have e2 : ∀ a b : Fin 4, shapeCast S4x4 v2 shapeCasts_S4x4_S4x4 (ix2 a b) = ((B2 a b : ℝ) : EReal) := fun a b =>
    (congrFun (shapeCast_self v2 shapeCasts_S4x4_S4x4) _).trans (h2 a b)
  have e4 : ∀ a : Fin 4, shapeCast S4 v4 shapeCasts_S4_S4 (ix1 a) = ((mu a : ℝ) : EReal) := fun a =>
    (congrFun (shapeCast_self v4 shapeCasts_S4_S4) _).trans (h4 a)
  have e6 : ∀ a : Fin 4, shapeCast S4 v6 shapeCasts_S4_S4 (ix1 a) = ((ml a : ℝ) : EReal) := fun a =>
    (congrFun (shapeCast_self v6 shapeCasts_S4_S4) _).trans (h6 a)
  unfold k0_pay1 Cert.ChainReal.rowK
  exact rev_cv _ _ r (fun k => tap_cv _ _ ml _ r (fun k => add_one_cv _ _ r (fun k => matmul_cv _ _ B2 _ r
    (fun k => tap_cv _ _ mu _ r (fun k => add_one_cv _ _ r (fun k => matmul_cv _ _ B1 x r h8 e0 k) k) e4 k) e2 k) k) e6 k) j

end Cert.KernelIdeal.Payload

end
-- ==== Proof.KFinite.lean ====
/-
  From the precondition to real arrays.

  The precondition says of each of the five argument arrays that `all (|x| < +∞)` is true, the five joined by `and`.
  A conjunction of one-bit words is one only if each is; an `and`-reduction over every axis that came out one met
  only ones; an entry's comparison being one says `max x (-x) < ⊤` on the extended reals, which excludes `⊤` and
  `⊥`; so every entry is a real number, and choosing one for each entry gives the array of reals.
-/
import proofs.«143413_j47167330845370_2_alg».proof.Defs
import proofs.«143413_j47167330845370_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.KernelIdeal.Finite

open Idealize.ShloMosaic Idealize.SL.Sem Idealize.ShloMosaic.ValueIdx

variable [hPre : Cert.Pre_finite_inputs.Facts]

/-- The rank-0 shape has one index. -/
instance : Subsingleton Cert.Pre_finite_inputs.S_.Idx := ⟨fun a b => funext fun d => d.elim0⟩

/-- The word `0x7F800000` is `+∞`. -/
theorem inf_eq : Ideal.ofBits .f32 0x7F800000#32 = (⊤ : EReal) := by simp [Ideal.ofBits, Ideal.ieee]

/-- A one-bit word made from a Boolean is one only if the Boolean is true. -/
theorem ofBool_eq_one {b : Bool} (h : BitVec.ofBool b = 1#1) : b = true := by
  cases b
  · exact absurd h (by decide)
  · rfl

/-- An extended real whose absolute value is below `+∞` is a real number. -/
theorem real_of_abs_lt (x : EReal) (h : max x (-x) < ⊤) : ∃ y : ℝ, x = (y : EReal) := by
  induction x using EReal.rec with
  | bot => exact absurd h (by simp)
  | coe y => exact ⟨y, rfl⟩
  | top => exact absurd h (by simp)

set_option maxHeartbeats 400000 in
/-- `all (|X| < +∞)` read back: every entry of `X` is a real number. -/
theorem all_real {S : Shape} {axes : List (Fin S.rank)} (X : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi (cmpf (F := Ideal) .olt (Host.absf X) (broadcastInDim S ![] hb (constant (F := Ideal) Cert.Pre_finite_inputs.S_ .f32 0x7F800000#32)))
        (constantI Cert.Pre_finite_inputs.S_ 1 1#1) hr hu ix0 = 1#1) :
    ∃ Y : S.Idx → ℝ, X = fun i => ((Y i : ℝ) : EReal) := by
  have hall := Host.reduce_andi_all _ _ hr hu ix0 e
  have hreal : ∀ i, ∃ y : ℝ, X i = (y : EReal) := fun i => by
    have hi := hall i
    have hbc : broadcastInDim S ![] hb (constant (F := Ideal) Cert.Pre_finite_inputs.S_ .f32 0x7F800000#32) i = Ideal.ofBits .f32 0x7F800000#32 :=
      broadcastInDim_apply ![] hb _ i ix0 (fun a => a.elim0)
    rw [cmpf_apply, hbc, inf_eq] at hi
    have hlt : max (X i) (-(X i)) < ⊤ := of_decide_eq_true (ofBool_eq_one hi)
    exact real_of_abs_lt _ hlt
  choose Y hY using hreal
  exact ⟨Y, funext hY⟩

set_option maxHeartbeats 1000000 in
/-- From the precondition: each of the five argument arrays is an array of real numbers. -/
theorem real_of_pre (m : (ℓ : Loc Cert.KernelIdeal.nD Cert.KernelIdeal.τ Cert.KernelIdeal.sig) → Buf (Elt Ideal) ℓ) (h : Cert.Pre_KernelIdeal m) (c : Dev Cert.KernelIdeal.nD) :
    (∃ X : Cert.KernelIdeal.S8388608x4.Idx → ℝ, m ((c.tc : Thread Cert.KernelIdeal.nD Cert.KernelIdeal.τ).loc Cert.KernelIdeal.main_arg0) = fun i => ((X i : ℝ) : EReal))
    ∧ (∃ A1 : Cert.KernelIdeal.S4x2x2.Idx → ℝ, m ((c.tc : Thread Cert.KernelIdeal.nD Cert.KernelIdeal.τ).loc Cert.KernelIdeal.main_arg1) = fun i => ((A1 i : ℝ) : EReal))
    ∧ (∃ U : Cert.KernelIdeal.S2.Idx → ℝ, m ((c.tc : Thread Cert.KernelIdeal.nD Cert.KernelIdeal.τ).loc Cert.KernelIdeal.main_arg2) = fun i => ((U i : ℝ) : EReal))
    ∧ (∃ A3 : Cert.KernelIdeal.S4x2x2.Idx → ℝ, m ((c.tc : Thread Cert.KernelIdeal.nD Cert.KernelIdeal.τ).loc Cert.KernelIdeal.main_arg3) = fun i => ((A3 i : ℝ) : EReal))
    ∧ (∃ L : Cert.KernelIdeal.S2.Idx → ℝ, m ((c.tc : Thread Cert.KernelIdeal.nD Cert.KernelIdeal.τ).loc Cert.KernelIdeal.main_arg4) = fun i => ((L i : ℝ) : EReal)) := by
  have h1 := congrFun (h c) ix0
  unfold Cert.Pre_finite_inputs.fn Cert.Pre_finite_inputs.fn_part1 at h1
  dsimp only at h1
  obtain ⟨h0123, e4⟩ := IntOp.andi_eq_one.1 h1
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ e0, all_real _ _ _ _ e1, all_real _ _ _ _ e2, all_real _ _ _ _ e3, all_real _ _ _ _ e4⟩

end Cert.KernelIdeal.Finite

end
-- ==== Proof.KBridge.lean ====
/-
  The kernel's result array is the specification, under the precondition.

  With every input finite, the five argument arrays are real. The host operations before the region then leave real
  operands: the composed matrices `Rm · (M₁ M₂ M₃ M₄) · Rm` and the zero-padded gain vectors. Row `p` of the result is
  row `p % 4096` of the body's payload on the block of rows `p / 4096`, whose row `p % 4096` is row `p` of the input
  (`4096 · (p / 4096) + p % 4096 = p`); on real data the payload of a row is the fused real row `rowK`, which is the
  step-by-step real row by associativity of the matrix product, which is the specification on real data.
-/
import proofs.«143413_j47167330845370_2_alg».proof.Defs
import proofs.«143413_j47167330845370_2_alg».proof.Proof.KValueBlocks
import proofs.«143413_j47167330845370_2_alg».proof.Proof.KHostA2
import proofs.«143413_j47167330845370_2_alg».proof.Proof.KHostB2
import proofs.«143413_j47167330845370_2_alg».proof.Proof.KHostC
import proofs.«143413_j47167330845370_2_alg».proof.Proof.KHostCoe
import proofs.«143413_j47167330845370_2_alg».proof.Proof.KPayload
import proofs.«143413_j47167330845370_2_alg».proof.Proof.KFinite

noncomputable section

namespace Cert.KernelIdeal.Bridge

open Cert.KernelIdeal Cert.KernelIdeal.Gen Cert.KernelIdeal.HostTerm Cert.KernelIdeal.HostRead Idealize.ShloMosaic Idealize.ShloMosaic.TcCoe Idealize.SL.Sem
open Idealize.ShloMosaic.ValueIdx Cert.ChainReal Cert.ChainCoe Matrix

variable [hPre : Cert.Pre_finite_inputs.Facts]

/-- Under the precondition the kernel's result array is the specification of the argument arrays. -/
theorem value_eq_spec (m : (ℓ : Loc nD τ sig) → Buf (Elt Ideal) ℓ) (h : Cert.Pre_KernelIdeal m) (c : Dev nD) :
    HValue.Gk (HFrame.V m c main_v148) (HFrame.V m c main_v293) (HFrame.V m c main_v295) (HFrame.V m c main_v297)
        (m ((c.tc : Thread nD τ).loc main_arg0))
      = Cert.ChainSpec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨⟨X, hX⟩, ⟨A1, hA1⟩, ⟨U, hU⟩, ⟨A3, hA3⟩, ⟨L, hL⟩⟩ := Finite.real_of_pre m h c
  have e148 : HFrame.V m c main_v148 = big1 (HostTerm.symm (F := Ideal) fun i => ((A1 i : ℝ) : EReal)) :=
    (v148_eq' m c).trans (congrArg (fun a => big1 (HostTerm.symm a)) hA1)
  have e293 : HFrame.V m c main_v293 = big2 (HostTerm.symm (F := Ideal) fun i => ((A3 i : ℝ) : EReal)) :=
    (v293_eq' m c).trans (congrArg (fun a => big2 (HostTerm.symm a)) hA3)
  have e295 : HFrame.V m c main_v295 = maskUp (F := Ideal) fun i => ((U i : ℝ) : EReal) :=
    (v295_eq m c).trans (congrArg maskUp hU)
  have e297 : HFrame.V m c main_v297 = maskLow (F := Ideal) fun i => ((L i : ℝ) : EReal) :=
    (v297_eq m c).trans (congrArg maskLow hL)
  rw [e148, e293, e295, e297, hX, hA1, hU, hA3, hL]
  funext i
  obtain ⟨p, q, rfl⟩ : ∃ (p : Fin 8388608) (q : Fin 4), i = ix2 p q := ⟨i 0, i 1, eq_ix2 i⟩
  have hp : p.val < 8388608 := p.isLt
  rw [G_coe]
  rw [HValue.Gk_apply_of _ _ _ _ _ (ix2 p q) ⟨p.val / 4096, by omega⟩
    (ix2 (⟨p.val % 4096, Nat.mod_lt _ (by omega)⟩ : Fin 4096) q)
    (by show p.val = 4096 * (p.val / 4096) + p.val % 4096; omega) rfl]
  rw [Payload.pay_row _ _ _ _ _ _ _ _ _ (fun k => X (ix2 p k)) ⟨p.val % 4096, Nat.mod_lt _ (by omega)⟩
    (big1_coe A1) (big2_coe A3) (maskUp_coe U) (maskLow_coe L)
    (fun k => by
      show ((X (ix2 (⟨4096 * (p.val / 4096) + p.val % 4096, _⟩ : Fin 8388608) k) : ℝ) : EReal) = _
      congr 3
      exact Fin.ext (Nat.div_add_mod p.val 4096)) q]
  exact congrArg (fun r : ℝ => (r : EReal)) (congrFun (rowK_eq_row 1 (symR A1) (symR A3) (fun k => U (ix1 k)) (fun k => L (ix1 k))
    (fun k => X (ix2 p k))) q)

end Cert.KernelIdeal.Bridge

end
-- ==== Proof.RefRun.lean ====
/-
  The reference program's host operations as one list, and its run: every weakly fair execution terminates with
  each buffer at the fold of the operations' results over the launch contents; no operation writes an argument.
-/
import proofs.«143413_j47167330845370_2_alg».proof.Proof.Gen.ReferenceIdeal
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60. -/
abbrev ops0 : List (HloOp τ sig (Elt F)) :=
  [ StableHlo.nullary main_c (fun i => lit0 (S4.rowMajor i)),
    StableHlo.nullary main_c_0 (constantI S4 1 0#1),
    StableHlo.nullary main_c_1 (constantI S4 1 0#1),
    StableHlo.nullary main_c_2 (constantI S4 1 0#1),
    StableHlo.nullary main_c_3 (constantI S4 1 0#1),
    StableHlo.nullary main_c_4 (constantI S4 1 0#1),
    StableHlo.nullary main_c_5 (constantI S4 1 0#1),
    StableHlo.nullary main_c_6 (constantI S4 1 0#1),
    StableHlo.nullary main_c_7 (constantI S4 1 0#1),
    StableHlo.nullary main_c_8 (constantI S4 1 0#1),
    StableHlo.nullary main_c_9 (constantI S4 1 0#1),
    StableHlo.nullary main_c_10 (constantI S_ 32 4#32),
    StableHlo.unary main_c_10 main_v0 (broadcastInDim S4 ![] bcast_S_S4 : (⟨S_, .i32⟩ : BufTy).Contents (Elt F) → (⟨S4, .i32⟩ : BufTy).Contents (Elt F)),
    StableHlo.binary main_c main_v0 main_v1 (addi : (⟨S4, .i32⟩ : BufTy).Contents (Elt F) → (⟨S4, .i32⟩ : BufTy).Contents (Elt F) → (⟨S4, .i32⟩ : BufTy).Contents (Elt F)),
    StableHlo.ternary main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v2 main_v3 (broadcastInDim S4x1 ![0] bcast_S4_S4x1_0 : (⟨S4, .i32⟩ : BufTy).Contents (Elt F) → (⟨S4x1, .i32⟩ : BufTy).Contents (Elt F)),
    StableHlo.binary main_arg0 main_v3 main_v4 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.nullary main_c_11 (constantI S_ 32 4#32),
    StableHlo.unary main_c_11 main_v5 (broadcastInDim S4 ![] bcast_S_S4 : (⟨S_, .i32⟩ : BufTy).Contents (Elt F) → (⟨S4, .i32⟩ : BufTy).Contents (Elt F)),
    StableHlo.binary main_c main_v5 main_v6 (addi : (⟨S4, .i32⟩ : BufTy).Contents (Elt F) → (⟨S4, .i32⟩ : BufTy).Contents (Elt F) → (⟨S4, .i32⟩ : BufTy).Contents (Elt F)),
    StableHlo.ternary main_c_1 main_v6 main_c main_v7 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v7 main_v8 (broadcastInDim S4x1 ![0] bcast_S4_S4x1_0 : (⟨S4, .i32⟩ : BufTy).Contents (Elt F) → (⟨S4x1, .i32⟩ : BufTy).Contents (Elt F)),
    StableHlo.binary main_v4 main_v8 main_v9 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.unary main_arg1 main_v10 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v10 main_v11 rfl shapeCasts_S1x2x2_S2x2,
    StableHlo.unary main_v11 main_v12 ((transpose S2x2 [1, 0] · transposes_S2x2_S2x2_1_0) : (⟨S2x2, .f32⟩ : BufTy).Contents (Elt F) → (⟨S2x2, .f32⟩ : BufTy).Contents (Elt F)),
    StableHlo.binary main_v11 main_v12 main_v13 (addf : (⟨S2x2, .f32⟩ : BufTy).Contents (Elt F) → (⟨S2x2, .f32⟩ : BufTy).Contents (Elt F) → (⟨S2x2, .f32⟩ : BufTy).Contents (Elt F)),
    StableHlo.unary main_v9 main_v14 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v9 main_v15 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v15 main_v13 main_v16 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v14 main_v16 main_v17 (addf : (⟨S8388608x2, .f32⟩ : BufTy).Contents (Elt F) → (⟨S8388608x2, .f32⟩ : BufTy).Contents (Elt F) → (⟨S8388608x2, .f32⟩ : BufTy).Contents (Elt F)),
    StableHlo.binary main_v17 main_v15 main_v18 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg1 main_v19 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v19 main_v20 rfl shapeCasts_S1x2x2_S2x2,
    StableHlo.unary main_v20 main_v21 ((transpose S2x2 [1, 0] · transposes_S2x2_S2x2_1_0) : (⟨S2x2, .f32⟩ : BufTy).Contents (Elt F) → (⟨S2x2, .f32⟩ : BufTy).Contents (Elt F)),
    StableHlo.binary main_v20 main_v21 main_v22 (addf : (⟨S2x2, .f32⟩ : BufTy).Contents (Elt F) → (⟨S2x2, .f32⟩ : BufTy).Contents (Elt F) → (⟨S2x2, .f32⟩ : BufTy).Contents (Elt F)),
    StableHlo.unary main_v18 main_v23 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v18 main_v24 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v23 main_v22 main_v25 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v24 main_v25 main_v26 (addf : (⟨S8388608x2, .f32⟩ : BufTy).Contents (Elt F) → (⟨S8388608x2, .f32⟩ : BufTy).Contents (Elt F) → (⟨S8388608x2, .f32⟩ : BufTy).Contents (Elt F)),
    StableHlo.binary main_v23 main_v26 main_v27 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg1 main_v28 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v28 main_v29 rfl shapeCasts_S1x2x2_S2x2,
    StableHlo.unary main_v29 main_v30 ((transpose S2x2 [1, 0] · transposes_S2x2_S2x2_1_0) : (⟨S2x2, .f32⟩ : BufTy).Contents (Elt F) → (⟨S2x2, .f32⟩ : BufTy).Contents (Elt F)),
    StableHlo.binary main_v29 main_v30 main_v31 (addf : (⟨S2x2, .f32⟩ : BufTy).Contents (Elt F) → (⟨S2x2, .f32⟩ : BufTy).Contents (Elt F) → (⟨S2x2, .f32⟩ : BufTy).Contents (Elt F)),
    StableHlo.unary main_v27 main_v32 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v27 main_v33 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v33 main_v31 main_v34 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v32 main_v34 main_v35 (addf : (⟨S8388608x2, .f32⟩ : BufTy).Contents (Elt F) → (⟨S8388608x2, .f32⟩ : BufTy).Contents (Elt F) → (⟨S8388608x2, .f32⟩ : BufTy).Contents (Elt F)),
    StableHlo.binary main_v35 main_v33 main_v36 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg1 main_v37 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v37 main_v38 rfl shapeCasts_S1x2x2_S2x2,
    StableHlo.unary main_v38 main_v39 ((transpose S2x2 [1, 0] · transposes_S2x2_S2x2_1_0) : (⟨S2x2, .f32⟩ : BufTy).Contents (Elt F) → (⟨S2x2, .f32⟩ : BufTy).Contents (Elt F)),
    StableHlo.binary main_v38 main_v39 main_v40 (addf : (⟨S2x2, .f32⟩ : BufTy).Contents (Elt F) → (⟨S2x2, .f32⟩ : BufTy).Contents (Elt F) → (⟨S2x2, .f32⟩ : BufTy).Contents (Elt F)),
    StableHlo.unary main_v36 main_v41 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v36 main_v42 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v41 main_v40 main_v43 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v42 main_v43 main_v44 (addf : (⟨S8388608x2, .f32⟩ : BufTy).Contents (Elt F) → (⟨S8388608x2, .f32⟩ : BufTy).Contents (Elt F) → (⟨S8388608x2, .f32⟩ : BufTy).Contents (Elt F)),
    StableHlo.binary main_v41 main_v44 main_v45 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.nullary main_cst (constant S_ .f32 0x3F800000#32) ]

/-- Operations 61 … 120. -/
abbrev ops1 : List (HloOp τ sig (Elt F)) :=
  [ StableHlo.unary main_cst main_v46 (broadcastInDim S8388608x4 ![] bcast_S_S8388608x4 : (⟨S_, .f32⟩ : BufTy).Contents (Elt F) → (⟨S8388608x4, .f32⟩ : BufTy).Contents (Elt F)),
    StableHlo.binary main_v45 main_v46 main_v47 (addf : (⟨S8388608x4, .f32⟩ : BufTy).Contents (Elt F) → (⟨S8388608x4, .f32⟩ : BufTy).Contents (Elt F) → (⟨S8388608x4, .f32⟩ : BufTy).Contents (Elt F)),
    StableHlo.nullary main_c_12 (constantI S_ 32 4#32),
    StableHlo.unary main_c_12 main_v48 (broadcastInDim S4 ![] bcast_S_S4 : (⟨S_, .i32⟩ : BufTy).Contents (Elt F) → (⟨S4, .i32⟩ : BufTy).Contents (Elt F)),
    StableHlo.binary main_c main_v48 main_v49 (addi : (⟨S4, .i32⟩ : BufTy).Contents (Elt F) → (⟨S4, .i32⟩ : BufTy).Contents (Elt F) → (⟨S4, .i32⟩ : BufTy).Contents (Elt F)),
    StableHlo.ternary main_c_2 main_v49 main_c main_v50 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v50 main_v51 (broadcastInDim S4x1 ![0] bcast_S4_S4x1_0 : (⟨S4, .i32⟩ : BufTy).Contents (Elt F) → (⟨S4x1, .i32⟩ : BufTy).Contents (Elt F)),
    StableHlo.binary main_v47 main_v51 main_v52 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.nullary main_c_13 (constantI S_ 32 4#32),
    StableHlo.unary main_c_13 main_v53 (broadcastInDim S4 ![] bcast_S_S4 : (⟨S_, .i32⟩ : BufTy).Contents (Elt F) → (⟨S4, .i32⟩ : BufTy).Contents (Elt F)),
    StableHlo.binary main_c main_v53 main_v54 (addi : (⟨S4, .i32⟩ : BufTy).Contents (Elt F) → (⟨S4, .i32⟩ : BufTy).Contents (Elt F) → (⟨S4, .i32⟩ : BufTy).Contents (Elt F)),
    StableHlo.ternary main_c_3 main_v54 main_c main_v55 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v55 main_v56 (broadcastInDim S4x1 ![0] bcast_S4_S4x1_0 : (⟨S4, .i32⟩ : BufTy).Contents (Elt F) → (⟨S4x1, .i32⟩ : BufTy).Contents (Elt F)),
    StableHlo.binary main_v52 main_v56 main_v57 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.unary main_v57 main_v58 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v57 main_v59 ((extractStridedSlice S8388608x2 ![0, 2] · slices_S8388608x4_S8388608x2_0_2) : (⟨S8388608x4, .f32⟩ : BufTy).Contents (Elt F) → (⟨S8388608x2, .f32⟩ : BufTy).Contents (Elt F)),
    StableHlo.unary main_v59 main_v60 (Host.tanh : (⟨S8388608x2, .f32⟩ : BufTy).Contents (Elt F) → (⟨S8388608x2, .f32⟩ : BufTy).Contents (Elt F)),
    StableHlo.unary main_arg2 main_v61 (broadcastInDim S1x2 ![1] bcast_S2_S1x2_1 : (⟨S2, .f32⟩ : BufTy).Contents (Elt F) → (⟨S1x2, .f32⟩ : BufTy).Contents (Elt F)),
    StableHlo.unary main_v61 main_v62 (broadcastInDim S8388608x2 ![0, 1] bcast_S1x2_S8388608x2_0_1 : (⟨S1x2, .f32⟩ : BufTy).Contents (Elt F) → (⟨S8388608x2, .f32⟩ : BufTy).Contents (Elt F)),
    StableHlo.binary main_v62 main_v60 main_v63 (mulf : (⟨S8388608x2, .f32⟩ : BufTy).Contents (Elt F) → (⟨S8388608x2, .f32⟩ : BufTy).Contents (Elt F) → (⟨S8388608x2, .f32⟩ : BufTy).Contents (Elt F)),
    StableHlo.binary main_v58 main_v63 main_v64 (addf : (⟨S8388608x2, .f32⟩ : BufTy).Contents (Elt F) → (⟨S8388608x2, .f32⟩ : BufTy).Contents (Elt F) → (⟨S8388608x2, .f32⟩ : BufTy).Contents (Elt F)),
    StableHlo.binary main_v64 main_v59 main_v65 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.nullary main_c_14 (constantI S_ 32 4#32),
    StableHlo.unary main_c_14 main_v66 (broadcastInDim S4 ![] bcast_S_S4 : (⟨S_, .i32⟩ : BufTy).Contents (Elt F) → (⟨S4, .i32⟩ : BufTy).Contents (Elt F)),
    StableHlo.binary main_c main_v66 main_v67 (addi : (⟨S4, .i32⟩ : BufTy).Contents (Elt F) → (⟨S4, .i32⟩ : BufTy).Contents (Elt F) → (⟨S4, .i32⟩ : BufTy).Contents (Elt F)),
    StableHlo.ternary main_c_4 main_v67 main_c main_v68 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v68 main_v69 (broadcastInDim S4x1 ![0] bcast_S4_S4x1_0 : (⟨S4, .i32⟩ : BufTy).Contents (Elt F) → (⟨S4x1, .i32⟩ : BufTy).Contents (Elt F)),
    StableHlo.binary main_v65 main_v69 main_v70 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.nullary main_c_15 (constantI S_ 32 4#32),
    StableHlo.unary main_c_15 main_v71 (broadcastInDim S4 ![] bcast_S_S4 : (⟨S_, .i32⟩ : BufTy).Contents (Elt F) → (⟨S4, .i32⟩ : BufTy).Contents (Elt F)),
    StableHlo.binary main_c main_v71 main_v72 (addi : (⟨S4, .i32⟩ : BufTy).Contents (Elt F) → (⟨S4, .i32⟩ : BufTy).Contents (Elt F) → (⟨S4, .i32⟩ : BufTy).Contents (Elt F)),
    StableHlo.ternary main_c_5 main_v72 main_c main_v73 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v73 main_v74 (broadcastInDim S4x1 ![0] bcast_S4_S4x1_0 : (⟨S4, .i32⟩ : BufTy).Contents (Elt F) → (⟨S4x1, .i32⟩ : BufTy).Contents (Elt F)),
    StableHlo.binary main_v70 main_v74 main_v75 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.unary main_arg3 main_v76 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v76 main_v77 rfl shapeCasts_S1x2x2_S2x2,
    StableHlo.unary main_v77 main_v78 ((transpose S2x2 [1, 0] · transposes_S2x2_S2x2_1_0) : (⟨S2x2, .f32⟩ : BufTy).Contents (Elt F) → (⟨S2x2, .f32⟩ : BufTy).Contents (Elt F)),
    StableHlo.binary main_v77 main_v78 main_v79 (addf : (⟨S2x2, .f32⟩ : BufTy).Contents (Elt F) → (⟨S2x2, .f32⟩ : BufTy).Contents (Elt F) → (⟨S2x2, .f32⟩ : BufTy).Contents (Elt F)),
    StableHlo.unary main_v75 main_v80 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v75 main_v81 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v80 main_v79 main_v82 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v81 main_v82 main_v83 (addf : (⟨S8388608x2, .f32⟩ : BufTy).Contents (Elt F) → (⟨S8388608x2, .f32⟩ : BufTy).Contents (Elt F) → (⟨S8388608x2, .f32⟩ : BufTy).Contents (Elt F)),
    StableHlo.binary main_v80 main_v83 main_v84 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg3 main_v85 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v85 main_v86 rfl shapeCasts_S1x2x2_S2x2,
    StableHlo.unary main_v86 main_v87 ((transpose S2x2 [1, 0] · transposes_S2x2_S2x2_1_0) : (⟨S2x2, .f32⟩ : BufTy).Contents (Elt F) → (⟨S2x2, .f32⟩ : BufTy).Contents (Elt F)),
    StableHlo.binary main_v86 main_v87 main_v88 (addf : (⟨S2x2, .f32⟩ : BufTy).Contents (Elt F) → (⟨S2x2, .f32⟩ : BufTy).Contents (Elt F) → (⟨S2x2, .f32⟩ : BufTy).Contents (Elt F)),
    StableHlo.unary main_v84 main_v89 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v84 main_v90 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v90 main_v88 main_v91 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v89 main_v91 main_v92 (addf : (⟨S8388608x2, .f32⟩ : BufTy).Contents (Elt F) → (⟨S8388608x2, .f32⟩ : BufTy).Contents (Elt F) → (⟨S8388608x2, .f32⟩ : BufTy).Contents (Elt F)),
    StableHlo.binary main_v92 main_v90 main_v93 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg3 main_v94 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v94 main_v95 rfl shapeCasts_S1x2x2_S2x2,
    StableHlo.unary main_v95 main_v96 ((transpose S2x2 [1, 0] · transposes_S2x2_S2x2_1_0) : (⟨S2x2, .f32⟩ : BufTy).Contents (Elt F) → (⟨S2x2, .f32⟩ : BufTy).Contents (Elt F)),
    StableHlo.binary main_v95 main_v96 main_v97 (addf : (⟨S2x2, .f32⟩ : BufTy).Contents (Elt F) → (⟨S2x2, .f32⟩ : BufTy).Contents (Elt F) → (⟨S2x2, .f32⟩ : BufTy).Contents (Elt F)),
    StableHlo.unary main_v93 main_v98 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v93 main_v99 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v98 main_v97 main_v100 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v99 main_v100 main_v101 (addf : (⟨S8388608x2, .f32⟩ : BufTy).Contents (Elt F) → (⟨S8388608x2, .f32⟩ : BufTy).Contents (Elt F) → (⟨S8388608x2, .f32⟩ : BufTy).Contents (Elt F)) ]

/-- Operations 121 … 165. -/
abbrev ops2 : List (HloOp τ sig (Elt F)) :=
  [ StableHlo.binary main_v98 main_v101 main_v102 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.unary main_arg3 main_v103 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v103 main_v104 rfl shapeCasts_S1x2x2_S2x2,
    StableHlo.unary main_v104 main_v105 ((transpose S2x2 [1, 0] · transposes_S2x2_S2x2_1_0) : (⟨S2x2, .f32⟩ : BufTy).Contents (Elt F) → (⟨S2x2, .f32⟩ : BufTy).Contents (Elt F)),
    StableHlo.binary main_v104 main_v105 main_v106 (addf : (⟨S2x2, .f32⟩ : BufTy).Contents (Elt F) → (⟨S2x2, .f32⟩ : BufTy).Contents (Elt F) → (⟨S2x2, .f32⟩ : BufTy).Contents (Elt F)),
    StableHlo.unary main_v102 main_v107 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v102 main_v108 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v108 main_v106 main_v109 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v107 main_v109 main_v110 (addf : (⟨S8388608x2, .f32⟩ : BufTy).Contents (Elt F) → (⟨S8388608x2, .f32⟩ : BufTy).Contents (Elt F) → (⟨S8388608x2, .f32⟩ : BufTy).Contents (Elt F)),
    StableHlo.binary main_v110 main_v108 main_v111 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.nullary main_cst_16 (constant S_ .f32 0x3F800000#32),
    StableHlo.unary main_cst_16 main_v112 (broadcastInDim S8388608x4 ![] bcast_S_S8388608x4 : (⟨S_, .f32⟩ : BufTy).Contents (Elt F) → (⟨S8388608x4, .f32⟩ : BufTy).Contents (Elt F)),
    StableHlo.binary main_v111 main_v112 main_v113 (addf : (⟨S8388608x4, .f32⟩ : BufTy).Contents (Elt F) → (⟨S8388608x4, .f32⟩ : BufTy).Contents (Elt F) → (⟨S8388608x4, .f32⟩ : BufTy).Contents (Elt F)),
    StableHlo.nullary main_c_17 (constantI S_ 32 4#32),
    StableHlo.unary main_c_17 main_v114 (broadcastInDim S4 ![] bcast_S_S4 : (⟨S_, .i32⟩ : BufTy).Contents (Elt F) → (⟨S4, .i32⟩ : BufTy).Contents (Elt F)),
    StableHlo.binary main_c main_v114 main_v115 (addi : (⟨S4, .i32⟩ : BufTy).Contents (Elt F) → (⟨S4, .i32⟩ : BufTy).Contents (Elt F) → (⟨S4, .i32⟩ : BufTy).Contents (Elt F)),
    StableHlo.ternary main_c_6 main_v115 main_c main_v116 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v116 main_v117 (broadcastInDim S4x1 ![0] bcast_S4_S4x1_0 : (⟨S4, .i32⟩ : BufTy).Contents (Elt F) → (⟨S4x1, .i32⟩ : BufTy).Contents (Elt F)),
    StableHlo.binary main_v113 main_v117 main_v118 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.nullary main_c_18 (constantI S_ 32 4#32),
    StableHlo.unary main_c_18 main_v119 (broadcastInDim S4 ![] bcast_S_S4 : (⟨S_, .i32⟩ : BufTy).Contents (Elt F) → (⟨S4, .i32⟩ : BufTy).Contents (Elt F)),
    StableHlo.binary main_c main_v119 main_v120 (addi : (⟨S4, .i32⟩ : BufTy).Contents (Elt F) → (⟨S4, .i32⟩ : BufTy).Contents (Elt F) → (⟨S4, .i32⟩ : BufTy).Contents (Elt F)),
    StableHlo.ternary main_c_7 main_v120 main_c main_v121 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v121 main_v122 (broadcastInDim S4x1 ![0] bcast_S4_S4x1_0 : (⟨S4, .i32⟩ : BufTy).Contents (Elt F) → (⟨S4x1, .i32⟩ : BufTy).Contents (Elt F)),
    StableHlo.binary main_v118 main_v122 main_v123 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.unary main_v123 main_v124 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v123 main_v125 ((extractStridedSlice S8388608x2 ![0, 2] · slices_S8388608x4_S8388608x2_0_2) : (⟨S8388608x4, .f32⟩ : BufTy).Contents (Elt F) → (⟨S8388608x2, .f32⟩ : BufTy).Contents (Elt F)),
    StableHlo.unary main_v124 main_v126 (Host.tanh : (⟨S8388608x2, .f32⟩ : BufTy).Contents (Elt F) → (⟨S8388608x2, .f32⟩ : BufTy).Contents (Elt F)),
    StableHlo.unary main_arg4 main_v127 (broadcastInDim S1x2 ![1] bcast_S2_S1x2_1 : (⟨S2, .f32⟩ : BufTy).Contents (Elt F) → (⟨S1x2, .f32⟩ : BufTy).Contents (Elt F)),
    StableHlo.unary main_v127 main_v128 (broadcastInDim S8388608x2 ![0, 1] bcast_S1x2_S8388608x2_0_1 : (⟨S1x2, .f32⟩ : BufTy).Contents (Elt F) → (⟨S8388608x2, .f32⟩ : BufTy).Contents (Elt F)),
    StableHlo.binary main_v128 main_v126 main_v129 (mulf : (⟨S8388608x2, .f32⟩ : BufTy).Contents (Elt F) → (⟨S8388608x2, .f32⟩ : BufTy).Contents (Elt F) → (⟨S8388608x2, .f32⟩ : BufTy).Contents (Elt F)),
    StableHlo.binary main_v125 main_v129 main_v130 (addf : (⟨S8388608x2, .f32⟩ : BufTy).Contents (Elt F) → (⟨S8388608x2, .f32⟩ : BufTy).Contents (Elt F) → (⟨S8388608x2, .f32⟩ : BufTy).Contents (Elt F)),
    StableHlo.binary main_v124 main_v130 main_v131 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)),
    StableHlo.nullary main_c_19 (constantI S_ 32 4#32),
    StableHlo.unary main_c_19 main_v132 (broadcastInDim S4 ![] bcast_S_S4 : (⟨S_, .i32⟩ : BufTy).Contents (Elt F) → (⟨S4, .i32⟩ : BufTy).Contents (Elt F)),
    StableHlo.binary main_c main_v132 main_v133 (addi : (⟨S4, .i32⟩ : BufTy).Contents (Elt F) → (⟨S4, .i32⟩ : BufTy).Contents (Elt F) → (⟨S4, .i32⟩ : BufTy).Contents (Elt F)),
    StableHlo.ternary main_c_8 main_v133 main_c main_v134 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v134 main_v135 (broadcastInDim S4x1 ![0] bcast_S4_S4x1_0 : (⟨S4, .i32⟩ : BufTy).Contents (Elt F) → (⟨S4x1, .i32⟩ : BufTy).Contents (Elt F)),
    StableHlo.binary main_v131 main_v135 main_v136 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)),
    StableHlo.nullary main_c_20 (constantI S_ 32 4#32),
    StableHlo.unary main_c_20 main_v137 (broadcastInDim S4 ![] bcast_S_S4 : (⟨S_, .i32⟩ : BufTy).Contents (Elt F) → (⟨S4, .i32⟩ : BufTy).Contents (Elt F)),
    StableHlo.binary main_c main_v137 main_v138 (addi : (⟨S4, .i32⟩ : BufTy).Contents (Elt F) → (⟨S4, .i32⟩ : BufTy).Contents (Elt F) → (⟨S4, .i32⟩ : BufTy).Contents (Elt F)),
    StableHlo.ternary main_c_9 main_v138 main_c main_v139 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v139 main_v140 (broadcastInDim S4x1 ![0] bcast_S4_S4x1_0 : (⟨S4, .i32⟩ : BufTy).Contents (Elt F) → (⟨S4x1, .i32⟩ : BufTy).Contents (Elt F)),
    StableHlo.binary main_v136 main_v140 main_v141 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]

/-- All 165 operations, in order. -/
abbrev ops : List (HloOp τ sig (Elt F)) := ops0 ++ ops1 ++ ops2

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub .., binary_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub .., binary_bufs_sub .., unary_bufs_sub .., reshape_bufs_sub .., unary_bufs_sub .., binary_bufs_sub .., unary_bufs_sub .., unary_bufs_sub .., binary_bufs_sub .., binary_bufs_sub ..⟩
set_option maxRecDepth 8192 in
theorem ops2_sub : (ops2 : List (HloOp τ sig (Elt F))).Forall fun op => op.bufs ⊆ tcRefs τ sig :=
  ⟨binary_bufs_sub .., unary_bufs_sub .., reshape_bufs_sub .., unary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h,
      List.forall_iff_forall_mem.mp ops2_sub op h]

/-- On every device, from any memory with zero counters: every weakly fair execution of @main terminates, and each
    buffer ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ

/-- No operation writes argument 0. -/
theorem kept_arg0 (m : (ℓ : Loc nD τ sig) → Buf (Elt F) ℓ) (c : Dev nD) :
    StableHlo.after (ops (F := F)) (StableHlo.launchContents m c) (Proc.devRef .tc main_arg0) = m ((c.tc : Thread nD τ).loc main_arg0) :=
  StableHlo.after_of_forall_not_mem (b := Proc.devRef .tc main_arg0) _ _ (List.forall_iff_forall_mem.mp (by
    simp only [ops, ops0, ops1, ops2, List.cons_append, List.nil_append, List.Forall, nullary_writes, unary_writes, binary_writes,
      ternary_writes, reshape_writes, Finset.mem_singleton]
    repeat' apply And.intro
    all_goals exact devRef_ne_of_ne (by decide)))

/-- No operation writes argument 1. -/
theorem kept_arg1 (m : (ℓ : Loc nD τ sig) → Buf (Elt F) ℓ) (c : Dev nD) :
    StableHlo.after (ops (F := F)) (StableHlo.launchContents m c) (Proc.devRef .tc main_arg1) = m ((c.tc : Thread nD τ).loc main_arg1) :=
  StableHlo.after_of_forall_not_mem (b := Proc.devRef .tc main_arg1) _ _ (List.forall_iff_forall_mem.mp (by
    simp only [ops, ops0, ops1, ops2, List.cons_append, List.nil_append, List.Forall, nullary_writes, unary_writes, binary_writes,
      ternary_writes, reshape_writes, Finset.mem_singleton]
    repeat' apply And.intro
    all_goals exact devRef_ne_of_ne (by decide)))

/-- No operation writes argument 2. -/
theorem kept_arg2 (m : (ℓ : Loc nD τ sig) → Buf (Elt F) ℓ) (c : Dev nD) :
    StableHlo.after (ops (F := F)) (StableHlo.launchContents m c) (Proc.devRef .tc main_arg2) = m ((c.tc : Thread nD τ).loc main_arg2) :=
  StableHlo.after_of_forall_not_mem (b := Proc.devRef .tc main_arg2) _ _ (List.forall_iff_forall_mem.mp (by
    simp only [ops, ops0, ops1, ops2, List.cons_append, List.nil_append, List.Forall, nullary_writes, unary_writes, binary_writes,
      ternary_writes, reshape_writes, Finset.mem_singleton]
    repeat' apply And.intro
    all_goals exact devRef_ne_of_ne (by decide)))

/-- No operation writes argument 3. -/
theorem kept_arg3 (m : (ℓ : Loc nD τ sig) → Buf (Elt F) ℓ) (c : Dev nD) :
    StableHlo.after (ops (F := F)) (StableHlo.launchContents m c) (Proc.devRef .tc main_arg3) = m ((c.tc : Thread nD τ).loc main_arg3) :=
  StableHlo.after_of_forall_not_mem (b := Proc.devRef .tc main_arg3) _ _ (List.forall_iff_forall_mem.mp (by
    simp only [ops, ops0, ops1, ops2, List.cons_append, List.nil_append, List.Forall, nullary_writes, unary_writes, binary_writes,
      ternary_writes, reshape_writes, Finset.mem_singleton]
    repeat' apply And.intro
    all_goals exact devRef_ne_of_ne (by decide)))

/-- No operation writes argument 4. -/
theorem kept_arg4 (m : (ℓ : Loc nD τ sig) → Buf (Elt F) ℓ) (c : Dev nD) :
    StableHlo.after (ops (F := F)) (StableHlo.launchContents m c) (Proc.devRef .tc main_arg4) = m ((c.tc : Thread nD τ).loc main_arg4) :=
  StableHlo.after_of_forall_not_mem (b := Proc.devRef .tc main_arg4) _ _ (List.forall_iff_forall_mem.mp (by
    simp only [ops, ops0, ops1, ops2, List.cons_append, List.nil_append, List.Forall, nullary_writes, unary_writes, binary_writes,
      ternary_writes, reshape_writes, Finset.mem_singleton]
    repeat' apply And.intro
    all_goals exact devRef_ne_of_ne (by decide)))

end Cert.ReferenceIdeal.HRun

end
-- ==== Proof.RefReads.lean ====
/-
  The reference's host operations read at an index, at the extended reals: a gather through the literal column
  table, the two column slices, the concatenation of two column pairs, the product with a 2 × 2 matrix, the
  broadcasts, the symmetrised weight slice; and the five kinds of stage the program is made of, each read row by
  row as the matching step of the specification.
-/
import proofs.«143413_j47167330845370_2_alg».proof.Proof.Gen.ReferenceIdeal
import proofs.«143413_j47167330845370_2_alg».proof.Proof.ChainSpec
import Idealize.ShloMosaic.Lib.StackMember
import Idealize.ShloMosaic.Lib.ValueLayout

noncomputable section

namespace Cert.ReferenceIdeal.RefValue

open Cert.ReferenceIdeal Cert.ReferenceIdeal.Gen Idealize.ShloMosaic Idealize.ShloMosaic.ValueIdx

/-! ## The gather -/

/-- The column permutation the index table names. -/
def perm : Fin 4 → Fin 4 := ![1, 3, 0, 2]

/-- The gather's dimension numbers. -/
abbrev GD : GatherDims S8388608x4 S4x1 S8388608x4 := gather_S8388608x4_S4x1_S8388608x4_0_1_n_n_1_1_83886081

/-- The product's dimension numbers. -/
abbrev DD : DotDims S8388608x2 S2x2 S8388608x2 := dot_S8388608x2_S2x2_S8388608x2_1_0_0_1_n_n

/-- The literal table of column indices. -/
abbrev litTbl : IVec S4 32 := fun i => lit0 (S4.rowMajor i)

/-- The table of start indices as the program builds it: the literal table, a mask choosing between it and the
    table plus four, as a column. -/
def startTbl (c : IVec S4 32) (mask : IVec S4 1) : IVec S4x1 32 :=
  broadcastInDim S4x1 ![0] bcast_S4_S4x1_0 (select mask (addi c (broadcastInDim S4 ![] bcast_S_S4 (constantI S_ 32 4#32))) c)

set_option maxHeartbeats 400000 in
/-- Behind a mask that is nowhere set, entry j is the literal's. -/
theorem startTbl_apply (j : Fin 4) : startTbl litTbl (constantI S4 1 0#1) (ix2 j 0) = lit0 j := by
  unfold startTbl
  fin_cases j <;> rfl

set_option maxHeartbeats 400000 in
/-- The gather at row r, column j: the operand at row r and the column the start index names, clamped. -/
theorem gather_read {α : Type} (X : S8388608x4.Idx → α) (idx : IVec S4x1 32) (r : Fin 8388608) (j : Fin 4) :
    Host.gather GD X idx (ix2 r j)
      = X (ix2 r ⟨min (idx (ix2 j 0)).toInt.toNat 3, by omega⟩) := by
  unfold Host.gather
  congr 1
  funext a
  refine Fin.ext ?_
  match a with
  | ⟨0, _⟩ =>
    show GD.start (ix2 r j) idx 0 + GD.batchCoord (ix2 r j) 0 + GD.offCoord (ix2 r j) 0 = r.val
    rw [GatherDims.batchCoord_eq_zero _ _ _ List.not_mem_nil]
    have hs : GD.start (ix2 r j) idx 0 = 0 := by unfold GatherDims.start; exact dif_neg (by decide)
    have ho : GD.offCoord (ix2 r j) 0 = r.val := rfl
    rw [hs, ho]; simp
  | ⟨1, _⟩ =>
    show GD.start (ix2 r j) idx 1 + GD.batchCoord (ix2 r j) 1 + GD.offCoord (ix2 r j) 1 = min (idx (ix2 j 0)).toInt.toNat 3
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GD.startIndexMap from List.mem_singleton.mpr rfl)]
    have hsi : GD.siIdx (ix2 r j) ⟨List.idxOf (1 : Fin 2) GD.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- The gather stage: the columns permuted. -/
def gath (X : FVec Ideal S8388608x4 .f32) (c : IVec S4 32) (mask : IVec S4 1) : FVec Ideal S8388608x4 .f32 :=
  Host.gather GD X (startTbl c mask)

/-- Through the literal table the gather reads column perm j. -/
theorem gath_read (X : FVec Ideal S8388608x4 .f32) (r : Fin 8388608) (j : Fin 4) :
    gath X litTbl (constantI S4 1 0#1) (ix2 r j) = X (ix2 r (perm j)) := by
  unfold gath
  rw [gather_read]
  refine congrArg X (congrArg (ix2 r) (Fin.ext ?_))
  show min (startTbl litTbl (constantI S4 1 0#1) (ix2 j 0)).toInt.toNat 3 = (perm j).val
  rw [startTbl_apply]
  fin_cases j <;> rfl

/-- Two gathers in a row reverse the columns. -/
theorem gath_gath_read (X : FVec Ideal S8388608x4 .f32) (r : Fin 8388608) (j : Fin 4) :
    gath (gath X litTbl (constantI S4 1 0#1)) litTbl (constantI S4 1 0#1) (ix2 r j) = ChainSpec.rev (fun k => X (ix2 r k)) j := by
  rw [gath_read, gath_read]
  fin_cases j <;> rfl

/-! ## Slices, concatenation, product, broadcasts -/

/-- The first two columns. -/
theorem slice_lo_read {α : Type} (X : S8388608x4.Idx → α) (r : Fin 8388608) (k : Fin 2) :
    extractStridedSlice S8388608x2 ![0, 0] X slices_S8388608x4_S8388608x2_0_0 (ix2 r k) = X (ix2 r ⟨k.val, by omega⟩) :=
  extractStridedSlice_apply _ X _ _ _ fun a => match a with
    | ⟨0, _⟩ => (Nat.zero_add _).symm
    | ⟨1, _⟩ => (Nat.zero_add _).symm

/-- The last two columns. -/
theorem slice_hi_read {α : Type} (X : S8388608x4.Idx → α) (r : Fin 8388608) (k : Fin 2) :
    extractStridedSlice S8388608x2 ![0, 2] X slices_S8388608x4_S8388608x2_0_2 (ix2 r k) = X (ix2 r ⟨2 + k.val, by omega⟩) :=
  extractStridedSlice_apply _ X _ _ _ fun a => match a with
    | ⟨0, _⟩ => (Nat.zero_add _).symm
    | ⟨1, _⟩ => rfl

/-- Two column pairs side by side, read in the first pair. -/
theorem concat_lo_read {α : Type} (a b : S8388608x2.Idx → α) (r : Fin 8388608) (k : Fin 2) :
    concatenate S8388608x4 1 [⟨S8388608x2, a⟩, ⟨S8388608x2, b⟩] concatenates_S8388608x2_S8388608x2_S8388608x4_d1 (ix2 r ⟨k.val, by omega⟩)
      = a (ix2 r k) :=
  concatenate_pair_apply_left (t := S8388608x4) 1 a b concatenates_S8388608x2_S8388608x2_S8388608x4_d1 (ix2 r ⟨k.val, by omega⟩) rfl (ix2 r k) fun c => match c with
    | ⟨0, _⟩ => rfl
    | ⟨1, _⟩ => rfl

/-- Two column pairs side by side, read in the second pair. -/
theorem concat_hi_read {α : Type} (a b : S8388608x2.Idx → α) (r : Fin 8388608) (k : Fin 2) :
    concatenate S8388608x4 1 [⟨S8388608x2, a⟩, ⟨S8388608x2, b⟩] concatenates_S8388608x2_S8388608x2_S8388608x4_d1 (ix2 r ⟨2 + k.val, by omega⟩)
      = b (ix2 r k) :=
  concatenate_pair_apply_right (t := S8388608x4) 1 a b concatenates_S8388608x2_S8388608x2_S8388608x4_d1 (ix2 r ⟨2 + k.val, by omega⟩) rfl rfl (ix2 r k)
    (fun c => match c with
      | ⟨0, _⟩ => fun _ => rfl
      | ⟨1, _⟩ => fun h => absurd rfl h)
    (Nat.add_comm k.val 2)

/-- A row pair times a 2 × 2 matrix. -/
theorem dot_read (A : FVec Ideal S8388608x2 .f32) (B : FVec Ideal S2x2 .f32) (r : Fin 8388608) (c : Fin 2) :
    Host.dotGeneral DD none A B (ix2 r c) = A (ix2 r 0) * B (ix2 0 c) + A (ix2 r 1) * B (ix2 1 c) := by
  have h := StackMember.dotGeneral_plain_apply (m := 8388608) (n := 2) (k := 2) none A B r c
  rw [Fin.sum_univ_two] at h
  exact h

/-- A weight pair broadcast down the rows. -/
theorem bcast_vec_read {α : Type} (a : S2.Idx → α) (r : Fin 8388608) (k : Fin 2) :
    broadcastInDim S8388608x2 ![0, 1] bcast_S1x2_S8388608x2_0_1 (broadcastInDim S1x2 ![1] bcast_S2_S1x2_1 a) (ix2 r k) = a (ix1 k) :=
  (broadcastInDim_apply ![0, 1] _ _ (ix2 r k) (ix2 (0 : Fin 1) k) fun c => match c with
    | ⟨0, _⟩ => rfl
    | ⟨1, _⟩ => rfl).trans
  (broadcastInDim_apply ![1] _ a (ix2 (0 : Fin 1) k) (ix1 k) fun c => match c with
    | ⟨0, _⟩ => rfl)

/-! ## The symmetrised weight slice -/

/-- Slice k of a 4 × 2 × 2 array as a matrix, plus its transpose. -/
def symS (A : FVec Ideal S4x2x2 .f32) (off : Fin 3 → Nat) (h : S4x2x2.Slices off S1x2x2) : FVec Ideal S2x2 .f32 :=
  addf (shapeCast S2x2 (extractStridedSlice S1x2x2 off A h) shapeCasts_S1x2x2_S2x2)
    (transpose S2x2 [1, 0] (shapeCast S2x2 (extractStridedSlice S1x2x2 off A h) shapeCasts_S1x2x2_S2x2) transposes_S2x2_S2x2_1_0)

theorem symS_read (A : FVec Ideal S4x2x2 .f32) (k : Fin 4) (h : S4x2x2.Slices ![k.val, 0, 0] S1x2x2) (a b : Fin 2) :
    symS A ![k.val, 0, 0] h (ix2 a b) = ChainSpec.sym A k a b := by
  have hB : ∀ a b : Fin 2, shapeCast S2x2 (extractStridedSlice S1x2x2 ![k.val, 0, 0] A h) shapeCasts_S1x2x2_S2x2 (ix2 a b) = A (ix3 k a b) := by
    intro a b
    rw [shapeCast_1ab_ab_apply]
    exact extractStridedSlice_apply _ A h _ _ fun c => match c with
      | ⟨0, _⟩ => rfl
      | ⟨1, _⟩ => (Nat.zero_add _).symm
      | ⟨2, _⟩ => (Nat.zero_add _).symm
  unfold symS ChainSpec.sym
  rw [addf_apply, transpose_ix2_apply, hB, hB]

/-! ## The stages, and each read row by row -/

/-- A 2 × 2 array as a matrix. -/
def mat (S : FVec Ideal S2x2 .f32) : Fin 2 → Fin 2 → EReal := fun a b => S (ix2 a b)
/-- Row r of a 4-column array. -/
def rowOf (Y : FVec Ideal S8388608x4 .f32) (r : Fin 8388608) : Fin 4 → EReal := fun k => Y (ix2 r k)
/-- A 2-entry array as a pair. -/
def vecOf (a : FVec Ideal S2 .f32) : Fin 2 → EReal := fun k => a (ix1 k)

/-- The all-false mask. -/
abbrev noMask : IVec S4 1 := constantI S4 1 0#1

theorem tanh_read (x : FVec Ideal S8388608x2 .f32) (i : S8388608x2.Idx) : Host.tanh x i = Ideal.tanh (x i) := rfl

/-- (p, q) ↦ (p + q·S, q) on every row. -/
def upStage (X : FVec Ideal S8388608x4 .f32) (S : FVec Ideal S2x2 .f32) : FVec Ideal S8388608x4 .f32 :=
  concatenate S8388608x4 1
    [⟨S8388608x2, addf (extractStridedSlice S8388608x2 ![0, 0] X slices_S8388608x4_S8388608x2_0_0)
        (Host.dotGeneral DD none (extractStridedSlice S8388608x2 ![0, 2] X slices_S8388608x4_S8388608x2_0_2) S)⟩,
     ⟨S8388608x2, extractStridedSlice S8388608x2 ![0, 2] X slices_S8388608x4_S8388608x2_0_2⟩]
    concatenates_S8388608x2_S8388608x2_S8388608x4_d1

/-- (p, q) ↦ (p, q + p·S) on every row. -/
def lowStage (X : FVec Ideal S8388608x4 .f32) (S : FVec Ideal S2x2 .f32) : FVec Ideal S8388608x4 .f32 :=
  concatenate S8388608x4 1
    [⟨S8388608x2, extractStridedSlice S8388608x2 ![0, 0] X slices_S8388608x4_S8388608x2_0_0⟩,
     ⟨S8388608x2, addf (extractStridedSlice S8388608x2 ![0, 2] X slices_S8388608x4_S8388608x2_0_2)
        (Host.dotGeneral DD none (extractStridedSlice S8388608x2 ![0, 0] X slices_S8388608x4_S8388608x2_0_0) S)⟩]
    concatenates_S8388608x2_S8388608x2_S8388608x4_d1

/-- The constant added to every entry. -/
def plusStage (X : FVec Ideal S8388608x4 .f32) : FVec Ideal S8388608x4 .f32 :=
  addf X (broadcastInDim S8388608x4 ![] bcast_S_S8388608x4 (constant (F := Ideal) S_ .f32 0x3F800000#32))

/-- (p, q) ↦ (p + a ⊙ tanh q, q) on every row. -/
def actUpStage (X : FVec Ideal S8388608x4 .f32) (a : FVec Ideal S2 .f32) : FVec Ideal S8388608x4 .f32 :=
  concatenate S8388608x4 1
    [⟨S8388608x2, addf (extractStridedSlice S8388608x2 ![0, 0] X slices_S8388608x4_S8388608x2_0_0)
        (mulf (broadcastInDim S8388608x2 ![0, 1] bcast_S1x2_S8388608x2_0_1 (broadcastInDim S1x2 ![1] bcast_S2_S1x2_1 a))
          (Host.tanh (extractStridedSlice S8388608x2 ![0, 2] X slices_S8388608x4_S8388608x2_0_2)))⟩,
     ⟨S8388608x2, extractStridedSlice S8388608x2 ![0, 2] X slices_S8388608x4_S8388608x2_0_2⟩]
    concatenates_S8388608x2_S8388608x2_S8388608x4_d1

/-- (p, q) ↦ (p, q + a ⊙ tanh p) on every row. -/
def actLowStage (X : FVec Ideal S8388608x4 .f32) (a : FVec Ideal S2 .f32) : FVec Ideal S8388608x4 .f32 :=
  concatenate S8388608x4 1
    [⟨S8388608x2, extractStridedSlice S8388608x2 ![0, 0] X slices_S8388608x4_S8388608x2_0_0⟩,
     ⟨S8388608x2, addf (extractStridedSlice S8388608x2 ![0, 2] X slices_S8388608x4_S8388608x2_0_2)
        (mulf (broadcastInDim S8388608x2 ![0, 1] bcast_S1x2_S8388608x2_0_1 (broadcastInDim S1x2 ![1] bcast_S2_S1x2_1 a))
          (Host.tanh (extractStridedSlice S8388608x2 ![0, 0] X slices_S8388608x4_S8388608x2_0_0)))⟩]
    concatenates_S8388608x2_S8388608x2_S8388608x4_d1

theorem gg_row (X : FVec Ideal S8388608x4 .f32) (r : Fin 8388608) :
    rowOf (gath (gath X litTbl noMask) litTbl noMask) r = ChainSpec.rev (rowOf X r) :=
  funext fun j => gath_gath_read X r j

set_option maxHeartbeats 400000 in
theorem upStage_row (X : FVec Ideal S8388608x4 .f32) (S : FVec Ideal S2x2 .f32) (r : Fin 8388608) :
    rowOf (upStage X S) r = ChainSpec.up (mat S) (rowOf X r) := by
  funext j
  unfold rowOf upStage
  fin_cases j
  · refine (concat_lo_read _ _ r 0).trans ?_
    rw [addf_apply, slice_lo_read, dot_read]; simp only [slice_hi_read]; rfl
  · refine (concat_lo_read _ _ r 1).trans ?_
    rw [addf_apply, slice_lo_read, dot_read]; simp only [slice_hi_read]; rfl
  · refine (concat_hi_read _ _ r 0).trans ?_
    rw [slice_hi_read]; rfl
  · refine (concat_hi_read _ _ r 1).trans ?_
    rw [slice_hi_read]; rfl

set_option maxHeartbeats 400000 in
theorem lowStage_row (X : FVec Ideal S8388608x4 .f32) (S : FVec Ideal S2x2 .f32) (r : Fin 8388608) :
    rowOf (lowStage X S) r = ChainSpec.low (mat S) (rowOf X r) := by
  funext j
  unfold rowOf lowStage
  fin_cases j
  · refine (concat_lo_read _ _ r 0).trans ?_
    rw [slice_lo_read]; rfl
  · refine (concat_lo_read _ _ r 1).trans ?_
    rw [slice_lo_read]; rfl
  · refine (concat_hi_read _ _ r 0).trans ?_
    rw [addf_apply, slice_hi_read, dot_read]; simp only [slice_lo_read]; rfl
  · refine (concat_hi_read _ _ r 1).trans ?_
    rw [addf_apply, slice_hi_read, dot_read]; simp only [slice_lo_read]; rfl

theorem plusStage_row (X : FVec Ideal S8388608x4 .f32) (r : Fin 8388608) :
    rowOf (plusStage X) r = ChainSpec.plus1 (rowOf X r) := rfl

set_option maxHeartbeats 400000 in
theorem actUpStage_row (X : FVec Ideal S8388608x4 .f32) (a : FVec Ideal S2 .f32) (r : Fin 8388608) :
    rowOf (actUpStage X a) r = ChainSpec.actUp (vecOf a) (rowOf X r) := by
  funext j
  unfold rowOf actUpStage
  fin_cases j
  · refine (concat_lo_read _ _ r 0).trans ?_
    rw [addf_apply, mulf_apply, slice_lo_read, bcast_vec_read, tanh_read, slice_hi_read]; rfl
  · refine (concat_lo_read _ _ r 1).trans ?_
    rw [addf_apply, mulf_apply, slice_lo_read, bcast_vec_read, tanh_read, slice_hi_read]; rfl
  · refine (concat_hi_read _ _ r 0).trans ?_
    rw [slice_hi_read]; rfl
  · refine (concat_hi_read _ _ r 1).trans ?_
    rw [slice_hi_read]; rfl

set_option maxHeartbeats 400000 in
theorem actLowStage_row (X : FVec Ideal S8388608x4 .f32) (a : FVec Ideal S2 .f32) (r : Fin 8388608) :
    rowOf (actLowStage X a) r = ChainSpec.actLow (vecOf a) (rowOf X r) := by
  funext j
  unfold rowOf actLowStage
  fin_cases j
  · refine (concat_lo_read _ _ r 0).trans ?_
    rw [slice_lo_read]; rfl
  · refine (concat_lo_read _ _ r 1).trans ?_
    rw [slice_lo_read]; rfl
  · refine (concat_hi_read _ _ r 0).trans ?_
    rw [addf_apply, mulf_apply, slice_hi_read, bcast_vec_read, tanh_read, slice_lo_read]; rfl
  · refine (concat_hi_read _ _ r 1).trans ?_
    rw [addf_apply, mulf_apply, slice_hi_read, bcast_vec_read, tanh_read, slice_lo_read]; rfl

theorem mat_symS0 (A : FVec Ideal S4x2x2 .f32) : mat (symS A ![0, 0, 0] slices_S4x2x2_S1x2x2_0_0_0) = ChainSpec.sym A 0 :=
  funext fun a => funext fun b => symS_read A 0 slices_S4x2x2_S1x2x2_0_0_0 a b
theorem mat_symS1 (A : FVec Ideal S4x2x2 .f32) : mat (symS A ![1, 0, 0] slices_S4x2x2_S1x2x2_1_0_0) = ChainSpec.sym A 1 :=
  funext fun a => funext fun b => symS_read A 1 slices_S4x2x2_S1x2x2_1_0_0 a b
theorem mat_symS2 (A : FVec Ideal S4x2x2 .f32) : mat (symS A ![2, 0, 0] slices_S4x2x2_S1x2x2_2_0_0) = ChainSpec.sym A 2 :=
  funext fun a => funext fun b => symS_read A 2 slices_S4x2x2_S1x2x2_2_0_0 a b
theorem mat_symS3 (A : FVec Ideal S4x2x2 .f32) : mat (symS A ![3, 0, 0] slices_S4x2x2_S1x2x2_3_0_0) = ChainSpec.sym A 3 :=
  funext fun a => funext fun b => symS_read A 3 slices_S4x2x2_S1x2x2_3_0_0 a b

/-! ## The whole chain -/

/-- The program's result as one function of its five arguments: the stages composed in the program's order. -/
def refFn (X : FVec Ideal S8388608x4 .f32) (A1 : FVec Ideal S4x2x2 .f32) (U : FVec Ideal S2 .f32)
    (A3 : FVec Ideal S4x2x2 .f32) (L : FVec Ideal S2 .f32) : FVec Ideal S8388608x4 .f32 :=
  gath (gath (actLowStage (gath (gath (plusStage
    (upStage (lowStage (upStage (lowStage
      (gath (gath (actUpStage (gath (gath (plusStage
        (lowStage (upStage (lowStage (upStage (gath (gath X litTbl noMask) litTbl noMask)
          (symS A1 ![0, 0, 0] slices_S4x2x2_S1x2x2_0_0_0)) (symS A1 ![1, 0, 0] slices_S4x2x2_S1x2x2_1_0_0))
          (symS A1 ![2, 0, 0] slices_S4x2x2_S1x2x2_2_0_0)) (symS A1 ![3, 0, 0] slices_S4x2x2_S1x2x2_3_0_0)))
        litTbl noMask) litTbl noMask) U) litTbl noMask) litTbl noMask)
      (symS A3 ![0, 0, 0] slices_S4x2x2_S1x2x2_0_0_0)) (symS A3 ![1, 0, 0] slices_S4x2x2_S1x2x2_1_0_0))
      (symS A3 ![2, 0, 0] slices_S4x2x2_S1x2x2_2_0_0)) (symS A3 ![3, 0, 0] slices_S4x2x2_S1x2x2_3_0_0)))
    litTbl noMask) litTbl noMask) L) litTbl noMask) litTbl noMask

set_option maxHeartbeats 400000 in
/-- Row by row, the composed stages are the specification. -/
theorem refFn_eq (X : FVec Ideal S8388608x4 .f32) (A1 : FVec Ideal S4x2x2 .f32) (U : FVec Ideal S2 .f32)
    (A3 : FVec Ideal S4x2x2 .f32) (L : FVec Ideal S2 .f32) : refFn X A1 U A3 L = ChainSpec.G X A1 U A3 L := by
  funext i
  obtain ⟨r, j, rfl⟩ : ∃ (r : Fin 8388608) (j : Fin 4), i = ix2 r j := ⟨i 0, i 1, eq_ix2 i⟩
  show rowOf (refFn X A1 U A3 L) r j = _
  unfold refFn
  simp only [gg_row, upStage_row, lowStage_row, plusStage_row, actUpStage_row, actLowStage_row,
    mat_symS0, mat_symS1, mat_symS2, mat_symS3]
  rfl

end Cert.ReferenceIdeal.RefValue

end
-- ==== Proof.RefValue.lean ====
/-
  The reference program's result buffer read back as the specification. The operation list is cut into its
  stages; each stage's result buffer holds the stage's function of the buffers it reads, and leaves every
  buffer it does not write; composed, the last buffer holds the chain of stages of the arguments, which is the
  specification row by row.
-/
import proofs.«143413_j47167330845370_2_alg».proof.Proof.RefRun
import proofs.«143413_j47167330845370_2_alg».proof.Proof.RefReads

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- Running two lists one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The stages' operations -/

/-- Operations 1 … 11. -/
def seg0 : List (HloOp τ sig (Elt F)) :=
  [ StableHlo.nullary main_c (fun i => lit0 (S4.rowMajor i)),
    StableHlo.nullary main_c_0 (constantI S4 1 0#1),
    StableHlo.nullary main_c_1 (constantI S4 1 0#1),
    StableHlo.nullary main_c_2 (constantI S4 1 0#1),
    StableHlo.nullary main_c_3 (constantI S4 1 0#1),
    StableHlo.nullary main_c_4 (constantI S4 1 0#1),
    StableHlo.nullary main_c_5 (constantI S4 1 0#1),
    StableHlo.nullary main_c_6 (constantI S4 1 0#1),
    StableHlo.nullary main_c_7 (constantI S4 1 0#1),
    StableHlo.nullary main_c_8 (constantI S4 1 0#1),
    StableHlo.nullary main_c_9 (constantI S4 1 0#1) ]
/-- The buffers they write. -/
abbrev seg0_W : List (Ref sig .tc) := [main_c, main_c_0, main_c_1, main_c_2, main_c_3, main_c_4, main_c_5, main_c_6, main_c_7, main_c_8, main_c_9]
theorem seg0_writes : (seg0 (F := F)).Forall fun op => op.writes ⊆ (seg0_W.map (Proc.devRef (τ := τ) .tc)).toFinset := by
  simp only [seg0, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg0_keep (W : Valuation τ sig (Elt F)) (r : Ref sig .tc) (h : r ∉ seg0_W) :
    after seg0 W (no_index (Proc.devRef .tc r)) = W (Proc.devRef .tc r) :=
  after_of_writes_sub seg0 W seg0_writes h
theorem seg0_c (W : Valuation τ sig (Elt F)) : after seg0 W (Proc.devRef .tc main_c) = litTbl := by
  simp only [seg0]
  after_results_simp <;> rfl
theorem seg0_c' (W : Valuation τ sig (Elt F)) : after seg0 W (no_index (Proc.devRef .tc main_c)) = litTbl := seg0_c W
theorem seg0_m0 (W : Valuation τ sig (Elt F)) : after seg0 W (Proc.devRef .tc main_c_0) = noMask := by
  simp only [seg0]
  after_results_simp
theorem seg0_m0' (W : Valuation τ sig (Elt F)) : after seg0 W (no_index (Proc.devRef .tc main_c_0)) = noMask := seg0_m0 W
theorem seg0_m1 (W : Valuation τ sig (Elt F)) : after seg0 W (Proc.devRef .tc main_c_1) = noMask := by
  simp only [seg0]
  after_results_simp
theorem seg0_m1' (W : Valuation τ sig (Elt F)) : after seg0 W (no_index (Proc.devRef .tc main_c_1)) = noMask := seg0_m1 W
theorem seg0_m2 (W : Valuation τ sig (Elt F)) : after seg0 W (Proc.devRef .tc main_c_2) = noMask := by
  simp only [seg0]
  after_results_simp
theorem seg0_m2' (W : Valuation τ sig (Elt F)) : after seg0 W (no_index (Proc.devRef .tc main_c_2)) = noMask := seg0_m2 W
theorem seg0_m3 (W : Valuation τ sig (Elt F)) : after seg0 W (Proc.devRef .tc main_c_3) = noMask := by
  simp only [seg0]
  after_results_simp
theorem seg0_m3' (W : Valuation τ sig (Elt F)) : after seg0 W (no_index (Proc.devRef .tc main_c_3)) = noMask := seg0_m3 W
theorem seg0_m4 (W : Valuation τ sig (Elt F)) : after seg0 W (Proc.devRef .tc main_c_4) = noMask := by
  simp only [seg0]
  after_results_simp
theorem seg0_m4' (W : Valuation τ sig (Elt F)) : after seg0 W (no_index (Proc.devRef .tc main_c_4)) = noMask := seg0_m4 W
theorem seg0_m5 (W : Valuation τ sig (Elt F)) : after seg0 W (Proc.devRef .tc main_c_5) = noMask := by
  simp only [seg0]
  after_results_simp
theorem seg0_m5' (W : Valuation τ sig (Elt F)) : after seg0 W (no_index (Proc.devRef .tc main_c_5)) = noMask := seg0_m5 W
theorem seg0_m6 (W : Valuation τ sig (Elt F)) : after seg0 W (Proc.devRef .tc main_c_6) = noMask := by
  simp only [seg0]
  after_results_simp
theorem seg0_m6' (W : Valuation τ sig (Elt F)) : after seg0 W (no_index (Proc.devRef .tc main_c_6)) = noMask := seg0_m6 W
theorem seg0_m7 (W : Valuation τ sig (Elt F)) : after seg0 W (Proc.devRef .tc main_c_7) = noMask := by
  simp only [seg0]
  after_results_simp
theorem seg0_m7' (W : Valuation τ sig (Elt F)) : after seg0 W (no_index (Proc.devRef .tc main_c_7)) = noMask := seg0_m7 W
theorem seg0_m8 (W : Valuation τ sig (Elt F)) : after seg0 W (Proc.devRef .tc main_c_8) = noMask := by
  simp only [seg0]
  after_results_simp
theorem seg0_m8' (W : Valuation τ sig (Elt F)) : after seg0 W (no_index (Proc.devRef .tc main_c_8)) = noMask := seg0_m8 W
theorem seg0_m9 (W : Valuation τ sig (Elt F)) : after seg0 W (Proc.devRef .tc main_c_9) = noMask := by
  simp only [seg0]
  after_results_simp
theorem seg0_m9' (W : Valuation τ sig (Elt F)) : after seg0 W (no_index (Proc.devRef .tc main_c_9)) = noMask := seg0_m9 W

/-- Operations 12 … 17. -/
def seg1 : List (HloOp τ sig (Elt F)) :=
  [ StableHlo.nullary main_c_10 (constantI S_ 32 4#32),
    StableHlo.unary main_c_10 main_v0 (broadcastInDim S4 ![] bcast_S_S4 : (⟨S_, .i32⟩ : BufTy).Contents (Elt F) → (⟨S4, .i32⟩ : BufTy).Contents (Elt F)),
    StableHlo.binary main_c main_v0 main_v1 (addi : (⟨S4, .i32⟩ : BufTy).Contents (Elt F) → (⟨S4, .i32⟩ : BufTy).Contents (Elt F) → (⟨S4, .i32⟩ : BufTy).Contents (Elt F)),
    StableHlo.ternary main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v2 main_v3 (broadcastInDim S4x1 ![0] bcast_S4_S4x1_0 : (⟨S4, .i32⟩ : BufTy).Contents (Elt F) → (⟨S4x1, .i32⟩ : BufTy).Contents (Elt F)),
    StableHlo.binary main_arg0 main_v3 main_v4 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg1_W : List (Ref sig .tc) := [main_c_10, main_v0, main_v1, main_v2, main_v3, main_v4]
theorem seg1_writes : (seg1 (F := F)).Forall fun op => op.writes ⊆ (seg1_W.map (Proc.devRef (τ := τ) .tc)).toFinset := by
  simp only [seg1, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg1_keep (W : Valuation τ sig (Elt F)) (r : Ref sig .tc) (h : r ∉ seg1_W) :
    after seg1 W (no_index (Proc.devRef .tc r)) = W (Proc.devRef .tc r) :=
  after_of_writes_sub seg1 W seg1_writes h
theorem seg1_out (W : Valuation τ sig (Elt Ideal)) :
    after (seg1 (F := Ideal)) W (Proc.devRef .tc main_v4) = gath (W (Proc.devRef .tc main_arg0)) (W (Proc.devRef .tc main_c)) (W (Proc.devRef .tc main_c_0)) := by
  simp only [seg1]
  after_results_simp <;> rfl
theorem seg1_out' (W : Valuation τ sig (Elt Ideal)) :
    after (seg1 (F := Ideal)) W (no_index (Proc.devRef .tc main_v4)) = gath (W (Proc.devRef .tc main_arg0)) (W (Proc.devRef .tc main_c)) (W (Proc.devRef .tc main_c_0)) := seg1_out W

/-- Operations 18 … 23. -/
def seg2 : List (HloOp τ sig (Elt F)) :=
  [ StableHlo.nullary main_c_11 (constantI S_ 32 4#32),
    StableHlo.unary main_c_11 main_v5 (broadcastInDim S4 ![] bcast_S_S4 : (⟨S_, .i32⟩ : BufTy).Contents (Elt F) → (⟨S4, .i32⟩ : BufTy).Contents (Elt F)),
    StableHlo.binary main_c main_v5 main_v6 (addi : (⟨S4, .i32⟩ : BufTy).Contents (Elt F) → (⟨S4, .i32⟩ : BufTy).Contents (Elt F) → (⟨S4, .i32⟩ : BufTy).Contents (Elt F)),
    StableHlo.ternary main_c_1 main_v6 main_c main_v7 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v7 main_v8 (broadcastInDim S4x1 ![0] bcast_S4_S4x1_0 : (⟨S4, .i32⟩ : BufTy).Contents (Elt F) → (⟨S4x1, .i32⟩ : BufTy).Contents (Elt F)),
    StableHlo.binary main_v4 main_v8 main_v9 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg2_W : List (Ref sig .tc) := [main_c_11, main_v5, main_v6, main_v7, main_v8, main_v9]
theorem seg2_writes : (seg2 (F := F)).Forall fun op => op.writes ⊆ (seg2_W.map (Proc.devRef (τ := τ) .tc)).toFinset := by
  simp only [seg2, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg2_keep (W : Valuation τ sig (Elt F)) (r : Ref sig .tc) (h : r ∉ seg2_W) :
    after seg2 W (no_index (Proc.devRef .tc r)) = W (Proc.devRef .tc r) :=
  after_of_writes_sub seg2 W seg2_writes h
theorem seg2_out (W : Valuation τ sig (Elt Ideal)) :
    after (seg2 (F := Ideal)) W (Proc.devRef .tc main_v9) = gath (W (Proc.devRef .tc main_v4)) (W (Proc.devRef .tc main_c)) (W (Proc.devRef .tc main_c_1)) := by
  simp only [seg2]
  after_results_simp <;> rfl
theorem seg2_out' (W : Valuation τ sig (Elt Ideal)) :
    after (seg2 (F := Ideal)) W (no_index (Proc.devRef .tc main_v9)) = gath (W (Proc.devRef .tc main_v4)) (W (Proc.devRef .tc main_c)) (W (Proc.devRef .tc main_c_1)) := seg2_out W

/-- Operations 24 … 32. -/
def seg3 : List (HloOp τ sig (Elt F)) :=
  [ StableHlo.unary main_arg1 main_v10 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v10 main_v11 rfl shapeCasts_S1x2x2_S2x2,
    StableHlo.unary main_v11 main_v12 ((transpose S2x2 [1, 0] · transposes_S2x2_S2x2_1_0) : (⟨S2x2, .f32⟩ : BufTy).Contents (Elt F) → (⟨S2x2, .f32⟩ : BufTy).Contents (Elt F)),
    StableHlo.binary main_v11 main_v12 main_v13 (addf : (⟨S2x2, .f32⟩ : BufTy).Contents (Elt F) → (⟨S2x2, .f32⟩ : BufTy).Contents (Elt F) → (⟨S2x2, .f32⟩ : BufTy).Contents (Elt F)),
    StableHlo.unary main_v9 main_v14 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v9 main_v15 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v15 main_v13 main_v16 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v14 main_v16 main_v17 (addf : (⟨S8388608x2, .f32⟩ : BufTy).Contents (Elt F) → (⟨S8388608x2, .f32⟩ : BufTy).Contents (Elt F) → (⟨S8388608x2, .f32⟩ : BufTy).Contents (Elt F)),
    StableHlo.binary main_v17 main_v15 main_v18 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg3_W : List (Ref sig .tc) := [main_v10, main_v11, main_v12, main_v13, main_v14, main_v15, main_v16, main_v17, main_v18]
theorem seg3_writes : (seg3 (F := F)).Forall fun op => op.writes ⊆ (seg3_W.map (Proc.devRef (τ := τ) .tc)).toFinset := by
  simp only [seg3, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg3_keep (W : Valuation τ sig (Elt F)) (r : Ref sig .tc) (h : r ∉ seg3_W) :
    after seg3 W (no_index (Proc.devRef .tc r)) = W (Proc.devRef .tc r) :=
  after_of_writes_sub seg3 W seg3_writes h
theorem seg3_out (W : Valuation τ sig (Elt Ideal)) :
    after (seg3 (F := Ideal)) W (Proc.devRef .tc main_v18) = upStage (W (Proc.devRef .tc main_v9)) (symS (W (Proc.devRef .tc main_arg1)) ![0, 0, 0] slices_S4x2x2_S1x2x2_0_0_0) := by
  simp only [seg3]
  after_results_simp <;> rfl
theorem seg3_out' (W : Valuation τ sig (Elt Ideal)) :
    after (seg3 (F := Ideal)) W (no_index (Proc.devRef .tc main_v18)) = upStage (W (Proc.devRef .tc main_v9)) (symS (W (Proc.devRef .tc main_arg1)) ![0, 0, 0] slices_S4x2x2_S1x2x2_0_0_0) := seg3_out W

/-- Operations 33 … 41. -/
def seg4 : List (HloOp τ sig (Elt F)) :=
  [ StableHlo.unary main_arg1 main_v19 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v19 main_v20 rfl shapeCasts_S1x2x2_S2x2,
    StableHlo.unary main_v20 main_v21 ((transpose S2x2 [1, 0] · transposes_S2x2_S2x2_1_0) : (⟨S2x2, .f32⟩ : BufTy).Contents (Elt F) → (⟨S2x2, .f32⟩ : BufTy).Contents (Elt F)),
    StableHlo.binary main_v20 main_v21 main_v22 (addf : (⟨S2x2, .f32⟩ : BufTy).Contents (Elt F) → (⟨S2x2, .f32⟩ : BufTy).Contents (Elt F) → (⟨S2x2, .f32⟩ : BufTy).Contents (Elt F)),
    StableHlo.unary main_v18 main_v23 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v18 main_v24 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v23 main_v22 main_v25 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v24 main_v25 main_v26 (addf : (⟨S8388608x2, .f32⟩ : BufTy).Contents (Elt F) → (⟨S8388608x2, .f32⟩ : BufTy).Contents (Elt F) → (⟨S8388608x2, .f32⟩ : BufTy).Contents (Elt F)),
    StableHlo.binary main_v23 main_v26 main_v27 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg4_W : List (Ref sig .tc) := [main_v19, main_v20, main_v21, main_v22, main_v23, main_v24, main_v25, main_v26, main_v27]
theorem seg4_writes : (seg4 (F := F)).Forall fun op => op.writes ⊆ (seg4_W.map (Proc.devRef (τ := τ) .tc)).toFinset := by
  simp only [seg4, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg4_keep (W : Valuation τ sig (Elt F)) (r : Ref sig .tc) (h : r ∉ seg4_W) :
    after seg4 W (no_index (Proc.devRef .tc r)) = W (Proc.devRef .tc r) :=
  after_of_writes_sub seg4 W seg4_writes h
theorem seg4_out (W : Valuation τ sig (Elt Ideal)) :
    after (seg4 (F := Ideal)) W (Proc.devRef .tc main_v27) = lowStage (W (Proc.devRef .tc main_v18)) (symS (W (Proc.devRef .tc main_arg1)) ![1, 0, 0] slices_S4x2x2_S1x2x2_1_0_0) := by
  simp only [seg4]
  after_results_simp <;> rfl
theorem seg4_out' (W : Valuation τ sig (Elt Ideal)) :
    after (seg4 (F := Ideal)) W (no_index (Proc.devRef .tc main_v27)) = lowStage (W (Proc.devRef .tc main_v18)) (symS (W (Proc.devRef .tc main_arg1)) ![1, 0, 0] slices_S4x2x2_S1x2x2_1_0_0) := seg4_out W

/-- Operations 42 … 50. -/
def seg5 : List (HloOp τ sig (Elt F)) :=
  [ StableHlo.unary main_arg1 main_v28 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v28 main_v29 rfl shapeCasts_S1x2x2_S2x2,
    StableHlo.unary main_v29 main_v30 ((transpose S2x2 [1, 0] · transposes_S2x2_S2x2_1_0) : (⟨S2x2, .f32⟩ : BufTy).Contents (Elt F) → (⟨S2x2, .f32⟩ : BufTy).Contents (Elt F)),
    StableHlo.binary main_v29 main_v30 main_v31 (addf : (⟨S2x2, .f32⟩ : BufTy).Contents (Elt F) → (⟨S2x2, .f32⟩ : BufTy).Contents (Elt F) → (⟨S2x2, .f32⟩ : BufTy).Contents (Elt F)),
    StableHlo.unary main_v27 main_v32 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v27 main_v33 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v33 main_v31 main_v34 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v32 main_v34 main_v35 (addf : (⟨S8388608x2, .f32⟩ : BufTy).Contents (Elt F) → (⟨S8388608x2, .f32⟩ : BufTy).Contents (Elt F) → (⟨S8388608x2, .f32⟩ : BufTy).Contents (Elt F)),
    StableHlo.binary main_v35 main_v33 main_v36 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg5_W : List (Ref sig .tc) := [main_v28, main_v29, main_v30, main_v31, main_v32, main_v33, main_v34, main_v35, main_v36]
theorem seg5_writes : (seg5 (F := F)).Forall fun op => op.writes ⊆ (seg5_W.map (Proc.devRef (τ := τ) .tc)).toFinset := by
  simp only [seg5, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg5_keep (W : Valuation τ sig (Elt F)) (r : Ref sig .tc) (h : r ∉ seg5_W) :
    after seg5 W (no_index (Proc.devRef .tc r)) = W (Proc.devRef .tc r) :=
  after_of_writes_sub seg5 W seg5_writes h
theorem seg5_out (W : Valuation τ sig (Elt Ideal)) :
    after (seg5 (F := Ideal)) W (Proc.devRef .tc main_v36) = upStage (W (Proc.devRef .tc main_v27)) (symS (W (Proc.devRef .tc main_arg1)) ![2, 0, 0] slices_S4x2x2_S1x2x2_2_0_0) := by
  simp only [seg5]
  after_results_simp <;> rfl
theorem seg5_out' (W : Valuation τ sig (Elt Ideal)) :
    after (seg5 (F := Ideal)) W (no_index (Proc.devRef .tc main_v36)) = upStage (W (Proc.devRef .tc main_v27)) (symS (W (Proc.devRef .tc main_arg1)) ![2, 0, 0] slices_S4x2x2_S1x2x2_2_0_0) := seg5_out W

/-- Operations 51 … 59. -/
def seg6 : List (HloOp τ sig (Elt F)) :=
  [ StableHlo.unary main_arg1 main_v37 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v37 main_v38 rfl shapeCasts_S1x2x2_S2x2,
    StableHlo.unary main_v38 main_v39 ((transpose S2x2 [1, 0] · transposes_S2x2_S2x2_1_0) : (⟨S2x2, .f32⟩ : BufTy).Contents (Elt F) → (⟨S2x2, .f32⟩ : BufTy).Contents (Elt F)),
    StableHlo.binary main_v38 main_v39 main_v40 (addf : (⟨S2x2, .f32⟩ : BufTy).Contents (Elt F) → (⟨S2x2, .f32⟩ : BufTy).Contents (Elt F) → (⟨S2x2, .f32⟩ : BufTy).Contents (Elt F)),
    StableHlo.unary main_v36 main_v41 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v36 main_v42 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v41 main_v40 main_v43 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v42 main_v43 main_v44 (addf : (⟨S8388608x2, .f32⟩ : BufTy).Contents (Elt F) → (⟨S8388608x2, .f32⟩ : BufTy).Contents (Elt F) → (⟨S8388608x2, .f32⟩ : BufTy).Contents (Elt F)),
    StableHlo.binary main_v41 main_v44 main_v45 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg6_W : List (Ref sig .tc) := [main_v37, main_v38, main_v39, main_v40, main_v41, main_v42, main_v43, main_v44, main_v45]
theorem seg6_writes : (seg6 (F := F)).Forall fun op => op.writes ⊆ (seg6_W.map (Proc.devRef (τ := τ) .tc)).toFinset := by
  simp only [seg6, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg6_keep (W : Valuation τ sig (Elt F)) (r : Ref sig .tc) (h : r ∉ seg6_W) :
    after seg6 W (no_index (Proc.devRef .tc r)) = W (Proc.devRef .tc r) :=
  after_of_writes_sub seg6 W seg6_writes h
theorem seg6_out (W : Valuation τ sig (Elt Ideal)) :
    after (seg6 (F := Ideal)) W (Proc.devRef .tc main_v45) = lowStage (W (Proc.devRef .tc main_v36)) (symS (W (Proc.devRef .tc main_arg1)) ![3, 0, 0] slices_S4x2x2_S1x2x2_3_0_0) := by
  simp only [seg6]
  after_results_simp <;> rfl
theorem seg6_out' (W : Valuation τ sig (Elt Ideal)) :
    after (seg6 (F := Ideal)) W (no_index (Proc.devRef .tc main_v45)) = lowStage (W (Proc.devRef .tc main_v36)) (symS (W (Proc.devRef .tc main_arg1)) ![3, 0, 0] slices_S4x2x2_S1x2x2_3_0_0) := seg6_out W

/-- Operations 60 … 62. -/
def seg7 : List (HloOp τ sig (Elt F)) :=
  [ StableHlo.nullary main_cst (constant S_ .f32 0x3F800000#32),
    StableHlo.unary main_cst main_v46 (broadcastInDim S8388608x4 ![] bcast_S_S8388608x4 : (⟨S_, .f32⟩ : BufTy).Contents (Elt F) → (⟨S8388608x4, .f32⟩ : BufTy).Contents (Elt F)),
    StableHlo.binary main_v45 main_v46 main_v47 (addf : (⟨S8388608x4, .f32⟩ : BufTy).Contents (Elt F) → (⟨S8388608x4, .f32⟩ : BufTy).Contents (Elt F) → (⟨S8388608x4, .f32⟩ : BufTy).Contents (Elt F)) ]
/-- The buffers they write. -/
abbrev seg7_W : List (Ref sig .tc) := [main_cst, main_v46, main_v47]
theorem seg7_writes : (seg7 (F := F)).Forall fun op => op.writes ⊆ (seg7_W.map (Proc.devRef (τ := τ) .tc)).toFinset := by
  simp only [seg7, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg7_keep (W : Valuation τ sig (Elt F)) (r : Ref sig .tc) (h : r ∉ seg7_W) :
    after seg7 W (no_index (Proc.devRef .tc r)) = W (Proc.devRef .tc r) :=
  after_of_writes_sub seg7 W seg7_writes h
theorem seg7_out (W : Valuation τ sig (Elt Ideal)) :
    after (seg7 (F := Ideal)) W (Proc.devRef .tc main_v47) = plusStage (W (Proc.devRef .tc main_v45)) := by
  simp only [seg7]
  after_results_simp <;> rfl
theorem seg7_out' (W : Valuation τ sig (Elt Ideal)) :
    after (seg7 (F := Ideal)) W (no_index (Proc.devRef .tc main_v47)) = plusStage (W (Proc.devRef .tc main_v45)) := seg7_out W

/-- Operations 63 … 68. -/
def seg8 : List (HloOp τ sig (Elt F)) :=
  [ StableHlo.nullary main_c_12 (constantI S_ 32 4#32),
    StableHlo.unary main_c_12 main_v48 (broadcastInDim S4 ![] bcast_S_S4 : (⟨S_, .i32⟩ : BufTy).Contents (Elt F) → (⟨S4, .i32⟩ : BufTy).Contents (Elt F)),
    StableHlo.binary main_c main_v48 main_v49 (addi : (⟨S4, .i32⟩ : BufTy).Contents (Elt F) → (⟨S4, .i32⟩ : BufTy).Contents (Elt F) → (⟨S4, .i32⟩ : BufTy).Contents (Elt F)),
    StableHlo.ternary main_c_2 main_v49 main_c main_v50 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v50 main_v51 (broadcastInDim S4x1 ![0] bcast_S4_S4x1_0 : (⟨S4, .i32⟩ : BufTy).Contents (Elt F) → (⟨S4x1, .i32⟩ : BufTy).Contents (Elt F)),
    StableHlo.binary main_v47 main_v51 main_v52 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg8_W : List (Ref sig .tc) := [main_c_12, main_v48, main_v49, main_v50, main_v51, main_v52]
theorem seg8_writes : (seg8 (F := F)).Forall fun op => op.writes ⊆ (seg8_W.map (Proc.devRef (τ := τ) .tc)).toFinset := by
  simp only [seg8, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg8_keep (W : Valuation τ sig (Elt F)) (r : Ref sig .tc) (h : r ∉ seg8_W) :
    after seg8 W (no_index (Proc.devRef .tc r)) = W (Proc.devRef .tc r) :=
  after_of_writes_sub seg8 W seg8_writes h
theorem seg8_out (W : Valuation τ sig (Elt Ideal)) :
    after (seg8 (F := Ideal)) W (Proc.devRef .tc main_v52) = gath (W (Proc.devRef .tc main_v47)) (W (Proc.devRef .tc main_c)) (W (Proc.devRef .tc main_c_2)) := by
  simp only [seg8]
  after_results_simp <;> rfl
theorem seg8_out' (W : Valuation τ sig (Elt Ideal)) :
    after (seg8 (F := Ideal)) W (no_index (Proc.devRef .tc main_v52)) = gath (W (Proc.devRef .tc main_v47)) (W (Proc.devRef .tc main_c)) (W (Proc.devRef .tc main_c_2)) := seg8_out W

/-- Operations 69 … 74. -/
def seg9 : List (HloOp τ sig (Elt F)) :=
  [ StableHlo.nullary main_c_13 (constantI S_ 32 4#32),
    StableHlo.unary main_c_13 main_v53 (broadcastInDim S4 ![] bcast_S_S4 : (⟨S_, .i32⟩ : BufTy).Contents (Elt F) → (⟨S4, .i32⟩ : BufTy).Contents (Elt F)),
    StableHlo.binary main_c main_v53 main_v54 (addi : (⟨S4, .i32⟩ : BufTy).Contents (Elt F) → (⟨S4, .i32⟩ : BufTy).Contents (Elt F) → (⟨S4, .i32⟩ : BufTy).Contents (Elt F)),
    StableHlo.ternary main_c_3 main_v54 main_c main_v55 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v55 main_v56 (broadcastInDim S4x1 ![0] bcast_S4_S4x1_0 : (⟨S4, .i32⟩ : BufTy).Contents (Elt F) → (⟨S4x1, .i32⟩ : BufTy).Contents (Elt F)),
    StableHlo.binary main_v52 main_v56 main_v57 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg9_W : List (Ref sig .tc) := [main_c_13, main_v53, main_v54, main_v55, main_v56, main_v57]
theorem seg9_writes : (seg9 (F := F)).Forall fun op => op.writes ⊆ (seg9_W.map (Proc.devRef (τ := τ) .tc)).toFinset := by
  simp only [seg9, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg9_keep (W : Valuation τ sig (Elt F)) (r : Ref sig .tc) (h : r ∉ seg9_W) :
    after seg9 W (no_index (Proc.devRef .tc r)) = W (Proc.devRef .tc r) :=
  after_of_writes_sub seg9 W seg9_writes h
theorem seg9_out (W : Valuation τ sig (Elt Ideal)) :
    after (seg9 (F := Ideal)) W (Proc.devRef .tc main_v57) = gath (W (Proc.devRef .tc main_v52)) (W (Proc.devRef .tc main_c)) (W (Proc.devRef .tc main_c_3)) := by
  simp only [seg9]
  after_results_simp <;> rfl
theorem seg9_out' (W : Valuation τ sig (Elt Ideal)) :
    after (seg9 (F := Ideal)) W (no_index (Proc.devRef .tc main_v57)) = gath (W (Proc.devRef .tc main_v52)) (W (Proc.devRef .tc main_c)) (W (Proc.devRef .tc main_c_3)) := seg9_out W

/-- Operations 75 … 82. -/
def seg10 : List (HloOp τ sig (Elt F)) :=
  [ StableHlo.unary main_v57 main_v58 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v57 main_v59 ((extractStridedSlice S8388608x2 ![0, 2] · slices_S8388608x4_S8388608x2_0_2) : (⟨S8388608x4, .f32⟩ : BufTy).Contents (Elt F) → (⟨S8388608x2, .f32⟩ : BufTy).Contents (Elt F)),
    StableHlo.unary main_v59 main_v60 (Host.tanh : (⟨S8388608x2, .f32⟩ : BufTy).Contents (Elt F) → (⟨S8388608x2, .f32⟩ : BufTy).Contents (Elt F)),
    StableHlo.unary main_arg2 main_v61 (broadcastInDim S1x2 ![1] bcast_S2_S1x2_1 : (⟨S2, .f32⟩ : BufTy).Contents (Elt F) → (⟨S1x2, .f32⟩ : BufTy).Contents (Elt F)),
    StableHlo.unary main_v61 main_v62 (broadcastInDim S8388608x2 ![0, 1] bcast_S1x2_S8388608x2_0_1 : (⟨S1x2, .f32⟩ : BufTy).Contents (Elt F) → (⟨S8388608x2, .f32⟩ : BufTy).Contents (Elt F)),
    StableHlo.binary main_v62 main_v60 main_v63 (mulf : (⟨S8388608x2, .f32⟩ : BufTy).Contents (Elt F) → (⟨S8388608x2, .f32⟩ : BufTy).Contents (Elt F) → (⟨S8388608x2, .f32⟩ : BufTy).Contents (Elt F)),
    StableHlo.binary main_v58 main_v63 main_v64 (addf : (⟨S8388608x2, .f32⟩ : BufTy).Contents (Elt F) → (⟨S8388608x2, .f32⟩ : BufTy).Contents (Elt F) → (⟨S8388608x2, .f32⟩ : BufTy).Contents (Elt F)),
    StableHlo.binary main_v64 main_v59 main_v65 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg10_W : List (Ref sig .tc) := [main_v58, main_v59, main_v60, main_v61, main_v62, main_v63, main_v64, main_v65]
theorem seg10_writes : (seg10 (F := F)).Forall fun op => op.writes ⊆ (seg10_W.map (Proc.devRef (τ := τ) .tc)).toFinset := by
  simp only [seg10, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg10_keep (W : Valuation τ sig (Elt F)) (r : Ref sig .tc) (h : r ∉ seg10_W) :
    after seg10 W (no_index (Proc.devRef .tc r)) = W (Proc.devRef .tc r) :=
  after_of_writes_sub seg10 W seg10_writes h
theorem seg10_out (W : Valuation τ sig (Elt Ideal)) :
    after (seg10 (F := Ideal)) W (Proc.devRef .tc main_v65) = actUpStage (W (Proc.devRef .tc main_v57)) (W (Proc.devRef .tc main_arg2)) := by
  simp only [seg10]
  after_results_simp <;> rfl
theorem seg10_out' (W : Valuation τ sig (Elt Ideal)) :
    after (seg10 (F := Ideal)) W (no_index (Proc.devRef .tc main_v65)) = actUpStage (W (Proc.devRef .tc main_v57)) (W (Proc.devRef .tc main_arg2)) := seg10_out W

/-- Operations 83 … 88. -/
def seg11 : List (HloOp τ sig (Elt F)) :=
  [ StableHlo.nullary main_c_14 (constantI S_ 32 4#32),
    StableHlo.unary main_c_14 main_v66 (broadcastInDim S4 ![] bcast_S_S4 : (⟨S_, .i32⟩ : BufTy).Contents (Elt F) → (⟨S4, .i32⟩ : BufTy).Contents (Elt F)),
    StableHlo.binary main_c main_v66 main_v67 (addi : (⟨S4, .i32⟩ : BufTy).Contents (Elt F) → (⟨S4, .i32⟩ : BufTy).Contents (Elt F) → (⟨S4, .i32⟩ : BufTy).Contents (Elt F)),
    StableHlo.ternary main_c_4 main_v67 main_c main_v68 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v68 main_v69 (broadcastInDim S4x1 ![0] bcast_S4_S4x1_0 : (⟨S4, .i32⟩ : BufTy).Contents (Elt F) → (⟨S4x1, .i32⟩ : BufTy).Contents (Elt F)),
    StableHlo.binary main_v65 main_v69 main_v70 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg11_W : List (Ref sig .tc) := [main_c_14, main_v66, main_v67, main_v68, main_v69, main_v70]
theorem seg11_writes : (seg11 (F := F)).Forall fun op => op.writes ⊆ (seg11_W.map (Proc.devRef (τ := τ) .tc)).toFinset := by
  simp only [seg11, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg11_keep (W : Valuation τ sig (Elt F)) (r : Ref sig .tc) (h : r ∉ seg11_W) :
    after seg11 W (no_index (Proc.devRef .tc r)) = W (Proc.devRef .tc r) :=
  after_of_writes_sub seg11 W seg11_writes h
theorem seg11_out (W : Valuation τ sig (Elt Ideal)) :
    after (seg11 (F := Ideal)) W (Proc.devRef .tc main_v70) = gath (W (Proc.devRef .tc main_v65)) (W (Proc.devRef .tc main_c)) (W (Proc.devRef .tc main_c_4)) := by
  simp only [seg11]
  after_results_simp <;> rfl
theorem seg11_out' (W : Valuation τ sig (Elt Ideal)) :
    after (seg11 (F := Ideal)) W (no_index (Proc.devRef .tc main_v70)) = gath (W (Proc.devRef .tc main_v65)) (W (Proc.devRef .tc main_c)) (W (Proc.devRef .tc main_c_4)) := seg11_out W

/-- Operations 89 … 94. -/
def seg12 : List (HloOp τ sig (Elt F)) :=
  [ StableHlo.nullary main_c_15 (constantI S_ 32 4#32),
    StableHlo.unary main_c_15 main_v71 (broadcastInDim S4 ![] bcast_S_S4 : (⟨S_, .i32⟩ : BufTy).Contents (Elt F) → (⟨S4, .i32⟩ : BufTy).Contents (Elt F)),
    StableHlo.binary main_c main_v71 main_v72 (addi : (⟨S4, .i32⟩ : BufTy).Contents (Elt F) → (⟨S4, .i32⟩ : BufTy).Contents (Elt F) → (⟨S4, .i32⟩ : BufTy).Contents (Elt F)),
    StableHlo.ternary main_c_5 main_v72 main_c main_v73 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v73 main_v74 (broadcastInDim S4x1 ![0] bcast_S4_S4x1_0 : (⟨S4, .i32⟩ : BufTy).Contents (Elt F) → (⟨S4x1, .i32⟩ : BufTy).Contents (Elt F)),
    StableHlo.binary main_v70 main_v74 main_v75 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg12_W : List (Ref sig .tc) := [main_c_15, main_v71, main_v72, main_v73, main_v74, main_v75]
theorem seg12_writes : (seg12 (F := F)).Forall fun op => op.writes ⊆ (seg12_W.map (Proc.devRef (τ := τ) .tc)).toFinset := by
  simp only [seg12, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg12_keep (W : Valuation τ sig (Elt F)) (r : Ref sig .tc) (h : r ∉ seg12_W) :
    after seg12 W (no_index (Proc.devRef .tc r)) = W (Proc.devRef .tc r) :=
  after_of_writes_sub seg12 W seg12_writes h
theorem seg12_out (W : Valuation τ sig (Elt Ideal)) :
    after (seg12 (F := Ideal)) W (Proc.devRef .tc main_v75) = gath (W (Proc.devRef .tc main_v70)) (W (Proc.devRef .tc main_c)) (W (Proc.devRef .tc main_c_5)) := by
  simp only [seg12]
  after_results_simp <;> rfl
theorem seg12_out' (W : Valuation τ sig (Elt Ideal)) :
    after (seg12 (F := Ideal)) W (no_index (Proc.devRef .tc main_v75)) = gath (W (Proc.devRef .tc main_v70)) (W (Proc.devRef .tc main_c)) (W (Proc.devRef .tc main_c_5)) := seg12_out W

/-- Operations 95 … 103. -/
def seg13 : List (HloOp τ sig (Elt F)) :=
  [ StableHlo.unary main_arg3 main_v76 ((extractStridedSlice S1x2x2 ![0, 0, 0] · slices_S4x2x2_S1x2x2_0_0_0) : (⟨S4x2x2, .f32⟩ : BufTy).Contents (Elt F) → (⟨S1x2x2, .f32⟩ : BufTy).Contents (Elt F)),
    StableHlo.reshape main_v76 main_v77 rfl shapeCasts_S1x2x2_S2x2,
    StableHlo.unary main_v77 main_v78 ((transpose S2x2 [1, 0] · transposes_S2x2_S2x2_1_0) : (⟨S2x2, .f32⟩ : BufTy).Contents (Elt F) → (⟨S2x2, .f32⟩ : BufTy).Contents (Elt F)),
    StableHlo.binary main_v77 main_v78 main_v79 (addf : (⟨S2x2, .f32⟩ : BufTy).Contents (Elt F) → (⟨S2x2, .f32⟩ : BufTy).Contents (Elt F) → (⟨S2x2, .f32⟩ : BufTy).Contents (Elt F)),
    StableHlo.unary main_v75 main_v80 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v75 main_v81 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v80 main_v79 main_v82 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v81 main_v82 main_v83 (addf : (⟨S8388608x2, .f32⟩ : BufTy).Contents (Elt F) → (⟨S8388608x2, .f32⟩ : BufTy).Contents (Elt F) → (⟨S8388608x2, .f32⟩ : BufTy).Contents (Elt F)),
    StableHlo.binary main_v80 main_v83 main_v84 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg13_W : List (Ref sig .tc) := [main_v76, main_v77, main_v78, main_v79, main_v80, main_v81, main_v82, main_v83, main_v84]
theorem seg13_writes : (seg13 (F := F)).Forall fun op => op.writes ⊆ (seg13_W.map (Proc.devRef (τ := τ) .tc)).toFinset := by
  simp only [seg13, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg13_keep (W : Valuation τ sig (Elt F)) (r : Ref sig .tc) (h : r ∉ seg13_W) :
    after seg13 W (no_index (Proc.devRef .tc r)) = W (Proc.devRef .tc r) :=
  after_of_writes_sub seg13 W seg13_writes h
theorem seg13_out (W : Valuation τ sig (Elt Ideal)) :
    after (seg13 (F := Ideal)) W (Proc.devRef .tc main_v84) = lowStage (W (Proc.devRef .tc main_v75)) (symS (W (Proc.devRef .tc main_arg3)) ![0, 0, 0] slices_S4x2x2_S1x2x2_0_0_0) := by
  simp only [seg13]
  after_results_simp <;> rfl
theorem seg13_out' (W : Valuation τ sig (Elt Ideal)) :
    after (seg13 (F := Ideal)) W (no_index (Proc.devRef .tc main_v84)) = lowStage (W (Proc.devRef .tc main_v75)) (symS (W (Proc.devRef .tc main_arg3)) ![0, 0, 0] slices_S4x2x2_S1x2x2_0_0_0) := seg13_out W

/-- Operations 104 … 112. -/
def seg14 : List (HloOp τ sig (Elt F)) :=
  [ StableHlo.unary main_arg3 main_v85 ((extractStridedSlice S1x2x2 ![1, 0, 0] · slices_S4x2x2_S1x2x2_1_0_0) : (⟨S4x2x2, .f32⟩ : BufTy).Contents (Elt F) → (⟨S1x2x2, .f32⟩ : BufTy).Contents (Elt F)),
    StableHlo.reshape main_v85 main_v86 rfl shapeCasts_S1x2x2_S2x2,
    StableHlo.unary main_v86 main_v87 ((transpose S2x2 [1, 0] · transposes_S2x2_S2x2_1_0) : (⟨S2x2, .f32⟩ : BufTy).Contents (Elt F) → (⟨S2x2, .f32⟩ : BufTy).Contents (Elt F)),
    StableHlo.binary main_v86 main_v87 main_v88 (addf : (⟨S2x2, .f32⟩ : BufTy).Contents (Elt F) → (⟨S2x2, .f32⟩ : BufTy).Contents (Elt F) → (⟨S2x2, .f32⟩ : BufTy).Contents (Elt F)),
    StableHlo.unary main_v84 main_v89 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v84 main_v90 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v90 main_v88 main_v91 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v89 main_v91 main_v92 (addf : (⟨S8388608x2, .f32⟩ : BufTy).Contents (Elt F) → (⟨S8388608x2, .f32⟩ : BufTy).Contents (Elt F) → (⟨S8388608x2, .f32⟩ : BufTy).Contents (Elt F)),
    StableHlo.binary main_v92 main_v90 main_v93 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg14_W : List (Ref sig .tc) := [main_v85, main_v86, main_v87, main_v88, main_v89, main_v90, main_v91, main_v92, main_v93]
theorem seg14_writes : (seg14 (F := F)).Forall fun op => op.writes ⊆ (seg14_W.map (Proc.devRef (τ := τ) .tc)).toFinset := by
  simp only [seg14, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg14_keep (W : Valuation τ sig (Elt F)) (r : Ref sig .tc) (h : r ∉ seg14_W) :
    after seg14 W (no_index (Proc.devRef .tc r)) = W (Proc.devRef .tc r) :=
  after_of_writes_sub seg14 W seg14_writes h
theorem seg14_out (W : Valuation τ sig (Elt Ideal)) :
    after (seg14 (F := Ideal)) W (Proc.devRef .tc main_v93) = upStage (W (Proc.devRef .tc main_v84)) (symS (W (Proc.devRef .tc main_arg3)) ![1, 0, 0] slices_S4x2x2_S1x2x2_1_0_0) := by
  simp only [seg14]
  after_results_simp <;> rfl
theorem seg14_out' (W : Valuation τ sig (Elt Ideal)) :
    after (seg14 (F := Ideal)) W (no_index (Proc.devRef .tc main_v93)) = upStage (W (Proc.devRef .tc main_v84)) (symS (W (Proc.devRef .tc main_arg3)) ![1, 0, 0] slices_S4x2x2_S1x2x2_1_0_0) := seg14_out W

/-- Operations 113 … 121. -/
def seg15 : List (HloOp τ sig (Elt F)) :=
  [ StableHlo.unary main_arg3 main_v94 ((extractStridedSlice S1x2x2 ![2, 0, 0] · slices_S4x2x2_S1x2x2_2_0_0) : (⟨S4x2x2, .f32⟩ : BufTy).Contents (Elt F) → (⟨S1x2x2, .f32⟩ : BufTy).Contents (Elt F)),
    StableHlo.reshape main_v94 main_v95 rfl shapeCasts_S1x2x2_S2x2,
    StableHlo.unary main_v95 main_v96 ((transpose S2x2 [1, 0] · transposes_S2x2_S2x2_1_0) : (⟨S2x2, .f32⟩ : BufTy).Contents (Elt F) → (⟨S2x2, .f32⟩ : BufTy).Contents (Elt F)),
    StableHlo.binary main_v95 main_v96 main_v97 (addf : (⟨S2x2, .f32⟩ : BufTy).Contents (Elt F) → (⟨S2x2, .f32⟩ : BufTy).Contents (Elt F) → (⟨S2x2, .f32⟩ : BufTy).Contents (Elt F)),
    StableHlo.unary main_v93 main_v98 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v93 main_v99 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v98 main_v97 main_v100 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v99 main_v100 main_v101 (addf : (⟨S8388608x2, .f32⟩ : BufTy).Contents (Elt F) → (⟨S8388608x2, .f32⟩ : BufTy).Contents (Elt F) → (⟨S8388608x2, .f32⟩ : BufTy).Contents (Elt F)),
    StableHlo.binary main_v98 main_v101 main_v102 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg15_W : List (Ref sig .tc) := [main_v94, main_v95, main_v96, main_v97, main_v98, main_v99, main_v100, main_v101, main_v102]
theorem seg15_writes : (seg15 (F := F)).Forall fun op => op.writes ⊆ (seg15_W.map (Proc.devRef (τ := τ) .tc)).toFinset := by
  simp only [seg15, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg15_keep (W : Valuation τ sig (Elt F)) (r : Ref sig .tc) (h : r ∉ seg15_W) :
    after seg15 W (no_index (Proc.devRef .tc r)) = W (Proc.devRef .tc r) :=
  after_of_writes_sub seg15 W seg15_writes h
theorem seg15_out (W : Valuation τ sig (Elt Ideal)) :
    after (seg15 (F := Ideal)) W (Proc.devRef .tc main_v102) = lowStage (W (Proc.devRef .tc main_v93)) (symS (W (Proc.devRef .tc main_arg3)) ![2, 0, 0] slices_S4x2x2_S1x2x2_2_0_0) := by
  simp only [seg15]
  after_results_simp <;> rfl
theorem seg15_out' (W : Valuation τ sig (Elt Ideal)) :
    after (seg15 (F := Ideal)) W (no_index (Proc.devRef .tc main_v102)) = lowStage (W (Proc.devRef .tc main_v93)) (symS (W (Proc.devRef .tc main_arg3)) ![2, 0, 0] slices_S4x2x2_S1x2x2_2_0_0) := seg15_out W

/-- Operations 122 … 130. -/
def seg16 : List (HloOp τ sig (Elt F)) :=
  [ StableHlo.unary main_arg3 main_v103 ((extractStridedSlice S1x2x2 ![3, 0, 0] · slices_S4x2x2_S1x2x2_3_0_0) : (⟨S4x2x2, .f32⟩ : BufTy).Contents (Elt F) → (⟨S1x2x2, .f32⟩ : BufTy).Contents (Elt F)),
    StableHlo.reshape main_v103 main_v104 rfl shapeCasts_S1x2x2_S2x2,
    StableHlo.unary main_v104 main_v105 ((transpose S2x2 [1, 0] · transposes_S2x2_S2x2_1_0) : (⟨S2x2, .f32⟩ : BufTy).Contents (Elt F) → (⟨S2x2, .f32⟩ : BufTy).Contents (Elt F)),
    StableHlo.binary main_v104 main_v105 main_v106 (addf : (⟨S2x2, .f32⟩ : BufTy).Contents (Elt F) → (⟨S2x2, .f32⟩ : BufTy).Contents (Elt F) → (⟨S2x2, .f32⟩ : BufTy).Contents (Elt F)),
    StableHlo.unary main_v102 main_v107 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v102 main_v108 ((extractStridedSlice S8388608x2 ![0, 2] · slices_S8388608x4_S8388608x2_0_2) : (⟨S8388608x4, .f32⟩ : BufTy).Contents (Elt F) → (⟨S8388608x2, .f32⟩ : BufTy).Contents (Elt F)),
    StableHlo.binary main_v108 main_v106 main_v109 ((fun l r => Host.dotGeneral dot_S8388608x2_S2x2_S8388608x2_1_0_0_1_n_n none l r) : (⟨S8388608x2, .f32⟩ : BufTy).Contents (Elt F) → (⟨S2x2, .f32⟩ : BufTy).Contents (Elt F) → (⟨S8388608x2, .f32⟩ : BufTy).Contents (Elt F)),
    StableHlo.binary main_v107 main_v109 main_v110 (addf : (⟨S8388608x2, .f32⟩ : BufTy).Contents (Elt F) → (⟨S8388608x2, .f32⟩ : BufTy).Contents (Elt F) → (⟨S8388608x2, .f32⟩ : BufTy).Contents (Elt F)),
    StableHlo.binary main_v110 main_v108 main_v111 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg16_W : List (Ref sig .tc) := [main_v103, main_v104, main_v105, main_v106, main_v107, main_v108, main_v109, main_v110, main_v111]
theorem seg16_writes : (seg16 (F := F)).Forall fun op => op.writes ⊆ (seg16_W.map (Proc.devRef (τ := τ) .tc)).toFinset := by
  simp only [seg16, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg16_keep (W : Valuation τ sig (Elt F)) (r : Ref sig .tc) (h : r ∉ seg16_W) :
    after seg16 W (no_index (Proc.devRef .tc r)) = W (Proc.devRef .tc r) :=
  after_of_writes_sub seg16 W seg16_writes h
theorem seg16_out (W : Valuation τ sig (Elt Ideal)) :
    after (seg16 (F := Ideal)) W (Proc.devRef .tc main_v111) = upStage (W (Proc.devRef .tc main_v102)) (symS (W (Proc.devRef .tc main_arg3)) ![3, 0, 0] slices_S4x2x2_S1x2x2_3_0_0) := by
  simp only [seg16]
  after_results_simp <;> rfl
theorem seg16_out' (W : Valuation τ sig (Elt Ideal)) :
    after (seg16 (F := Ideal)) W (no_index (Proc.devRef .tc main_v111)) = upStage (W (Proc.devRef .tc main_v102)) (symS (W (Proc.devRef .tc main_arg3)) ![3, 0, 0] slices_S4x2x2_S1x2x2_3_0_0) := seg16_out W

/-- Operations 131 … 133. -/
def seg17 : List (HloOp τ sig (Elt F)) :=
  [ StableHlo.nullary main_cst_16 (constant S_ .f32 0x3F800000#32),
    StableHlo.unary main_cst_16 main_v112 (broadcastInDim S8388608x4 ![] bcast_S_S8388608x4 : (⟨S_, .f32⟩ : BufTy).Contents (Elt F) → (⟨S8388608x4, .f32⟩ : BufTy).Contents (Elt F)),
    StableHlo.binary main_v111 main_v112 main_v113 (addf : (⟨S8388608x4, .f32⟩ : BufTy).Contents (Elt F) → (⟨S8388608x4, .f32⟩ : BufTy).Contents (Elt F) → (⟨S8388608x4, .f32⟩ : BufTy).Contents (Elt F)) ]
/-- The buffers they write. -/
abbrev seg17_W : List (Ref sig .tc) := [main_cst_16, main_v112, main_v113]
theorem seg17_writes : (seg17 (F := F)).Forall fun op => op.writes ⊆ (seg17_W.map (Proc.devRef (τ := τ) .tc)).toFinset := by
  simp only [seg17, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg17_keep (W : Valuation τ sig (Elt F)) (r : Ref sig .tc) (h : r ∉ seg17_W) :
    after seg17 W (no_index (Proc.devRef .tc r)) = W (Proc.devRef .tc r) :=
  after_of_writes_sub seg17 W seg17_writes h
theorem seg17_out (W : Valuation τ sig (Elt Ideal)) :
    after (seg17 (F := Ideal)) W (Proc.devRef .tc main_v113) = plusStage (W (Proc.devRef .tc main_v111)) := by
  simp only [seg17]
  after_results_simp <;> rfl
theorem seg17_out' (W : Valuation τ sig (Elt Ideal)) :
    after (seg17 (F := Ideal)) W (no_index (Proc.devRef .tc main_v113)) = plusStage (W (Proc.devRef .tc main_v111)) := seg17_out W

/-- Operations 134 … 139. -/
def seg18 : List (HloOp τ sig (Elt F)) :=
  [ StableHlo.nullary main_c_17 (constantI S_ 32 4#32),
    StableHlo.unary main_c_17 main_v114 (broadcastInDim S4 ![] bcast_S_S4 : (⟨S_, .i32⟩ : BufTy).Contents (Elt F) → (⟨S4, .i32⟩ : BufTy).Contents (Elt F)),
    StableHlo.binary main_c main_v114 main_v115 (addi : (⟨S4, .i32⟩ : BufTy).Contents (Elt F) → (⟨S4, .i32⟩ : BufTy).Contents (Elt F) → (⟨S4, .i32⟩ : BufTy).Contents (Elt F)),
    StableHlo.ternary main_c_6 main_v115 main_c main_v116 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v116 main_v117 (broadcastInDim S4x1 ![0] bcast_S4_S4x1_0 : (⟨S4, .i32⟩ : BufTy).Contents (Elt F) → (⟨S4x1, .i32⟩ : BufTy).Contents (Elt F)),
    StableHlo.binary main_v113 main_v117 main_v118 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg18_W : List (Ref sig .tc) := [main_c_17, main_v114, main_v115, main_v116, main_v117, main_v118]
theorem seg18_writes : (seg18 (F := F)).Forall fun op => op.writes ⊆ (seg18_W.map (Proc.devRef (τ := τ) .tc)).toFinset := by
  simp only [seg18, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg18_keep (W : Valuation τ sig (Elt F)) (r : Ref sig .tc) (h : r ∉ seg18_W) :
    after seg18 W (no_index (Proc.devRef .tc r)) = W (Proc.devRef .tc r) :=
  after_of_writes_sub seg18 W seg18_writes h
theorem seg18_out (W : Valuation τ sig (Elt Ideal)) :
    after (seg18 (F := Ideal)) W (Proc.devRef .tc main_v118) = gath (W (Proc.devRef .tc main_v113)) (W (Proc.devRef .tc main_c)) (W (Proc.devRef .tc main_c_6)) := by
  simp only [seg18]
  after_results_simp <;> rfl
theorem seg18_out' (W : Valuation τ sig (Elt Ideal)) :
    after (seg18 (F := Ideal)) W (no_index (Proc.devRef .tc main_v118)) = gath (W (Proc.devRef .tc main_v113)) (W (Proc.devRef .tc main_c)) (W (Proc.devRef .tc main_c_6)) := seg18_out W

/-- Operations 140 … 145. -/
def seg19 : List (HloOp τ sig (Elt F)) :=
  [ StableHlo.nullary main_c_18 (constantI S_ 32 4#32),
    StableHlo.unary main_c_18 main_v119 (broadcastInDim S4 ![] bcast_S_S4 : (⟨S_, .i32⟩ : BufTy).Contents (Elt F) → (⟨S4, .i32⟩ : BufTy).Contents (Elt F)),
    StableHlo.binary main_c main_v119 main_v120 (addi : (⟨S4, .i32⟩ : BufTy).Contents (Elt F) → (⟨S4, .i32⟩ : BufTy).Contents (Elt F) → (⟨S4, .i32⟩ : BufTy).Contents (Elt F)),
    StableHlo.ternary main_c_7 main_v120 main_c main_v121 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v121 main_v122 (broadcastInDim S4x1 ![0] bcast_S4_S4x1_0 : (⟨S4, .i32⟩ : BufTy).Contents (Elt F) → (⟨S4x1, .i32⟩ : BufTy).Contents (Elt F)),
    StableHlo.binary main_v118 main_v122 main_v123 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg19_W : List (Ref sig .tc) := [main_c_18, main_v119, main_v120, main_v121, main_v122, main_v123]
theorem seg19_writes : (seg19 (F := F)).Forall fun op => op.writes ⊆ (seg19_W.map (Proc.devRef (τ := τ) .tc)).toFinset := by
  simp only [seg19, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg19_keep (W : Valuation τ sig (Elt F)) (r : Ref sig .tc) (h : r ∉ seg19_W) :
    after seg19 W (no_index (Proc.devRef .tc r)) = W (Proc.devRef .tc r) :=
  after_of_writes_sub seg19 W seg19_writes h
theorem seg19_out (W : Valuation τ sig (Elt Ideal)) :
    after (seg19 (F := Ideal)) W (Proc.devRef .tc main_v123) = gath (W (Proc.devRef .tc main_v118)) (W (Proc.devRef .tc main_c)) (W (Proc.devRef .tc main_c_7)) := by
  simp only [seg19]
  after_results_simp <;> rfl
theorem seg19_out' (W : Valuation τ sig (Elt Ideal)) :
    after (seg19 (F := Ideal)) W (no_index (Proc.devRef .tc main_v123)) = gath (W (Proc.devRef .tc main_v118)) (W (Proc.devRef .tc main_c)) (W (Proc.devRef .tc main_c_7)) := seg19_out W

/-- Operations 146 … 153. -/
def seg20 : List (HloOp τ sig (Elt F)) :=
  [ StableHlo.unary main_v123 main_v124 ((extractStridedSlice S8388608x2 ![0, 0] · slices_S8388608x4_S8388608x2_0_0) : (⟨S8388608x4, .f32⟩ : BufTy).Contents (Elt F) → (⟨S8388608x2, .f32⟩ : BufTy).Contents (Elt F)),
    StableHlo.unary main_v123 main_v125 ((extractStridedSlice S8388608x2 ![0, 2] · slices_S8388608x4_S8388608x2_0_2) : (⟨S8388608x4, .f32⟩ : BufTy).Contents (Elt F) → (⟨S8388608x2, .f32⟩ : BufTy).Contents (Elt F)),
    StableHlo.unary main_v124 main_v126 (Host.tanh : (⟨S8388608x2, .f32⟩ : BufTy).Contents (Elt F) → (⟨S8388608x2, .f32⟩ : BufTy).Contents (Elt F)),
    StableHlo.unary main_arg4 main_v127 (broadcastInDim S1x2 ![1] bcast_S2_S1x2_1 : (⟨S2, .f32⟩ : BufTy).Contents (Elt F) → (⟨S1x2, .f32⟩ : BufTy).Contents (Elt F)),
    StableHlo.unary main_v127 main_v128 (broadcastInDim S8388608x2 ![0, 1] bcast_S1x2_S8388608x2_0_1 : (⟨S1x2, .f32⟩ : BufTy).Contents (Elt F) → (⟨S8388608x2, .f32⟩ : BufTy).Contents (Elt F)),
    StableHlo.binary main_v128 main_v126 main_v129 (mulf : (⟨S8388608x2, .f32⟩ : BufTy).Contents (Elt F) → (⟨S8388608x2, .f32⟩ : BufTy).Contents (Elt F) → (⟨S8388608x2, .f32⟩ : BufTy).Contents (Elt F)),
    StableHlo.binary main_v125 main_v129 main_v130 (addf : (⟨S8388608x2, .f32⟩ : BufTy).Contents (Elt F) → (⟨S8388608x2, .f32⟩ : BufTy).Contents (Elt F) → (⟨S8388608x2, .f32⟩ : BufTy).Contents (Elt F)),
    StableHlo.binary main_v124 main_v130 main_v131 ((fun a b => concatenate S8388608x4 1 [⟨S8388608x2, a⟩, ⟨S8388608x2, b⟩] concatenates_S8388608x2_S8388608x2_S8388608x4_d1) : (⟨S8388608x2, .f32⟩ : BufTy).Contents (Elt F) → (⟨S8388608x2, .f32⟩ : BufTy).Contents (Elt F) → (⟨S8388608x4, .f32⟩ : BufTy).Contents (Elt F)) ]
/-- The buffers they write. -/
abbrev seg20_W : List (Ref sig .tc) := [main_v124, main_v125, main_v126, main_v127, main_v128, main_v129, main_v130, main_v131]
theorem seg20_writes : (seg20 (F := F)).Forall fun op => op.writes ⊆ (seg20_W.map (Proc.devRef (τ := τ) .tc)).toFinset := by
  simp only [seg20, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg20_keep (W : Valuation τ sig (Elt F)) (r : Ref sig .tc) (h : r ∉ seg20_W) :
    after seg20 W (no_index (Proc.devRef .tc r)) = W (Proc.devRef .tc r) :=
  after_of_writes_sub seg20 W seg20_writes h
theorem seg20_out (W : Valuation τ sig (Elt Ideal)) :
    after (seg20 (F := Ideal)) W (Proc.devRef .tc main_v131) = actLowStage (W (Proc.devRef .tc main_v123)) (W (Proc.devRef .tc main_arg4)) := by
  simp only [seg20]
  after_results_simp <;> rfl
theorem seg20_out' (W : Valuation τ sig (Elt Ideal)) :
    after (seg20 (F := Ideal)) W (no_index (Proc.devRef .tc main_v131)) = actLowStage (W (Proc.devRef .tc main_v123)) (W (Proc.devRef .tc main_arg4)) := seg20_out W

/-- Operations 154 … 159. -/
def seg21 : List (HloOp τ sig (Elt F)) :=
  [ StableHlo.nullary main_c_19 (constantI S_ 32 4#32),
    StableHlo.unary main_c_19 main_v132 (broadcastInDim S4 ![] bcast_S_S4 : (⟨S_, .i32⟩ : BufTy).Contents (Elt F) → (⟨S4, .i32⟩ : BufTy).Contents (Elt F)),
    StableHlo.binary main_c main_v132 main_v133 (addi : (⟨S4, .i32⟩ : BufTy).Contents (Elt F) → (⟨S4, .i32⟩ : BufTy).Contents (Elt F) → (⟨S4, .i32⟩ : BufTy).Contents (Elt F)),
    StableHlo.ternary main_c_8 main_v133 main_c main_v134 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v134 main_v135 (broadcastInDim S4x1 ![0] bcast_S4_S4x1_0 : (⟨S4, .i32⟩ : BufTy).Contents (Elt F) → (⟨S4x1, .i32⟩ : BufTy).Contents (Elt F)),
    StableHlo.binary main_v131 main_v135 main_v136 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg21_W : List (Ref sig .tc) := [main_c_19, main_v132, main_v133, main_v134, main_v135, main_v136]
theorem seg21_writes : (seg21 (F := F)).Forall fun op => op.writes ⊆ (seg21_W.map (Proc.devRef (τ := τ) .tc)).toFinset := by
  simp only [seg21, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg21_keep (W : Valuation τ sig (Elt F)) (r : Ref sig .tc) (h : r ∉ seg21_W) :
    after seg21 W (no_index (Proc.devRef .tc r)) = W (Proc.devRef .tc r) :=
  after_of_writes_sub seg21 W seg21_writes h
theorem seg21_out (W : Valuation τ sig (Elt Ideal)) :
    after (seg21 (F := Ideal)) W (Proc.devRef .tc main_v136) = gath (W (Proc.devRef .tc main_v131)) (W (Proc.devRef .tc main_c)) (W (Proc.devRef .tc main_c_8)) := by
  simp only [seg21]
  after_results_simp <;> rfl
theorem seg21_out' (W : Valuation τ sig (Elt Ideal)) :
    after (seg21 (F := Ideal)) W (no_index (Proc.devRef .tc main_v136)) = gath (W (Proc.devRef .tc main_v131)) (W (Proc.devRef .tc main_c)) (W (Proc.devRef .tc main_c_8)) := seg21_out W

/-- Operations 160 … 165. -/
def seg22 : List (HloOp τ sig (Elt F)) :=
  [ StableHlo.nullary main_c_20 (constantI S_ 32 4#32),
    StableHlo.unary main_c_20 main_v137 (broadcastInDim S4 ![] bcast_S_S4 : (⟨S_, .i32⟩ : BufTy).Contents (Elt F) → (⟨S4, .i32⟩ : BufTy).Contents (Elt F)),
    StableHlo.binary main_c main_v137 main_v138 (addi : (⟨S4, .i32⟩ : BufTy).Contents (Elt F) → (⟨S4, .i32⟩ : BufTy).Contents (Elt F) → (⟨S4, .i32⟩ : BufTy).Contents (Elt F)),
    StableHlo.ternary main_c_9 main_v138 main_c main_v139 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v139 main_v140 (broadcastInDim S4x1 ![0] bcast_S4_S4x1_0 : (⟨S4, .i32⟩ : BufTy).Contents (Elt F) → (⟨S4x1, .i32⟩ : BufTy).Contents (Elt F)),
    StableHlo.binary main_v136 main_v140 main_v141 ((fun x i => Host.gather gather_S8388608x4_S4x1_S8388608x4_0_1_n_n_1_1_83886081 x i) : (⟨S8388608x4, .f32⟩ : BufTy).Contents (Elt F) → (⟨S4x1, .i32⟩ : BufTy).Contents (Elt F) → (⟨S8388608x4, .f32⟩ : BufTy).Contents (Elt F)) ]
/-- The buffers they write. -/
abbrev seg22_W : List (Ref sig .tc) := [main_c_20, main_v137, main_v138, main_v139, main_v140, main_v141]
theorem seg22_writes : (seg22 (F := F)).Forall fun op => op.writes ⊆ (seg22_W.map (Proc.devRef (τ := τ) .tc)).toFinset := by
  simp only [seg22, List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem seg22_keep (W : Valuation τ sig (Elt F)) (r : Ref sig .tc) (h : r ∉ seg22_W) :
    after seg22 W (no_index (Proc.devRef .tc r)) = W (Proc.devRef .tc r) :=
  after_of_writes_sub seg22 W seg22_writes h
theorem seg22_out (W : Valuation τ sig (Elt Ideal)) :
    after (seg22 (F := Ideal)) W (Proc.devRef .tc main_v141) = gath (W (Proc.devRef .tc main_v136)) (W (Proc.devRef .tc main_c)) (W (Proc.devRef .tc main_c_9)) := by
  simp only [seg22]
  after_results_simp <;> rfl
theorem seg22_out' (W : Valuation τ sig (Elt Ideal)) :
    after (seg22 (F := Ideal)) W (no_index (Proc.devRef .tc main_v141)) = gath (W (Proc.devRef .tc main_v136)) (W (Proc.devRef .tc main_c)) (W (Proc.devRef .tc main_c_9)) := seg22_out W

/-! ## The whole list -/

set_option maxHeartbeats 1000000 in
theorem ops_split : HRun.ops (F := F) = seg0 ++ seg1 ++ seg2 ++ seg3 ++ seg4 ++ seg5 ++ seg6 ++ seg7 ++ seg8 ++ seg9 ++ seg10 ++ seg11 ++ seg12 ++ seg13 ++ seg14 ++ seg15 ++ seg16 ++ seg17 ++ seg18 ++ seg19 ++ seg20 ++ seg21 ++ seg22 := by
  simp only [HRun.ops, HRun.ops0, HRun.ops1, HRun.ops2, seg0, seg1, seg2, seg3, seg4, seg5, seg6, seg7, seg8, seg9, seg10, seg11, seg12, seg13, seg14, seg15, seg16, seg17, seg18, seg19, seg20, seg21, seg22, List.cons_append, List.nil_append]

set_option maxHeartbeats 1000000 in
/-- The result buffer after the whole list: the chain of stages of the five arguments' contents. -/
theorem result_chain (V : Valuation τ sig (Elt Ideal)) :
    after (HRun.ops (F := Ideal)) V (Proc.devRef .tc main_v141)
      = refFn (V (Proc.devRef .tc main_arg0)) (V (Proc.devRef .tc main_arg1)) (V (Proc.devRef .tc main_arg2)) (V (Proc.devRef .tc main_arg3)) (V (Proc.devRef .tc main_arg4)) := by
  rw [ops_split]
  simp only [after_app]
  simp (disch := decide) only [seg1_out', seg2_out', seg3_out', seg4_out', seg5_out', seg6_out', seg7_out', seg8_out', seg9_out', seg10_out', seg11_out', seg12_out', seg13_out', seg14_out', seg15_out', seg16_out', seg17_out', seg18_out', seg19_out', seg20_out', seg21_out', seg22_out',
    seg0_c', seg0_m0', seg0_m1', seg0_m2', seg0_m3', seg0_m4', seg0_m5', seg0_m6', seg0_m7', seg0_m8', seg0_m9',
    seg0_keep, seg1_keep, seg2_keep, seg3_keep, seg4_keep, seg5_keep, seg6_keep, seg7_keep, seg8_keep, seg9_keep, seg10_keep, seg11_keep, seg12_keep, seg13_keep, seg14_keep, seg15_keep, seg16_keep, seg17_keep, seg18_keep, seg19_keep, seg20_keep, seg21_keep, seg22_keep]
  rfl

/-- The result buffer read back as the specification. -/
theorem result_eq (m : (ℓ : Loc nD τ sig) → Buf (Elt Ideal) ℓ) (c : Dev nD) :
    StableHlo.after (HRun.ops (F := Ideal)) (StableHlo.launchContents m c) (Proc.devRef .tc main_v141)
      = Cert.ChainSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (result_chain (StableHlo.launchContents m c)).trans (refFn_eq _ _ _ _ _)

/-- Every weakly fair execution of the reference terminates with the result buffer at the specification of the
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v141) = Cert.ChainSpec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c main_v141).trans (result_eq m c),
      (h c main_arg0).trans (HRun.kept_arg0 m c), (h c main_arg1).trans (HRun.kept_arg1 m c),
      (h c main_arg2).trans (HRun.kept_arg2 m c), (h c main_arg3).trans (HRun.kept_arg3 m c),
      (h c main_arg4).trans (HRun.kept_arg4 m c)⟩)
    (HRun.run m ρ)

end Cert.ReferenceIdeal.RefValue

end
-- ==== Proof.lean ====
/-
  The chain kernel against its step-by-step reference, on the extended reals.

  Per row `v` of the first argument both programs compute
  `R · actLow · R · (+1) · up T₃ · low T₂ · up T₁ · low T₀ · R · actUp · R · (+1) · low S₃ · up S₂ · low S₁ · up S₀ · R`
  applied to `v`, with `R` the reversal of a 4-vector, `S_k`, `T_k` the symmetrised 2 × 2 slices of the two weight
  arrays, `up` / `low` the two shears and `actUp` / `actLow` the two tanh taps (Proof/ChainSpec.lean).
  The reference does it step by step on the host: its index permutation `[1, 3, 0, 2]` applied twice is the reversal
  (Proof/RefRun.lean, RefReads.lean, RefValue.lean). The kernel multiplies the eight shears and four reversals into
  two 4 × 4 matrices on the host (Proof/KHostSeg.lean, KHostA2.lean, KHostB2.lean, KHostC.lean read them off the operation list, stage by stage,
  as terms over Proof/KHostDefs.lean; Proof/KHostRead.lean and KHostCoe.lean read those entry by entry) and then, block of 4096 rows by block, applies two matrix
  products, two taps and one reversal (Proof/KPayload.lean; Proof/KValueBlocks.lean assembles the blocks into the
  array). The two agree by associativity of the matrix product (Proof/ChainReal.lean), which needs distributivity and
  therefore finiteness: the precondition makes every argument real (Proof/KFinite.lean), and on real data every
  operation of the extended reals used here restricts to the reals (Proof/ChainCoe.lean, Proof/KBridge.lean).
  Each program runs to the end without a fault and leaves its arguments unchanged (Proof/KFrameBits.lean,
  Proof/KFrameIdeal.lean for the two copies of the kernel's program; the reference's run for the reference).
  The idealization rewrote nothing, so `preserves` has no conjunct.
-/
import proofs.«143413_j47167330845370_2_alg».proof.Defs
import proofs.«143413_j47167330845370_2_alg».proof.Proof.Gen.Kernel
import proofs.«143413_j47167330845370_2_alg».proof.Proof.Gen.KernelIdeal
import proofs.«143413_j47167330845370_2_alg».proof.Proof.Gen.ReferenceIdeal
import proofs.«143413_j47167330845370_2_alg».proof.Proof.Gen.Pre_finite_inputs
import proofs.«143413_j47167330845370_2_alg».proof.Proof.KFrameBits
import proofs.«143413_j47167330845370_2_alg».proof.Proof.KFrameIdeal
import proofs.«143413_j47167330845370_2_alg».proof.Proof.KValueBlocks
import proofs.«143413_j47167330845370_2_alg».proof.Proof.KBridge
import proofs.«143413_j47167330845370_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel :
    Cert.frame_Kernel (hKernel := Cert.Kernel.Gen.facts) (hPre_finite_inputs := Cert.Pre_finite_inputs.Gen.facts) :=
  fun m ρ _ => Cert.Kernel.HFrame.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.HFrame.frame m ρ

/-- The reference's frame is its run with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- At the extended reals the kernel's result array (the blocks' payloads, assembled) and the reference's (the
    specification) are one function of arguments that agree, under the precondition. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.HValue.run_value (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact (Cert.KernelIdeal.Bridge.value_eq_spec (hPre := Cert.Pre_finite_inputs.Gen.facts) m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
